-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8x2048x11264 : Shape := ⟨3, ![8, 2048, 11264]⟩
abbrev S8x5632x2048 : Shape := ⟨3, ![8, 5632, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8x2048x11264 : S_.BroadcastsInDim S8x2048x11264 (![] : Fin 0 → Fin S8x2048x11264.rank)
  reducesTo_S8x2048x11264_S_d0_1_2 : S8x2048x11264.ReducesTo [0, 1, 2] S_
  bcast_S_S8x5632x2048 : S_.BroadcastsInDim S8x5632x2048 (![] : Fin 0 → Fin S8x5632x2048.rank)
  reducesTo_S8x5632x2048_S_d0_1_2 : S8x5632x2048.ReducesTo [0, 1, 2] S_

variable [Facts]

def fn {F : FTy → Type} [FloatOps F] (main_arg0 : FVec F S8192x2048 .f32) (main_arg1 : FVec F S8x2048x11264 .f32) (main_arg2 : FVec F S8x5632x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8x2048x11264 .f32 := Host.absf main_arg1
  let main_cst_0 : FVec F S_ .f32 := constant S_ .f32 0x7F800000#32
  let main_v5 : FVec F S8x2048x11264 .f32 := broadcastInDim S8x2048x11264 ![] bcast_S_S8x2048x11264 main_cst_0
  let main_v6 : IVec S8x2048x11264 1 := cmpf .olt main_v4 main_v5
  let main_c_1 : IVec S_ 1 := constantI S_ 1 1#1
  let main_v7 : IVec S_ 1 := (fun x v => Host.reduce IntOp.andi x v reducesTo_S8x2048x11264_S_d0_1_2 h_S_) main_v6 main_c_1
  let main_v8 : IVec S_ 1 := andi main_v3 main_v7
  let main_v9 : FVec F S8x5632x2048 .f32 := Host.absf main_arg2
  let main_cst_2 : FVec F S_ .f32 := constant S_ .f32 0x7F800000#32
  let main_v10 : FVec F S8x5632x2048 .f32 := broadcastInDim S8x5632x2048 ![] bcast_S_S8x5632x2048 main_cst_2
  let main_v11 : IVec S8x5632x2048 1 := cmpf .olt main_v9 main_v10
  let main_c_3 : IVec S_ 1 := constantI S_ 1 1#1
  let main_v12 : IVec S_ 1 := (fun x v => Host.reduce IntOp.andi x v reducesTo_S8x5632x2048_S_d0_1_2 h_S_) main_v11 main_c_3
  let main_v13 : IVec S_ 1 := andi main_v8 main_v12
  main_v13
-- ==== Kernel.lean ====
abbrev S8192x2048 : Shape := ⟨2, ![8192, 2048]⟩
abbrev S8x2048x11264 : Shape := ⟨3, ![8, 2048, 11264]⟩
abbrev S8x5632x2048 : Shape := ⟨3, ![8, 5632, 2048]⟩
abbrev S8x1024x2048 : Shape := ⟨3, ![8, 1024, 2048]⟩
abbrev S8x1024x5632 : Shape := ⟨3, ![8, 1024, 5632]⟩
abbrev S1x1024x256 : Shape := ⟨3, ![1, 1024, 256]⟩
abbrev S1x256x1408 : Shape := ⟨3, ![1, 256, 1408]⟩
abbrev S1x1024x1408 : Shape := ⟨3, ![1, 1024, 1408]⟩
abbrev S1024x1408 : Shape := ⟨2, ![1024, 1408]⟩
abbrev S1024x256 : Shape := ⟨2, ![1024, 256]⟩
abbrev S256x1408 : Shape := ⟨2, ![256, 1408]⟩
abbrev S1024x128 : Shape := ⟨2, ![1024, 128]⟩
abbrev S1x1024x128 : Shape := ⟨3, ![1, 1024, 128]⟩
abbrev S1x1024x512 : Shape := ⟨3, ![1, 1024, 512]⟩
abbrev S1x512x1024 : Shape := ⟨3, ![1, 512, 1024]⟩
abbrev S1x1024x1024 : Shape := ⟨3, ![1, 1024, 1024]⟩
abbrev S1024x1024 : Shape := ⟨2, ![1024, 1024]⟩
abbrev S1024x512 : Shape := ⟨2, ![1024, 512]⟩
abbrev S512x1024 : Shape := ⟨2, ![512, 1024]⟩

abbrev nBuf : Space → Nat
  | .hbm => 7
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8x2048x11264, .f32⟩
  | .hbm, ⟨2, _⟩ => ⟨S8x5632x2048, .f32⟩
  | .hbm, ⟨3, _⟩ => ⟨S8x1024x2048, .f32⟩
  | .hbm, ⟨4, _⟩ => ⟨S8x1024x5632, .bf16⟩
  | .hbm, ⟨5, _⟩ => ⟨S8x1024x2048, .f32⟩
  | .hbm, ⟨6, _⟩ => ⟨S8192x2048, .f32⟩
  | .local _ .vmem, ⟨0, _⟩ => ⟨S1x1024x256, .f32⟩
  | .local _ .vmem, ⟨1, _⟩ => ⟨S1x1024x256, .f32⟩
  | .local _ .vmem, ⟨2, _⟩ => ⟨S1x256x1408, .f32⟩
  | .local _ .vmem, ⟨3, _⟩ => ⟨S1x256x1408, .f32⟩
  | .local _ .vmem, ⟨4, _⟩ => ⟨S1x256x1408, .f32⟩
  | .local _ .vmem, ⟨5, _⟩ => ⟨S1x256x1408, .f32⟩
  | .local _ .vmem, ⟨6, _⟩ => ⟨S1x1024x1408, .bf16⟩
  | .local _ .vmem, ⟨7, _⟩ => ⟨S1x1024x1408, .bf16⟩
  | .local _ .vmem, ⟨8, _⟩ => ⟨S1024x1408, .f32⟩
  | .local _ .vmem, ⟨9, _⟩ => ⟨S1024x1408, .f32⟩
  | .local _ .vmem, ⟨10, _⟩ => ⟨S1x1024x512, .bf16⟩
  | .local _ .vmem, ⟨11, _⟩ => ⟨S1x1024x512, .bf16⟩
  | .local _ .vmem, ⟨12, _⟩ => ⟨S1x512x1024, .f32⟩
  | .local _ .vmem, ⟨13, _⟩ => ⟨S1x512x1024, .f32⟩
  | .local _ .vmem, ⟨14, _⟩ => ⟨S1x1024x1024, .f32⟩
  | .local _ .vmem, ⟨15, _⟩ => ⟨S1x1024x1024, .f32⟩
  | .local _ .vmem, ⟨16, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨3, ![8, 4, 8], ![false, false, false]⟩

def k0_cond2 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_18 : BitVec 32 := 0#32
  let v26 : BitVec 1 := Scalar.cmpi .ne v25 c0_i32_18
  v26

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi arg1 c4_i32
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev grid1 : Pipeline.Grid := ⟨3, ![8, 2, 11], ![false, false, false]⟩

def k1_cond2 (i : grid1.Coords) : BitVec 1 :=
  let arg2 : BitVec 32 := BitVec.ofNat 32 (i 2).val
  let c10_i32 : BitVec 32 := 10#32
  let v14 : BitVec 1 := Scalar.cmpi .eq arg2 c10_i32
  let v15 : BitVec 32 := Scalar.extui v14
  let c0_i32_10 : BitVec 32 := 0#32
  let v16 : BitVec 1 := Scalar.cmpi .ne v15 c0_i32_10
  v16

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage1_0 : Fin 2 → Memref sig .tc .vmem S1x1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

class Facts₀ : Prop where
  shapeCasts_S8192x2048_S8x1024x2048 : S8192x2048.ShapeCasts S8x1024x2048
  inb_S1024x1408_S1024x1408_0_0 : ∀ a, (![0, 0] : Fin 2 → Nat) a + S1024x1408.size a ≤ S1024x1408.size a
  h_S1024x1408 : 0 < S1024x1408.numel
  shapeCasts_S1024x1408_S1024x1408 : S1024x1408.ShapeCasts S1024x1408
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  bitsLt_bf16_f32 : FTy.bits .bf16 < FTy.bits .f32
  inb_S1x256x1408_S1x256x1408_0_0_0 : ∀ a, (![0, 0, 0] : Fin 3 → Nat) a + S1x256x1408.size a ≤ S1x256x1408.size a
  h_S1x256x1408 : 0 < S1x256x1408.numel
  shapeCasts_S1x256x1408_S256x1408 : S1x256x1408.ShapeCasts S256x1408
  inb_S1024x1408_S1024x128_0_0 : ∀ a, (![0, 0] : Fin 2 → Nat) a + S1024x128.size a ≤ S1024x1408.size a
  h_S1024x128 : 0 < S1024x128.numel
  inb_S1x1024x1408_S1x1024x128_0_0_0 : ∀ a, (![0, 0, 0] : Fin 3 → Nat) a + S1x1024x128.size a ≤ S1x1024x1408.size a
  h_S1x1024x128 : 0 < S1x1024x128.numel
  shapeCasts_S1x1024x128_S1024x128 : S1x1024x128.ShapeCasts S1024x128
  shapeCasts_S1024x128_S1x1024x128 : S1024x128.ShapeCasts S1x1024x128
  packedbf16_S1x1024x1408_S1x1024x128_0_0_0 : (Rect.unit (s := S1x1024x1408) ![0, 0, 0] S1x1024x128.size inb_S1x1024x1408_S1x1024x128_0_0_0).PackedRows (EltTy.packing .bf16)
  inb_S1024x1408_S1024x128_0_128 : ∀ a, (![0, 128] : Fin 2 → Nat) a + S1024x128.size a ≤ S1024x1408.size a
  inb_S1x1024x1408_S1x1024x128_0_0_128 : ∀ a, (![0, 0, 128] : Fin 3 → Nat) a + S1x1024x128.size a ≤ S1x1024x1408.size a
  packedbf16_S1x1024x1408_S1x1024x128_0_0_128 : (Rect.unit (s := S1x1024x1408) ![0, 0, 128] S1x1024x128.size inb_S1x1024x1408_S1x1024x128_0_0_128).PackedRows (EltTy.packing .bf16)
  inb_S1024x1408_S1024x128_0_256 : ∀ a, (![0, 256] : Fin 2 → Nat) a + S1024x128.size a ≤ S1024x1408.size a
  inb_S1x1024x1408_S1x1024x128_0_0_256 : ∀ a, (![0, 0, 256] : Fin 3 → Nat) a + S1x1024x128.size a ≤ S1x1024x1408.size a
  packedbf16_S1x1024x1408_S1x1024x128_0_0_256 : (Rect.unit (s := S1x1024x1408) ![0, 0, 256] S1x1024x128.size inb_S1x1024x1408_S1x1024x128_0_0_256).PackedRows (EltTy.packing .bf16)
  inb_S1024x1408_S1024x128_0_384 : ∀ a, (![0, 384] : Fin 2 → Nat) a + S1024x128.size a ≤ S1024x1408.size a
  inb_S1x1024x1408_S1x1024x128_0_0_384 : ∀ a, (![0, 0, 384] : Fin 3 → Nat) a + S1x1024x128.size a ≤ S1x1024x1408.size a
  packedbf16_S1x1024x1408_S1x1024x128_0_0_384 : (Rect.unit (s := S1x1024x1408) ![0, 0, 384] S1x1024x128.size inb_S1x1024x1408_S1x1024x128_0_0_384).PackedRows (EltTy.packing .bf16)
  inb_S1024x1408_S1024x128_0_512 : ∀ a, (![0, 512] : Fin 2 → Nat) a + S1024x128.size a ≤ S1024x1408.size a
  inb_S1x1024x1408_S1x1024x128_0_0_512 : ∀ a, (![0, 0, 512] : Fin 3 → Nat) a + S1x1024x128.size a ≤ S1x1024x1408.size a
  packedbf16_S1x1024x1408_S1x1024x128_0_0_512 : (Rect.unit (s := S1x1024x1408) ![0, 0, 512] S1x1024x128.size inb_S1x1024x1408_S1x1024x128_0_0_512).PackedRows (EltTy.packing .bf16)
  inb_S1024x1408_S1024x128_0_640 : ∀ a, (![0, 640] : Fin 2 → Nat) a + S1024x128.size a ≤ S1024x1408.size a
  inb_S1x1024x1408_S1x1024x128_0_0_640 : ∀ a, (![0, 0, 640] : Fin 3 → Nat) a + S1x1024x128.size a ≤ S1x1024x1408.size a
  packedbf16_S1x1024x1408_S1x1024x128_0_0_640 : (Rect.unit (s := S1x1024x1408) ![0, 0, 640] S1x1024x128.size inb_S1x1024x1408_S1x1024x128_0_0_640).PackedRows (EltTy.packing .bf16)
  inb_S1024x1408_S1024x128_0_768 : ∀ a, (![0, 768] : Fin 2 → Nat) a + S1024x128.size a ≤ S1024x1408.size a
  inb_S1x1024x1408_S1x1024x128_0_0_768 : ∀ a, (![0, 0, 768] : Fin 3 → Nat) a + S1x1024x128.size a ≤ S1x1024x1408.size a
  packedbf16_S1x1024x1408_S1x1024x128_0_0_768 : (Rect.unit (s := S1x1024x1408) ![0, 0, 768] S1x1024x128.size inb_S1x1024x1408_S1x1024x128_0_0_768).PackedRows (EltTy.packing .bf16)
  inb_S1024x1408_S1024x128_0_896 : ∀ a, (![0, 896] : Fin 2 → Nat) a + S1024x128.size a ≤ S1024x1408.size a
  inb_S1x1024x1408_S1x1024x128_0_0_896 : ∀ a, (![0, 0, 896] : Fin 3 → Nat) a + S1x1024x128.size a ≤ S1x1024x1408.size a
  packedbf16_S1x1024x1408_S1x1024x128_0_0_896 : (Rect.unit (s := S1x1024x1408) ![0, 0, 896] S1x1024x128.size inb_S1x1024x1408_S1x1024x128_0_0_896).PackedRows (EltTy.packing .bf16)
  inb_S1024x1408_S1024x128_0_1024 : ∀ a, (![0, 1024] : Fin 2 → Nat) a + S1024x128.size a ≤ S1024x1408.size a
  inb_S1x1024x1408_S1x1024x128_0_0_1024 : ∀ a, (![0, 0, 1024] : Fin 3 → Nat) a + S1x1024x128.size a ≤ S1x1024x1408.size a
  packedbf16_S1x1024x1408_S1x1024x128_0_0_1024 : (Rect.unit (s := S1x1024x1408) ![0, 0, 1024] S1x1024x128.size inb_S1x1024x1408_S1x1024x128_0_0_1024).PackedRows (EltTy.packing .bf16)
  inb_S1024x1408_S1024x128_0_1152 : ∀ a, (![0, 1152] : Fin 2 → Nat) a + S1024x128.size a ≤ S1024x1408.size a
  inb_S1x1024x1408_S1x1024x128_0_0_1152 : ∀ a, (![0, 0, 1152] : Fin 3 → Nat) a + S1x1024x128.size a ≤ S1x1024x1408.size a
  packedbf16_S1x1024x1408_S1x1024x128_0_0_1152 : (Rect.unit (s := S1x1024x1408) ![0, 0, 1152] S1x1024x128.size inb_S1x1024x1408_S1x1024x128_0_0_1152).PackedRows (EltTy.packing .bf16)
  inb_S1024x1408_S1024x128_0_1280 : ∀ a, (![0, 1280] : Fin 2 → Nat) a + S1024x128.size a ≤ S1024x1408.size a
  inb_S1x1024x1408_S1x1024x128_0_0_1280 : ∀ a, (![0, 0, 1280] : Fin 3 → Nat) a + S1x1024x128.size a ≤ S1x1024x1408.size a
  packedbf16_S1x1024x1408_S1x1024x128_0_0_1280 : (Rect.unit (s := S1x1024x1408) ![0, 0, 1280] S1x1024x128.size inb_S1x1024x1408_S1x1024x128_0_0_1280).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S8x1024x2048_S8192x2048 : S8x1024x2048.ShapeCasts S8192x2048
  dot_S1024x256_S256x1408_S1024x1408_1_0_0_1_n_n_wf : DotDims.WF S1024x256 S256x1408 S1024x1408 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S8x1024x2048.size a
  hwx0_0 : ∀ i : grid0.Coords, EltTy.bits .f32 = 32 ∨ (Rect.block (s := S8x1024x2048) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x1408.size a ≤ S8x2048x11264.size a
  hwx0_1 : ∀ i : grid0.Coords, EltTy.bits .f32 = 32 ∨ (Rect.block (s := S8x2048x11264) S1x256x1408.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x1408.size a ≤ S8x2048x11264.size a
  hwx0_2 : ∀ i : grid0.Coords, EltTy.bits .f32 = 32 ∨ (Rect.block (s := S8x2048x11264) S1x256x1408.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1408.size a ≤ S8x1024x5632.size a
  hwx0_3 : ∀ i : grid0.Coords, EltTy.bits .bf16 = 32 ∨ (Rect.block (s := S8x1024x5632) S1x1024x1408.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x512.size a ≤ S8x1024x5632.size a
  hwx1_0 : ∀ i : grid1.Coords, EltTy.bits .bf16 = 32 ∨ (Rect.block (s := S8x1024x5632) S1x1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x5632x2048.size a
  hwx1_1 : ∀ i : grid1.Coords, EltTy.bits .f32 = 32 ∨ (Rect.block (s := S8x5632x2048) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x1024x2048.size a
  hwx1_2 : ∀ i : grid1.Coords, EltTy.bits .f32 = 32 ∨ (Rect.block (s := S8x1024x2048) S1x1024x1024.size (cc1_transform_2 i) (hinb1_2 i)).WholeWords (EltTy.packing .f32)

variable [Facts₀]

def dot_S1024x256_S256x1408_S1024x1408_1_0_0_1_n_n : DotDims S1024x256 S256x1408 S1024x1408 where
  lhsContracting := [1]
  rhsContracting := [0]
  lhsNonContracting := [0]
  rhsNonContracting := [1]
  lhsBatch := []
  rhsBatch := []
  wf := dot_S1024x256_S256x1408_S1024x1408_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x1408.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x256x1408.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1408.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v1) S1x1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8x2048x11264 : Shape := ⟨3, ![8, 2048, 11264]⟩
abbrev S8x5632x2048 : Shape := ⟨3, ![8, 5632, 2048]⟩
abbrev S8x1024x2048 : Shape := ⟨3, ![8, 1024, 2048]⟩
abbrev S8x1024x11264 : Shape := ⟨3, ![8, 1024, 11264]⟩
abbrev S8x1024x5632 : Shape := ⟨3, ![8, 1024, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8x2048x11264, .f32⟩
  | .hbm, ⟨2, _⟩ => ⟨S8x5632x2048, .f32⟩
  | .hbm, ⟨3, _⟩ => ⟨S8x1024x2048, .f32⟩
  | .hbm, ⟨4, _⟩ => ⟨S8x1024x11264, .f32⟩
  | .hbm, ⟨5, _⟩ => ⟨S8x1024x5632, .f32⟩
  | .hbm, ⟨6, _⟩ => ⟨S8x1024x5632, .f32⟩
  | .hbm, ⟨7, _⟩ => ⟨S8x1024x5632, .f32⟩
  | .hbm, ⟨8, _⟩ => ⟨S8x1024x5632, .f32⟩
  | .hbm, ⟨9, _⟩ => ⟨S_, .f32⟩
  | .hbm, ⟨10, _⟩ => ⟨S8x1024x5632, .f32⟩
  | .hbm, ⟨11, _⟩ => ⟨S8x1024x5632, .f32⟩
  | .hbm, ⟨12, _⟩ => ⟨S_, .f32⟩
  | .hbm, ⟨13, _⟩ => ⟨S8x1024x5632, .f32⟩
  | .hbm, ⟨14, _⟩ => ⟨S8x1024x5632, .f32⟩
  | .hbm, ⟨15, _⟩ => ⟨S8x1024x5632, .f32⟩
  | .hbm, ⟨16, _⟩ => ⟨S8x1024x5632, .f32⟩
  | .hbm, ⟨17, _⟩ => ⟨S8x1024x2048, .f32⟩
  | .hbm, ⟨18, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]

class Facts₀ : Prop where
  shapeCasts_S8192x2048_S8x1024x2048 : S8192x2048.ShapeCasts S8x1024x2048
  slices_S8x1024x11264_S8x1024x5632_0_0_0 : S8x1024x11264.Slices ![0, 0, 0] S8x1024x5632
  slices_S8x1024x11264_S8x1024x5632_0_0_5632 : S8x1024x11264.Slices ![0, 0, 5632] S8x1024x5632
  bcast_S_S8x1024x5632 : S_.BroadcastsInDim S8x1024x5632 (![] : Fin 0 → Fin S8x1024x5632.rank)
  shapeCasts_S8x1024x2048_S8192x2048 : S8x1024x2048.ShapeCasts S8192x2048
  dot_S8x1024x2048_S8x2048x11264_S8x1024x11264_2_1_1_2_0_0_wf : DotDims.WF S8x1024x2048 S8x2048x11264 S8x1024x11264 [2] [1] [1] [2] [0] [0]
  dot_S8x1024x5632_S8x5632x2048_S8x1024x2048_2_1_1_2_0_0_wf : DotDims.WF S8x1024x5632 S8x5632x2048 S8x1024x2048 [2] [1] [1] [2] [0] [0]

variable [Facts₀]

def dot_S8x1024x2048_S8x2048x11264_S8x1024x11264_2_1_1_2_0_0 : DotDims S8x1024x2048 S8x2048x11264 S8x1024x11264 where
  lhsContracting := [2]
  rhsContracting := [1]
  lhsNonContracting := [1]
  rhsNonContracting := [2]
  lhsBatch := [0]
  rhsBatch := [0]
  wf := dot_S8x1024x2048_S8x2048x11264_S8x1024x11264_2_1_1_2_0_0_wf
def dot_S8x1024x5632_S8x5632x2048_S8x1024x2048_2_1_1_2_0_0 : DotDims S8x1024x5632 S8x5632x2048 S8x1024x2048 where
  lhsContracting := [2]
  rhsContracting := [1]
  lhsNonContracting := [1]
  rhsNonContracting := [2]
  lhsBatch := [0]
  rhsBatch := [0]
  wf := dot_S8x1024x5632_S8x5632x2048_S8x1024x2048_2_1_1_2_0_0_wf

class Facts : Prop extends Facts₀ where

variable [Facts]
-- ==== Proof.K.GateUp.Runs.lean ====
/-
  The gate/up kernel: what its three kinds of grid point share.

  The grid is (expert, column block, feature block) = 8 × 4 × 8 with the feature block innermost. At the FIRST feature
  block of a run the body resets its two accumulators (gate, up); at every block it adds the block's two matrix products
  to them; at the LAST block it stores `up · (gate · σ(gate))`, chunk by chunk, into the activation block, which the
  pipeline then writes back. Between the points of a run the accumulators are carried in two scratch buffers.
  Here: the two conditions in closed form over the grid, where the output window is idle, the memrefs the body is called
  with, and the region's invariant with the two accumulators named.
-/
import proofs.«104179_j6614249635977_2_alg».proof.Proof.Gen.Kernel.Launch
import proofs.«104179_j6614249635977_2_alg».proof.Proof.Gen.Kernel.Skeleton
import proofs.«104179_j6614249635977_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers' contents when the region is entered, a parameter of everything below. -/
abbrev VT (F : FTy → Type) := (c : Dev nD) → (b : Ref sig .tc) → Buf (Elt F) ((c : Thread nD τ).loc b)

/-! ## The two conditions of the body -/

/-- The point is the first feature block of its run: the accumulators are reset. -/
abbrev isFirst (i : grid0.Coords) : Prop := (Scalar.cmpi .ne (Scalar.extui (Scalar.cmpi .eq (BitVec.ofNat 32 (i 2).val) 0#32)) 0#32) = 1#1
/-- The points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- The point is the last feature block of its run: the activation block is stored. -/
abbrev isLast (i : grid0.Coords) : Prop := k0_cond2 i = 1#1
/-- The points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last block the body stores nothing into the activation block, -/
theorem idle3 : ∀ t : Fin cfg0.N, ¬isLast (grid0.coords t) → cfg0.idle 3 (grid0.coords t) = true := by decide +kernel
/-- and the pipeline does not write it back there. -/
theorem noFlush3 : ∀ t : Fin cfg0.N, ¬isLast (grid0.coords t) → (cfg0.win 3).flush t = false := by decide +kernel
/-- At the last block it is stored. -/
theorem live3 : ∀ t : Fin cfg0.N, isLast (grid0.coords t) → cfg0.idle 3 (grid0.coords t) = false := by decide +kernel

/-! ## The memrefs the body is called with -/

abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x1408 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1408 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1408 .bf16 := win0_3.stage (cfg0.slots t 3)
abbrev hs3 (t : Fin cfg0.N) : (ms3 t).IsWhole := hstage0_3 ((cfg0.slots t 3).cast nbuf0_3)
/-- The gate accumulator and the up accumulator: whole scoped buffers of the kernel's own. -/
abbrev gateM : Memref sig .tc .vmem S1024x1408 .f32 := Memref.whole cc0_scratch0
abbrev upM : Memref sig .tc .vmem S1024x1408 .f32 := Memref.whole cc0_scratch1
/-- Views through which the accumulators' and the activation block's contents are stated. -/
abbrev VG : View sig .tc .vmem S1024x1408 .f32 := gateM.view
abbrev VU : View sig .tc .vmem S1024x1408 .f32 := upM.view
abbrev VO : View sig .tc .vmem S1x1024x1408 .bf16 := (Memref.whole cc0_stg3_0 : Memref sig .tc .vmem S1x1024x1408 .bf16).view

/-! ## The region's invariant, the accumulators named -/

/-- The scoped buffers the kernel never touches (the other pallas_call's), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant: both accumulators at some contents, the untouched scoped buffers, the generator register. -/
theorem PhiA0_eq (c : Dev nD) :
    (Pipeline.ΦA spec0 c : sProp 𝕄)
      = iprop(((∃ d, owns (c : Thread nD τ) gateM fullShare d) ∗ (∃ d, owns (c : Thread nD τ) upM fullShare d) ∗ Rest0 c) ∗ (∃ r, prngReg c r)) := by
  unfold Pipeline.ΦA Rest0; rw [scopedRest0_eq]; simp only [gateM, upM, owns_whole]; try rfl

/-! ## The windows' blocks -/

/-- Window `w`'s block at point `t`, read off its array as the region finds it. -/
def iblk (V : VT F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Cert.Kernel.GateUp

end
-- ==== Proof.K.GateUp.RunFirst.lean ====
/-
  The gate/up body at the FIRST feature block of a run: both accumulators are reset and the block's two products added.
-/
import proofs.«104179_j6614249635977_2_alg».proof.Proof.K.GateUp.Runs

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 4000000 in
/-- runFirst: on whole memrefs — the three input blocks at their contents — the body runs to its end holding the inputs as
    they were and each buffer it stored into with its stores applied, last first, as pieces; the pieces are what the
    symbolic run of the body's skeleton finds. -/
noncomputable def runFirst (i : grid0.Coords) (arg3 : Memref sig .tc .vmem S1x1024x256 .f32) (harg3 : arg3.IsWhole) (arg4 : Memref sig .tc .vmem S1x256x1408 .f32) (harg4 : arg4.IsWhole) (arg5 : Memref sig .tc .vmem S1x256x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hf : isFirst i) (hl : ¬isLast i)
    (x0 : Vec F S1x1024x256 .f32) (x1 : Vec F S1x256x1408 .f32) (x2 : Vec F S1x256x1408 .f32) :
    Σ' (LG : List (View.Piece (Elt F) S1024x1408 .f32)), { LU : List (View.Piece (Elt F) S1024x1408 .f32) //
      ∀ (xo : Vec F S1x1024x1408 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LG) ∗ (∃ f, arg8.view.loc (c : Thread nD τ) ↦[arg8.view.set]{fullShare} arg8.view.writes (Elt F) f LU)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, fun xo E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%dg, %fg, -, HG⟩, ⟨%du, %fu, -, HU⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HG]
    · iexists _; iexact HG
    iexists _; iexact HU

end Cert.Kernel.GateUp

end
-- ==== Proof.K.GateUp.RunMid.lean ====
/-
  The gate/up body at a MIDDLE feature block of a run: the block's two products are added to the accumulators.
-/
import proofs.«104179_j6614249635977_2_alg».proof.Proof.K.GateUp.Runs

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 4000000 in
/-- runMid: on whole memrefs — the three input blocks at their contents — the body runs to its end holding the inputs as
    they were and each buffer it stored into with its stores applied, last first, as pieces; the pieces are what the
    symbolic run of the body's skeleton finds. -/
noncomputable def runMid (i : grid0.Coords) (arg3 : Memref sig .tc .vmem S1x1024x256 .f32) (harg3 : arg3.IsWhole) (arg4 : Memref sig .tc .vmem S1x256x1408 .f32) (harg4 : arg4.IsWhole) (arg5 : Memref sig .tc .vmem S1x256x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hf : ¬isFirst i) (hl : ¬isLast i)
    (x0 : Vec F S1x1024x256 .f32) (x1 : Vec F S1x256x1408 .f32) (x2 : Vec F S1x256x1408 .f32)
    (g0 : Vec F S1024x1408 .f32) (u0 : Vec F S1024x1408 .f32) :
    Σ' (LG : List (View.Piece (Elt F) S1024x1408 .f32)), { LU : List (View.Piece (Elt F) S1024x1408 .f32) //
      ∀ (xo : Vec F S1x1024x1408 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare g0 ∗ owns (c : Thread nD τ) arg8 fullShare u0
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LG) ∗ (∃ f, arg8.view.loc (c : Thread nD τ) ↦[arg8.view.set]{fullShare} arg8.view.writes (Elt F) f LU)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, fun xo E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%fg, %hfg, HG⟩, ⟨%fu, %hfu, HU⟩, Hk⟩
    obtain rfl := harg3.eq_unread hf0; obtain rfl := harg4.eq_unread hf1; obtain rfl := harg5.eq_unread hf2; obtain rfl := harg6.eq_unread hf3; obtain rfl := harg7.eq_unread hfg; obtain rfl := harg8.eq_unread hfu
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HG]
    · iexists _; iexact HG
    iexists _; iexact HU

end Cert.Kernel.GateUp

end
-- ==== Proof.K.GateUp.RunLast.lean ====
/-
  The gate/up body at the LAST feature block of a run: the block's two products are added to the accumulators, and the
  activation block `up · (gate · σ(gate))` is stored in eleven chunks of 128 columns.
-/
import proofs.«104179_j6614249635977_2_alg».proof.Proof.K.GateUp.Runs

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 4000000 in
/-- runLast: on whole memrefs — the three input blocks at their contents — the body runs to its end holding the inputs as
    they were and each buffer it stored into with its stores applied, last first, as pieces; the pieces are what the
    symbolic run of the body's skeleton finds. -/
noncomputable def runLast (i : grid0.Coords) (arg3 : Memref sig .tc .vmem S1x1024x256 .f32) (harg3 : arg3.IsWhole) (arg4 : Memref sig .tc .vmem S1x256x1408 .f32) (harg4 : arg4.IsWhole) (arg5 : Memref sig .tc .vmem S1x256x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hf : ¬isFirst i) (hl : isLast i)
    (x0 : Vec F S1x1024x256 .f32) (x1 : Vec F S1x256x1408 .f32) (x2 : Vec F S1x256x1408 .f32)
    (g0 : Vec F S1024x1408 .f32) (u0 : Vec F S1024x1408 .f32) :
    Σ' (LO : List (View.Piece (Elt F) S1x1024x1408 .bf16)) (LG : List (View.Piece (Elt F) S1024x1408 .f32)), { LU : List (View.Piece (Elt F) S1024x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare g0 ∗ owns (c : Thread nD τ) arg8 fullShare u0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LG) ∗ (∃ f, arg8.view.loc (c : Thread nD τ) ↦[arg8.view.set]{fullShare} arg8.view.writes (Elt F) f LU)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%d3, %f3, -, H3⟩, ⟨%fg, %hfg, HG⟩, ⟨%fu, %hfu, HU⟩, Hk⟩
    obtain rfl := harg3.eq_unread hf0; obtain rfl := harg4.eq_unread hf1; obtain rfl := harg5.eq_unread hf2; obtain rfl := harg7.eq_unread hfg; obtain rfl := harg8.eq_unread hfu
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HG]
    · iexists _; iexact HG
    iexists _; iexact HU

end Cert.Kernel.GateUp

end
-- ==== Proof.K.GateUp.Data.lean ====
/-
  The gate/up kernel as the pipeline's proof data: what the accumulators hold after each grid point (by recursion on the
  point: reset-and-add at the first feature block of a run, add at the others), what the activation block holds after
  the last block of a run, the region's invariant carrying the accumulators from point to point, and the body obligation
  at every point. The projection array is handed to the kernel through two windows (gate columns, up columns): each holds
  half of it.
-/
import proofs.«104179_j6614249635977_2_alg».proof.Proof.K.GateUp.RunFirst
import proofs.«104179_j6614249635977_2_alg».proof.Proof.K.GateUp.RunMid
import proofs.«104179_j6614249635977_2_alg».proof.Proof.K.GateUp.RunLast

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VT F) (c : Dev nD)

/-! ## The three runs at a grid point's memrefs -/

abbrev firstAt (t : Fin cfg0.N) (hf : isFirst (grid0.coords t)) (hl : ¬isLast (grid0.coords t)) (x0 : Vec F S1x1024x256 .f32) (x1 : Vec F S1x256x1408 .f32) (x2 : Vec F S1x256x1408 .f32) :=
  runFirst (F := F) c (grid0.coords t) (ms0 t) (hs0 t) (ms1 t) (hs1 t) (ms2 t) (hs2 t) (ms3 t) (hs3 t) gateM (Memref.isWhole_whole _) upM (Memref.isWhole_whole _) hf hl x0 x1 x2
abbrev midAt (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) :=
  runMid (F := F) c (grid0.coords t) (ms0 t) (hs0 t) (ms1 t) (hs1 t) (ms2 t) (hs2 t) (ms3 t) (hs3 t) gateM (Memref.isWhole_whole _) upM (Memref.isWhole_whole _) hf hl x0 x1 x2 g0 u0
abbrev lastAt (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) :=
  runLast (F := F) c (grid0.coords t) (ms0 t) (hs0 t) (ms1 t) (hs1 t) (ms2 t) (hs2 t) (ms3 t) (hs3 t) gateM (Memref.isWhole_whole _) upM (Memref.isWhole_whole _) hf hl x0 x1 x2 g0 u0

/-- The first block of a run is not its last, and conversely. -/
theorem notLast_of_first {t : Fin cfg0.N} (h0 : t.val % 8 = 0) : ¬isLast (grid0.coords t) :=
  fun h => by have := (isLast_iff t).mp h; omega
theorem notFirst_of_last {t : Fin cfg0.N} (h1 : t.val % 8 = 7) : ¬isFirst (grid0.coords t) :=
  fun h => by have := (isFirst_iff t).mp h; omega

/-! ## What each kind of point leaves: the found pieces read back, and that they cover -/

def gFirst (t : Fin cfg0.N) (hf : isFirst (grid0.coords t)) (hl : ¬isLast (grid0.coords t)) (x0 : Vec F S1x1024x256 .f32) (x1 : Vec F S1x256x1408 .f32) (x2 : Vec F S1x256x1408 .f32) : Vec F S1024x1408 .f32 :=
  VG.read (Elt F) (VG.writes (Elt F) VG.junk (firstAt c t hf hl x0 x1 x2).1)
def uFirst (t : Fin cfg0.N) (hf : isFirst (grid0.coords t)) (hl : ¬isLast (grid0.coords t)) (x0 : Vec F S1x1024x256 .f32) (x1 : Vec F S1x256x1408 .f32) (x2 : Vec F S1x256x1408 .f32) : Vec F S1024x1408 .f32 :=
  VU.read (Elt F) (VU.writes (Elt F) VU.junk (firstAt c t hf hl x0 x1 x2).2.1)
theorem gFirst_cover (t : Fin cfg0.N) (hf : isFirst (grid0.coords t)) (hl : ¬isLast (grid0.coords t)) (x0 : Vec F S1x1024x256 .f32) (x1 : Vec F S1x256x1408 .f32) (x2 : Vec F S1x256x1408 .f32) (y : S1024x1408.Idx) :
    ∃ pc ∈ (firstAt c t hf hl x0 x1 x2).1, y ∈ pc.1.set :=
  View.cover_of_tiledL (firstAt c t hf hl x0 x1 x2).1 S1024x1408.size (by sl_kernel_rfl) y
theorem uFirst_cover (t : Fin cfg0.N) (hf : isFirst (grid0.coords t)) (hl : ¬isLast (grid0.coords t)) (x0 : Vec F S1x1024x256 .f32) (x1 : Vec F S1x256x1408 .f32) (x2 : Vec F S1x256x1408 .f32) (y : S1024x1408.Idx) :
    ∃ pc ∈ (firstAt c t hf hl x0 x1 x2).2.1, y ∈ pc.1.set :=
  View.cover_of_tiledL (firstAt c t hf hl x0 x1 x2).2.1 S1024x1408.size (by sl_kernel_rfl) y

def gMid (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) : Vec F S1024x1408 .f32 :=
  VG.read (Elt F) (VG.writes (Elt F) VG.junk (midAt c t hf hl x0 x1 x2 g0 u0).1)
def uMid (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) : Vec F S1024x1408 .f32 :=
  VU.read (Elt F) (VU.writes (Elt F) VU.junk (midAt c t hf hl x0 x1 x2 g0 u0).2.1)
theorem gMid_cover (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) (y : S1024x1408.Idx) :
    ∃ pc ∈ (midAt c t hf hl x0 x1 x2 g0 u0).1, y ∈ pc.1.set :=
  View.cover_of_tiledL (midAt c t hf hl x0 x1 x2 g0 u0).1 S1024x1408.size (by sl_kernel_rfl) y
theorem uMid_cover (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) (y : S1024x1408.Idx) :
    ∃ pc ∈ (midAt c t hf hl x0 x1 x2 g0 u0).2.1, y ∈ pc.1.set :=
  View.cover_of_tiledL (midAt c t hf hl x0 x1 x2 g0 u0).2.1 S1024x1408.size (by sl_kernel_rfl) y

def oLast (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) : Vec F S1x1024x1408 .bf16 :=
  VO.read (Elt F) (VO.writes (Elt F) VO.junk (lastAt c t hf hl x0 x1 x2 g0 u0).1)
def gLast (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) : Vec F S1024x1408 .f32 :=
  VG.read (Elt F) (VG.writes (Elt F) VG.junk (lastAt c t hf hl x0 x1 x2 g0 u0).2.1)
def uLast (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) : Vec F S1024x1408 .f32 :=
  VU.read (Elt F) (VU.writes (Elt F) VU.junk (lastAt c t hf hl x0 x1 x2 g0 u0).2.2.1)
theorem oLast_cover (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) (y : S1x1024x1408.Idx) :
    ∃ pc ∈ (lastAt c t hf hl x0 x1 x2 g0 u0).1, y ∈ pc.1.set :=
  View.cover_of_tiledL (lastAt c t hf hl x0 x1 x2 g0 u0).1 S1x1024x128.size (by sl_kernel_rfl) y
theorem gLast_cover (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) (y : S1024x1408.Idx) :
    ∃ pc ∈ (lastAt c t hf hl x0 x1 x2 g0 u0).2.1, y ∈ pc.1.set :=
  View.cover_of_tiledL (lastAt c t hf hl x0 x1 x2 g0 u0).2.1 S1024x1408.size (by sl_kernel_rfl) y
theorem uLast_cover (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) (y : S1024x1408.Idx) :
    ∃ pc ∈ (lastAt c t hf hl x0 x1 x2 g0 u0).2.2.1, y ∈ pc.1.set :=
  View.cover_of_tiledL (lastAt c t hf hl x0 x1 x2 g0 u0).2.2.1 S1024x1408.size (by sl_kernel_rfl) y

/-! ## The accumulators after each point -/

/-- The gate and up accumulators after the body at point `n`: at the first feature block of a run the reset
    accumulators plus the block's products; otherwise what the point before left plus the block's products. -/
def accAt : (n : ℕ) → n < cfg0.N → Vec F S1024x1408 .f32 × Vec F S1024x1408 .f32
  | 0, hn =>
    (gFirst c ⟨0, hn⟩ ((isFirst_iff ⟨0, hn⟩).mpr (Nat.zero_mod _)) (notLast_of_first (t := ⟨0, hn⟩) (Nat.zero_mod _)) (iblk V c 0 ⟨0, hn⟩) (iblk V c 1 ⟨0, hn⟩) (iblk V c 2 ⟨0, hn⟩),
     uFirst c ⟨0, hn⟩ ((isFirst_iff ⟨0, hn⟩).mpr (Nat.zero_mod _)) (notLast_of_first (t := ⟨0, hn⟩) (Nat.zero_mod _)) (iblk V c 0 ⟨0, hn⟩) (iblk V c 1 ⟨0, hn⟩) (iblk V c 2 ⟨0, hn⟩))
  | n + 1, hn =>
    if h0 : (n + 1) % 8 = 0 then
      (gFirst c ⟨n + 1, hn⟩ ((isFirst_iff ⟨n + 1, hn⟩).mpr h0) (notLast_of_first (t := ⟨n + 1, hn⟩) h0) (iblk V c 0 ⟨n + 1, hn⟩) (iblk V c 1 ⟨n + 1, hn⟩) (iblk V c 2 ⟨n + 1, hn⟩),
       uFirst c ⟨n + 1, hn⟩ ((isFirst_iff ⟨n + 1, hn⟩).mpr h0) (notLast_of_first (t := ⟨n + 1, hn⟩) h0) (iblk V c 0 ⟨n + 1, hn⟩) (iblk V c 1 ⟨n + 1, hn⟩) (iblk V c 2 ⟨n + 1, hn⟩))
    else if h1 : (n + 1) % 8 = 7 then
      (gLast c ⟨n + 1, hn⟩ (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (accAt n (Nat.lt_of_succ_lt hn)).1 (accAt n (Nat.lt_of_succ_lt hn)).2,
       uLast c ⟨n + 1, hn⟩ (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (accAt n (Nat.lt_of_succ_lt hn)).1 (accAt n (Nat.lt_of_succ_lt hn)).2)
    else
      (gMid c ⟨n + 1, hn⟩ (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (accAt n (Nat.lt_of_succ_lt hn)).1 (accAt n (Nat.lt_of_succ_lt hn)).2,
       uMid c ⟨n + 1, hn⟩ (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (accAt n (Nat.lt_of_succ_lt hn)).1 (accAt n (Nat.lt_of_succ_lt hn)).2)

/-- The point before `t`, for a `t` that is not the first of the grid. -/
abbrev prevLt (t : Fin cfg0.N) : t.val - 1 < cfg0.N := Nat.lt_of_le_of_lt (Nat.sub_le _ _) t.isLt

theorem accAt_first (t : Fin cfg0.N) (h0 : t.val % 8 = 0) :
    accAt V c t.val t.isLt = (gFirst c t ((isFirst_iff t).mpr h0) (notLast_of_first h0) (iblk V c 0 t) (iblk V c 1 t) (iblk V c 2 t), uFirst c t ((isFirst_iff t).mpr h0) (notLast_of_first h0) (iblk V c 0 t) (iblk V c 1 t) (iblk V c 2 t)) := by
  obtain ⟨n, hn⟩ := t
  cases n with
  | zero => exact rfl
  | succ n => exact (dif_pos h0).trans rfl

theorem accAt_last (t : Fin cfg0.N) (h0 : ¬t.val % 8 = 0) (h1 : t.val % 8 = 7) :
    accAt V c t.val t.isLt = (gLast c t (fun h => h0 ((isFirst_iff t).mp h)) ((isLast_iff t).mpr h1) (iblk V c 0 t) (iblk V c 1 t) (iblk V c 2 t) (accAt V c (t.val - 1) (prevLt t)).1 (accAt V c (t.val - 1) (prevLt t)).2,
      uLast c t (fun h => h0 ((isFirst_iff t).mp h)) ((isLast_iff t).mpr h1) (iblk V c 0 t) (iblk V c 1 t) (iblk V c 2 t) (accAt V c (t.val - 1) (prevLt t)).1 (accAt V c (t.val - 1) (prevLt t)).2) := by
  obtain ⟨n, hn⟩ := t
  cases n with
  | zero => exact (by exfalso; (try dsimp only at h0); exact absurd (Nat.zero_mod _) h0)
  | succ n => exact (dif_neg h0).trans ((dif_pos h1).trans rfl)

theorem accAt_mid (t : Fin cfg0.N) (h0 : ¬t.val % 8 = 0) (h1 : ¬t.val % 8 = 7) :
    accAt V c t.val t.isLt = (gMid c t (fun h => h0 ((isFirst_iff t).mp h)) (fun h => h1 ((isLast_iff t).mp h)) (iblk V c 0 t) (iblk V c 1 t) (iblk V c 2 t) (accAt V c (t.val - 1) (prevLt t)).1 (accAt V c (t.val - 1) (prevLt t)).2,
      uMid c t (fun h => h0 ((isFirst_iff t).mp h)) (fun h => h1 ((isLast_iff t).mp h)) (iblk V c 0 t) (iblk V c 1 t) (iblk V c 2 t) (accAt V c (t.val - 1) (prevLt t)).1 (accAt V c (t.val - 1) (prevLt t)).2) := by
  obtain ⟨n, hn⟩ := t
  cases n with
  | zero => exact (by exfalso; (try dsimp only at h0); exact absurd (Nat.zero_mod _) h0)
  | succ n => exact (dif_neg h0).trans ((dif_neg h1).trans rfl)

/-- The activation block after the body at point `t`: stored at the last feature block of a run from the accumulators
    the point before left; elsewhere the window is idle and this is a placeholder nothing consults. -/
def outAt (t : Fin cfg0.N) : Vec F S1x1024x1408 .bf16 :=
  if h1 : t.val % 8 = 7 then
    oLast c t (notFirst_of_last h1) ((isLast_iff t).mpr h1) (iblk V c 0 t) (iblk V c 1 t) (iblk V c 2 t) (accAt V c (t.val - 1) (prevLt t)).1 (accAt V c (t.val - 1) (prevLt t)).2
  else VO.read (Elt F) (VO.writes (Elt F) VO.junk [])

/-! ## The invariant: the accumulators carried from point to point -/

def PhiS : (n : ℕ) → n ≤ cfg0.N → sProp 𝕄
  | 0, _ => Pipeline.ΦA spec0 c
  | n + 1, hn => iprop((owns (c : Thread nD τ) gateM fullShare (accAt V c n hn).1 ∗ owns (c : Thread nD τ) upM fullShare (accAt V c n hn).2 ∗ Rest0 c) ∗ (∃ r, prngReg c r))

theorem PhiS_succ (n : ℕ) (hn : n < cfg0.N) :
    PhiS V c (n + 1) hn = iprop((owns (c : Thread nD τ) gateM fullShare (accAt V c n hn).1 ∗ owns (c : Thread nD τ) upM fullShare (accAt V c n hn).2 ∗ Rest0 c) ∗ (∃ r, prngReg c r)) := rfl

theorem PhiS_pos (n : ℕ) (h : n ≤ cfg0.N) (hz : n ≠ 0) :
    PhiS V c n h = iprop((owns (c : Thread nD τ) gateM fullShare (accAt V c (n - 1) (by omega)).1 ∗ owns (c : Thread nD τ) upM fullShare (accAt V c (n - 1) (by omega)).2 ∗ Rest0 c) ∗ (∃ r, prngReg c r)) := by
  cases n with
  | zero => exact absurd rfl hz
  | succ n => rfl

/-- At any point the invariant holds both accumulators at SOME contents: the named ones may be forgotten. -/
theorem PhiS_forget (n : ℕ) (h : n ≤ cfg0.N) : PhiS V c n h ⊢ Pipeline.ΦA spec0 c := by
  cases n with
  | zero => exact .rfl
  | succ n =>
    rw [PhiS_succ, PhiA0_eq]
    iintro ⟨⟨HG, HU, HR⟩, Hg⟩
    isplitr [Hg]
    · isplitl [HG]; · iexists _; iexact HG
      isplitl [HU]; · iexists _; iexact HU
      iexact HR
    iexact Hg

/-! ## The proof data -/

/-- The arrays as the region finds them; after the body each input's buffer at its block and the activation block at
    `outAt`; the invariant carrying the accumulators; the projection array held half by the gate window and half by the
    up window; nothing owed. -/
def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (w : Fin cfg0.W) : (dat V c).A w = V c (Pipeline.arrRef spec0 w) := by dsimp only [dat]
theorem PhiS_castSucc (t : Fin cfg0.N) : (dat V c).Φ t.castSucc = PhiS V c t.val (Nat.le_of_lt t.isLt) := by
  dsimp only [dat]; simp only [Fin.coe_castSucc]
theorem after0 (t : Fin cfg0.N) : (dat V c).after 0 t = iblk V c 0 t := by dsimp only [dat]
theorem after1 (t : Fin cfg0.N) : (dat V c).after 1 t = iblk V c 1 t := by dsimp only [dat]
theorem after2 (t : Fin cfg0.N) : (dat V c).after 2 t = iblk V c 2 t := by dsimp only [dat]
theorem after3 (t : Fin cfg0.N) : (dat V c).after 3 t = outAt V c t := by dsimp only [dat]

/-- Each input's current staging buffer holds its block at every point. -/
theorem before0 (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.Kernel.GateUp

end
-- ==== Proof.K.GateUp.Body.lean ====
/-
  The gate/up kernel's body obligation: at every grid point, from the invariant (the accumulators as the point before
  left them), the three input blocks in their staging buffers and the activation block's buffer, the body runs and
  leaves the invariant at this point's accumulators, the inputs in place, and the activation block stored (at the last
  feature block of a run) or untouched (elsewhere). By cases on the kind of point.
-/
import proofs.«104179_j6614249635977_2_alg».proof.Proof.K.GateUp.Data

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VT F) (c : Dev nD)

/-- The invariant opened: both accumulators at some contents, the untouched buffers, the generator register. -/
theorem PhiS_open (n : ℕ) (h : n ≤ cfg0.N) :
    PhiS V c n h ⊢ (iprop(((∃ d, owns (c : Thread nD τ) gateM fullShare d) ∗ (∃ d, owns (c : Thread nD τ) upM fullShare d) ∗ Rest0 c) ∗ (∃ r, prngReg c r)) : sProp 𝕄) :=
  by have e := PhiS_forget V c n h; rw [PhiA0_eq] at e; exact e

/-- What the body is called with at point `t`, -/
def bodyPre (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [PhiS_castSucc V c t]
  by_cases h0 : t.val % 8 = 0
  · -- the first feature block of a run: whatever the accumulators held is overwritten
    have hf : isFirst (grid0.coords t) := (isFirst_iff t).mpr h0
    have hl : ¬isLast (grid0.coords t) := notLast_of_first h0
    rw [Dat.leavesExact_idle (dat V c) 3 t (idle3 t hl) (noFlush3 t hl)]
    rw [accAt_first V c t h0]
    unfold gFirst uFirst; (try dsimp only)
    iintro ⟨HΦ, Ho, ⟨%d0, H0⟩, ⟨%d1, H1⟩, ⟨%d2, H2⟩, ⟨%d3, H3⟩⟩
    ihave HΦ' := (PhiS_open V c t.val (Nat.le_of_lt t.isLt)) $$ HΦ
    icases HΦ' with ⟨⟨HG, HU, HR⟩, Hg⟩
    iapply ((firstAt c t hf hl (iblk V c 0 t) (iblk V c 1 t) (iblk V c 2 t)).2.2 _ Set.univ _)
    isplitl [H0]; · iexact H0
    isplitl [H1]; · iexact H1
    isplitl [H2]; · iexact H2
    isplitl [H3]; · iexact H3
    isplitl [HG]; · iexact HG
    isplitl [HU]; · iexact HU
    iintro ⟨H0, H1, H2, H3, ⟨%eg, HG⟩, ⟨%eu, HU⟩⟩
    isplitl [HG HU HR Hg]
    · isplitl [HG HU HR]
      · isplitl [HG]
        · unfold owns; iexists _; isplitr
          swap; · iexact HG
          ipureintro; exact View.read_writes_of_cover _ _ _ _ _ (gFirst_cover c t hf hl _ _ _)
        isplitl [HU]
        · unfold owns; iexists _; isplitr
          swap; · iexact HU
          ipureintro; exact View.read_writes_of_cover _ _ _ _ _ (uFirst_cover c t hf hl _ _ _)
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hf : ¬isFirst (grid0.coords t) := fun h => h0 ((isFirst_iff t).mp h)
    rw [PhiS_pos V c _ _ hz]
    by_cases h1 : t.val % 8 = 7
    · -- the last feature block of a run: the accumulators updated, the activation block stored
      have hl : isLast (grid0.coords t) := (isLast_iff t).mpr h1
      rw [show (dat V c).leavesExact 3 t = owns (c : Thread nD τ) (ms3 t) fullShare ((dat V c).after 3 t) from by
        unfold Dat.leavesExact; rw [live3 t hl], after3]
      rw [show outAt V c t = oLast c t (notFirst_of_last h1) ((isLast_iff t).mpr h1) (iblk V c 0 t) (iblk V c 1 t) (iblk V c 2 t) (accAt V c (t.val - 1) (prevLt t)).1 (accAt V c (t.val - 1) (prevLt t)).2 from by
        unfold outAt; rw [dif_pos h1]]
      rw [accAt_last V c t h0 h1]
      unfold oLast gLast uLast; (try dsimp only)
      iintro ⟨⟨⟨HG, HU, HR⟩, Hg⟩, Ho, ⟨%d0, H0⟩, ⟨%d1, H1⟩, ⟨%d2, H2⟩, ⟨%d3, H3⟩⟩
      iapply ((lastAt c t hf hl (iblk V c 0 t) (iblk V c 1 t) (iblk V c 2 t) _ _).2.2.2 Set.univ _)
      isplitl [H0]; · iexact H0
      isplitl [H1]; · iexact H1
      isplitl [H2]; · iexact H2
      isplitl [H3]; · iexists _; iexact H3
      isplitl [HG]; · iexact HG
      isplitl [HU]; · iexact HU
      iintro ⟨H0, H1, H2, ⟨%e3, H3⟩, ⟨%eg, HG⟩, ⟨%eu, HU⟩⟩
      isplitl [HG HU HR Hg]
      · isplitl [HG HU HR]
        · isplitl [HG]
          · unfold owns; iexists _; isplitr
            swap; · iexact HG
            ipureintro; exact View.read_writes_of_cover _ _ _ _ _ (gLast_cover c t hf hl _ _ _ _ _)
          isplitl [HU]
          · unfold owns; iexists _; isplitr
            swap; · iexact HU
            ipureintro; exact View.read_writes_of_cover _ _ _ _ _ (uLast_cover c t hf hl _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (oLast_cover c t hf hl _ _ _ _ _)
    · -- a middle feature block: the accumulators updated, the activation block untouched
      have hl : ¬isLast (grid0.coords t) := fun h => h1 ((isLast_iff t).mp h)
      rw [Dat.leavesExact_idle (dat V c) 3 t (idle3 t hl) (noFlush3 t hl)]
      rw [accAt_mid V c t h0 h1]
      unfold gMid uMid; (try dsimp only)
      iintro ⟨⟨⟨HG, HU, HR⟩, Hg⟩, Ho, ⟨%d0, H0⟩, ⟨%d1, H1⟩, ⟨%d2, H2⟩, ⟨%d3, H3⟩⟩
      iapply ((midAt c t hf hl (iblk V c 0 t) (iblk V c 1 t) (iblk V c 2 t) _ _).2.2 _ Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, ⟨%eg, HG⟩, ⟨%eu, HU⟩⟩
      isplitl [HG HU HR Hg]
      · isplitl [HG HU HR]
        · isplitl [HG]
          · unfold owns; iexists _; isplitr
            swap; · iexact HG
            ipureintro; exact View.read_writes_of_cover _ _ _ _ _ (gMid_cover c t hf hl _ _ _ _ _)
          isplitl [HU]
          · unfold owns; iexists _; isplitr
            swap; · iexact HU
            ipureintro; exact View.read_writes_of_cover _ _ _ _ _ (uMid_cover c t hf hl _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation : BodyObligation (dat (F := F) V c) (defs₀ (F := F)) Variants.none () Set.univ := fun t => by
  rw [bigSep_W0, bigSep_W0]
  exact sound_body V c t

/-- What the launch hands the region is the invariant before the first point, -/
theorem hin : Pipeline.ΦA spec0 c ⊢ (dat V c).Φ 0 := by
  rw [show (dat V c).Φ 0 = PhiS V c 0 (Nat.zero_le _) from rfl]
  exact .rfl

/-- and after the last point the invariant gives it back, the accumulators' contents forgotten. -/
theorem hout : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl]
  exact PhiS_forget V c _ _

end Cert.Kernel.GateUp

end
-- ==== Proof.K.GateUp.Arrays.lean ====
/-
  The gate/up kernel's arrays against the core's buffers. Three buffers stand behind its four windows: the regrouped
  tokens, the projection array (read through the gate window and through the up window) and the activation array. The
  projection array, held whole outside the region, is split in two halves at entry, one per window that reads it, and the
  halves are joined again at exit; nothing writes it, so both halves hold its entry contents throughout.
-/
import proofs.«104179_j6614249635977_2_alg».proof.Proof.K.GateUp.Data

set_option maxRecDepth 16384

noncomputable section

namespace Cert.Kernel.GateUp

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VT F) (c : Dev nD)

/-- The buffers behind the windows' arrays, one by one. -/
theorem arrBufs_eq (V' : (b : Ref sig .tc) → Buf (Elt F) ((c : Thread nD τ).loc b)) :
    (Pipeline.arrBufs spec0 c V' : sProp 𝕄)
      = iprop((((c : Thread nD τ).loc main_v0) ↦{fullShare} V' main_v0) ∗ (((c : Thread nD τ).loc main_arg1) ↦{fullShare} V' main_arg1) ∗ (((c : Thread nD τ).loc main_v1) ↦{fullShare} V' main_v1)) := by
  unfold Pipeline.arrBufs
  exact bigSep_eq_bigSepL_of_eq [main_v0, main_arg1, main_v1] (by decide) (by decide) _

/-- The proof data's arrays, one by one, each at its share. -/
theorem arrays_eq (G : (w : Fin cfg0.W) → Buf (Elt F) ((cfg0.win w).arr.view.loc (c.tc : Thread nD τ))) :
    ((dat V c).arrays G : sProp 𝕄)
      = iprop((((c : Thread nD τ).loc main_v0) ↦{fullShare} G 0) ∗ (((c : Thread nD τ).loc main_arg1) ↦{fullShare.left} G 1) ∗ (((c : Thread nD τ).loc main_arg1) ↦{fullShare.right} G 2) ∗ (((c : Thread nD τ).loc main_v1) ↦{fullShare} G 3)) := by
  unfold Dat.arrays
  rw [bigSep_W0, (arr_whole0 0).set_eq_univ, (arr_whole0 1).set_eq_univ, (arr_whole0 3).set_eq_univ]
  rfl

/-- ENTRY: the three buffers whole make the four windows' arrays, the projection array halved. -/
theorem arrays_of_bufs (V' : (b : Ref sig .tc) → Buf (Elt F) ((c : Thread nD τ).loc b))
    (G : (w : Fin cfg0.W) → Buf (Elt F) ((cfg0.win w).arr.view.loc (c.tc : Thread nD τ)))
    (h0 : G 0 = V' main_v0) (h1 : G 1 = V' main_arg1) (h2 : G 2 = V' main_arg1) (h3 : G 3 = V' main_v1) :
    (Pipeline.arrBufs spec0 c V' : sProp 𝕄) ⊢ (dat V c).arrays G := by
  rw [arrBufs_eq, arrays_eq, h0, h1, h2, h3]
  iintro ⟨H0, H1, H3⟩
  ihave H12 := (pointsTo_share (PosShare.mem_left_op_right fullShare)).1 $$ H1
  icases H12 with ⟨Hl, Hr⟩
  isplitl [H0]; · iexact H0
  isplitl [Hl]; · iexact Hl
  isplitl [Hr]; · iexact Hr
  iexact H3

/-- EXIT: the four windows' arrays, the two halves of the projection array at one contents, make the three buffers whole. -/
theorem bufs_of_arrays (V' : (b : Ref sig .tc) → Buf (Elt F) ((c : Thread nD τ).loc b))
    (G : (w : Fin cfg0.W) → Buf (Elt F) ((cfg0.win w).arr.view.loc (c.tc : Thread nD τ)))
    (h0 : G 0 = V' main_v0) (h1 : G 1 = V' main_arg1) (h2 : G 2 = V' main_arg1) (h3 : G 3 = V' main_v1) :
    ((dat V c).arrays G : sProp 𝕄) ⊢ Pipeline.arrBufs spec0 c V' := by
  rw [arrBufs_eq, arrays_eq, h0, h1, h2, h3]
  iintro ⟨H0, Hl, Hr, H3⟩
  isplitl [H0]; · iexact H0
  isplitl [Hl Hr]
  · iapply (pointsTo_share (PosShare.mem_left_op_right fullShare)).2
    isplitl [Hl]; · iexact Hl
    iexact Hr
  iexact H3

end Cert.Kernel.GateUp

end
-- ==== Proof.K.Down.Runs.lean ====
/-
  The down kernel: what its three kinds of grid point share.

  The grid is (expert, output half, activation block) = 8 × 2 × 11 with the activation block innermost. At the FIRST
  activation block of a run the body resets its accumulator; at every block it adds the block's matrix product to it;
  at the LAST block it stores the accumulator into the output block, which the pipeline then writes back. Between the
  points of a run the accumulator is carried in a scratch buffer.
  Here: the two conditions in closed form over the grid, where the output window is idle, the memrefs the body is called
  with, the region's invariant with the accumulator named, and the input windows' blocks.
-/
import proofs.«104179_j6614249635977_2_alg».proof.Proof.Gen.Kernel.Launch
import proofs.«104179_j6614249635977_2_alg».proof.Proof.Gen.Kernel.Skeleton
import proofs.«104179_j6614249635977_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers' contents when the region is entered, a parameter of everything below. -/
abbrev VT (F : FTy → Type) := (c : Dev nD) → (b : Ref sig .tc) → Buf (Elt F) ((c : Thread nD τ).loc b)

/-! ## The two conditions of the body -/

/-- The point is the first activation block of its run: the accumulator is reset. -/
abbrev isFirst (i : grid1.Coords) : Prop := (Scalar.cmpi .ne (Scalar.extui (Scalar.cmpi .eq (BitVec.ofNat 32 (i 2).val) 0#32)) 0#32) = 1#1
/-- The points ≡ 0 (mod 11). -/
theorem isFirst_iff : ∀ t : Fin cfg1.N, isFirst (grid1.coords t) ↔ t.val % 11 = 0 :=
  (by decide +kernel : ∀ t : Fin grid1.N, isFirst (grid1.coords t) ↔ t.val % 11 = 0)

/-- The point is the last activation block of its run: the output block is stored. -/
abbrev isLast (i : grid1.Coords) : Prop := k1_cond2 i = 1#1
/-- The points ≡ 10 (mod 11). -/
theorem isLast_iff : ∀ t : Fin cfg1.N, isLast (grid1.coords t) ↔ t.val % 11 = 10 :=
  (by decide +kernel : ∀ t : Fin grid1.N, isLast (grid1.coords t) ↔ t.val % 11 = 10)

/-- The two conditions from the point's number: a first block is not a last one (11 blocks to a run). -/
theorem first_of (t : Fin cfg1.N) (h0 : t.val % 11 = 0) : isFirst (grid1.coords t) := (isFirst_iff t).mpr h0
theorem notFirst_of (t : Fin cfg1.N) (h0 : ¬t.val % 11 = 0) : ¬isFirst (grid1.coords t) := fun h => h0 ((isFirst_iff t).mp h)
theorem last_of (t : Fin cfg1.N) (h1 : t.val % 11 = 10) : isLast (grid1.coords t) := (isLast_iff t).mpr h1
theorem notLast_of (t : Fin cfg1.N) (h1 : ¬t.val % 11 = 10) : ¬isLast (grid1.coords t) := fun h => h1 ((isLast_iff t).mp h)
theorem notLast_of_first (t : Fin cfg1.N) (h0 : t.val % 11 = 0) : ¬isLast (grid1.coords t) :=
  fun h => by have h1 := (isLast_iff t).mp h; omega

/-! ## Where the windows are idle -/

/-- The two inputs are never idle. -/
theorem live0 : ∀ t : Fin cfg1.N, cfg1.idle 0 (grid1.coords t) = false := by decide +kernel
theorem live1 : ∀ t : Fin cfg1.N, cfg1.idle 1 (grid1.coords t) = false := by decide +kernel
/-- Off the last block the body stores nothing into the output window, and the pipeline does not write it back. -/
theorem idle2 : ∀ t : Fin cfg1.N, ¬isLast (grid1.coords t) → cfg1.idle 2 (grid1.coords t) = true := by decide +kernel
theorem noFlush2 : ∀ t : Fin cfg1.N, ¬isLast (grid1.coords t) → (cfg1.win 2).flush t = false := by decide +kernel
/-- At the last block it stores into it. -/
theorem live2 : ∀ t : Fin cfg1.N, isLast (grid1.coords t) → cfg1.idle 2 (grid1.coords t) = false := by decide +kernel

/-! ## The memrefs the body is called with -/

/-- One staging buffer of the output window, through which its contents are stated (the choice does not matter). -/
abbrev VO : View sig .tc .vmem S1x1024x1024 .f32 := (Memref.whole cc1_stg2_0 : Memref sig .tc .vmem S1x1024x1024 .f32).view
/-- Each window's current staging memref at point `t`, as the pipeline passes it, and its wholeness. -/
abbrev ms0 (t : Fin cfg1.N) : Memref sig .tc .vmem S1x1024x512 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x1024 .f32 := win1_2.stage (cfg1.slots t 2)
abbrev hs2 (t : Fin cfg1.N) : (ms2 t).IsWhole := hstage1_2 ((cfg1.slots t 2).cast nbuf1_2)
/-- The accumulator: a whole scoped buffer of the kernel's own, passed beside the windows. -/
abbrev scM : Memref sig .tc .vmem S1024x1024 .f32 := Memref.whole cc1_scratch0
/-- The same as a view: what it holds is stated through it. -/
abbrev VS : View sig .tc .vmem S1024x1024 .f32 := scM.view

/-! ## The region's invariant with the accumulator named -/

/-- The core's other scoped buffers that are no staging buffer of this region (the staging buffers and accumulators
    of the region before it), each whole at some contents: never opened here. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant with the accumulator as a memref owned at some contents, the other scoped buffers as one
    conjunct, and the generator register at some state. -/
theorem PhiA1_eq (c : Dev nD) :
    (Pipeline.ΦA spec1 c : sProp 𝕄)
      = iprop(iprop((∃ d, owns (c : Thread nD τ) scM fullShare d) ∗ Rest1 (F := F) c) ∗ (∃ r, prngReg c r)) := by
  unfold Pipeline.ΦA; rw [scopedRest1_eq]; unfold Rest1; simp only [scM, owns_whole]
  refine BI.Entails.antisymm (show (_ : sProp 𝕄) ⊢ (_ : sProp 𝕄) from ?_) (show (_ : sProp 𝕄) ⊢ (_ : sProp 𝕄) from ?_)
  · iintro ⟨⟨A0, A1, A2, A3, A4, A5, A6, A7, A8, A9, AS⟩, Hg⟩
    isplitr [Hg]
    · isplitl [AS]
      · iexact AS
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    · iexact Hg
  · iintro ⟨⟨AS, A0, A1, A2, A3, A4, A5, A6, A7, A8, A9⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact AS
    · iexact Hg

/-! ## The input windows' blocks -/

/-- Window `w`'s block at point `t`, read off its array as the region finds it. -/
def iblk (V : VT F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the region-entry contents and whose body leaves the block in place. -/
theorem before0_of (V : VT F) {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of (V : VT F) {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Cert.Kernel.Down

end
-- ==== Proof.K.Down.RunA.lean ====
/-
  The down kernel's body at the FIRST activation block of a run (and not the last): the accumulator, found at any
  contents, is reset and the block's product added; the output block is not touched. The run is a triple over whole
  memrefs; the pieces the accumulator ends with are its witness.
-/
import proofs.«104179_j6614249635977_2_alg».proof.Proof.K.Down.Runs

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a first block: the inputs' memrefs at their contents and the output's at `xi2` are handed back as they were, the
    accumulator — owned at anything — ends with the pieces `LS` written (the reset, then the sum). -/
noncomputable def kernelRun_A (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : isFirst i) (hcL : ¬isLast i)
    (x0 : Vec F S1x1024x512 .bf16) (x1 : Vec F S1x512x1024 .f32) :
    Σ' (L2 : List (View.Piece (Elt F) S1x1024x1024 .f32)), { LS : List (View.Piece (Elt F) S1024x1024 .f32) //
      ∀ (xi2 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    rw [cc1__down_kernel_eq_skeleton]; unfold cc1__down_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Down

end
-- ==== Proof.K.Down.RunB.lean ====
/-
  The down kernel's body at a MIDDLE activation block of a run (neither first nor last): the block's product is added
  to the accumulator, found at what the point before left; the output block is not touched. The run is a triple over
  whole memrefs; the pieces the accumulator ends with are its witness.
-/
import proofs.«104179_j6614249635977_2_alg».proof.Proof.K.Down.Runs

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle block: the inputs' memrefs at their contents and the output's at `xi2` are handed back as they were, the
    accumulator — owned at `xs` — ends with the pieces `LS` written (the sum). -/
noncomputable def kernelRun_B (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : ¬isLast i)
    (x0 : Vec F S1x1024x512 .bf16) (x1 : Vec F S1x512x1024 .f32) (xs : Vec F S1024x1024 .f32) :
    Σ' (L2 : List (View.Piece (Elt F) S1x1024x1024 .f32)), { LS : List (View.Piece (Elt F) S1024x1024 .f32) //
      ∀ (xi2 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    rw [cc1__down_kernel_eq_skeleton]; unfold cc1__down_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.Kernel.Down

end
-- ==== Proof.K.Down.RunC.lean ====
/-
  The down kernel's body at the LAST activation block of a run (and not the first): the block's product is added to the
  accumulator, found at what the point before left, and the accumulator is stored into the output block. The run is a
  triple over whole memrefs; the pieces the output block and the accumulator end with are its witness.
-/
import proofs.«104179_j6614249635977_2_alg».proof.Proof.K.Down.Runs

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a last block: the inputs' memrefs at their contents are handed back as they were; the output's — owned at
    anything — ends with the pieces `L2` written (the accumulator), the accumulator — owned at `xs` — with `LS` (the sum). -/
noncomputable def kernelRun_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) :
    Σ' (L2 : List (View.Piece (Elt F) S1x1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    rw [cc1__down_kernel_eq_skeleton]; unfold cc1__down_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Down

end
-- ==== Proof.K.Down.Region.lean ====
/-
  The down kernel as proof data of its pipeline, and the body's obligation at every grid point.

  What each of the three kinds of point leaves in the accumulator (and, at a last block, in the output block) is read back
  from the pieces its run wrote; `outsAt` chains them point by point, a middle or last block starting from what the
  point before left in the accumulator. The region's invariant names the accumulator's contents after every point.
-/
import proofs.«104179_j6614249635977_2_alg».proof.Proof.K.Down.RunA
import proofs.«104179_j6614249635977_2_alg».proof.Proof.K.Down.RunB
import proofs.«104179_j6614249635977_2_alg».proof.Proof.K.Down.RunC

set_option maxRecDepth 16384

noncomputable section

namespace Cert.Kernel.Down

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves -/

/-- A first block stores nothing into the output window: no pieces, a placeholder nothing consults (the window is idle
    there and not written back). -/
def out_A (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : isFirst i) (hcL : ¬isLast i)
    (x0 : Vec F S1x1024x512 .bf16) (x1 : Vec F S1x512x1024 .f32) : Vec F S1x1024x1024 .f32 :=
  VO.read (Elt F) (VO.writes (Elt F) VO.junk (kernelRun_A c i arg3 harg3 arg4 harg4 arg5 harg5 arg6 harg6 hcF hcL x0 x1).1)

/-- A first block's pieces for the accumulator cover it. -/
theorem scover_A (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : isFirst i) (hcL : ¬isLast i)
    (x0 : Vec F S1x1024x512 .bf16) (x1 : Vec F S1x512x1024 .f32) (y : S1024x1024.Idx) :
    ∃ pc ∈ (kernelRun_A c i arg3 harg3 arg4 harg4 arg5 harg5 arg6 harg6 hcF hcL x0 x1).2.1, y ∈ pc.1.set :=
  View.cover_of_tiledL (kernelRun_A c i arg3 harg3 arg4 harg4 arg5 harg5 arg6 harg6 hcF hcL x0 x1).2.1 S1024x1024.size (by sl_kernel_rfl) y

/-- What a first block leaves in the accumulator: its pieces read back. -/
def sout_A (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : isFirst i) (hcL : ¬isLast i)
    (x0 : Vec F S1x1024x512 .bf16) (x1 : Vec F S1x512x1024 .f32) : Vec F S1024x1024 .f32 :=
  VS.read (Elt F) (VS.writes (Elt F) VS.junk (kernelRun_A c i arg3 harg3 arg4 harg4 arg5 harg5 arg6 harg6 hcF hcL x0 x1).2.1)

/-- A middle block stores nothing into the output window either. -/
def out_B (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : ¬isLast i)
    (x0 : Vec F S1x1024x512 .bf16) (x1 : Vec F S1x512x1024 .f32) (xs : Vec F S1024x1024 .f32) : Vec F S1x1024x1024 .f32 :=
  VO.read (Elt F) (VO.writes (Elt F) VO.junk (kernelRun_B c i arg3 harg3 arg4 harg4 arg5 harg5 arg6 harg6 hcF hcL x0 x1 xs).1)

/-- A middle block's pieces for the accumulator cover it. -/
theorem scover_B (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : ¬isLast i)
    (x0 : Vec F S1x1024x512 .bf16) (x1 : Vec F S1x512x1024 .f32) (xs : Vec F S1024x1024 .f32) (y : S1024x1024.Idx) :
    ∃ pc ∈ (kernelRun_B c i arg3 harg3 arg4 harg4 arg5 harg5 arg6 harg6 hcF hcL x0 x1 xs).2.1, y ∈ pc.1.set :=
  View.cover_of_tiledL (kernelRun_B c i arg3 harg3 arg4 harg4 arg5 harg5 arg6 harg6 hcF hcL x0 x1 xs).2.1 S1024x1024.size (by sl_kernel_rfl) y

/-- What a middle block leaves in the accumulator. -/
def sout_B (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : ¬isLast i)
    (x0 : Vec F S1x1024x512 .bf16) (x1 : Vec F S1x512x1024 .f32) (xs : Vec F S1024x1024 .f32) : Vec F S1024x1024 .f32 :=
  VS.read (Elt F) (VS.writes (Elt F) VS.junk (kernelRun_B c i arg3 harg3 arg4 harg4 arg5 harg5 arg6 harg6 hcF hcL x0 x1 xs).2.1)

/-- A last block's pieces for the output block cover it. -/
theorem cover_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) (y : S1x1024x1024.Idx) :
    ∃ pc ∈ (kernelRun_C c i arg3 harg3 arg4 harg4 arg5 harg5 arg6 harg6 hcF hcL x0 x1 xs).1, y ∈ pc.1.set :=
  View.cover_of_tiledL (kernelRun_C c i arg3 harg3 arg4 harg4 arg5 harg5 arg6 harg6 hcF hcL x0 x1 xs).1 S1x1024x1024.size (by sl_kernel_rfl) y

/-- What a last block leaves in the output block. -/
def out_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) : Vec F S1x1024x1024 .f32 :=
  VO.read (Elt F) (VO.writes (Elt F) VO.junk (kernelRun_C c i arg3 harg3 arg4 harg4 arg5 harg5 arg6 harg6 hcF hcL x0 x1 xs).1)

/-- A last block's pieces for the accumulator cover it. -/
theorem scover_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) (y : S1024x1024.Idx) :
    ∃ pc ∈ (kernelRun_C c i arg3 harg3 arg4 harg4 arg5 harg5 arg6 harg6 hcF hcL x0 x1 xs).2.1, y ∈ pc.1.set :=
  View.cover_of_tiledL (kernelRun_C c i arg3 harg3 arg4 harg4 arg5 harg5 arg6 harg6 hcF hcL x0 x1 xs).2.1 S1024x1024.size (by sl_kernel_rfl) y

/-- What a last block leaves in the accumulator. -/
def sout_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) : Vec F S1024x1024 .f32 :=
  VS.read (Elt F) (VS.writes (Elt F) VS.junk (kernelRun_C c i arg3 harg3 arg4 harg4 arg5 harg5 arg6 harg6 hcF hcL x0 x1 xs).2.1)

/-! ## Point by point -/

/-- What the output's staging buffer and the accumulator hold after the body at position `n`: the kind of point the
    closed forms select, run at the point's memrefs and input blocks, a middle or last block over what the point before
    left in the accumulator. -/
def outsAt (V : VT F) (c : Dev nD) : (n : ℕ) → n < cfg1.N → Vec F S1x1024x1024 .f32 × Vec F S1024x1024 .f32
  | 0, hn => (out_A c (grid1.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) (first_of ⟨0, hn⟩ (Nat.zero_mod _)) (notLast_of_first ⟨0, hn⟩ (Nat.zero_mod _)) (iblk V c 0 ⟨0, hn⟩) (iblk V c 1 ⟨0, hn⟩), sout_A c (grid1.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) (first_of ⟨0, hn⟩ (Nat.zero_mod _)) (notLast_of_first ⟨0, hn⟩ (Nat.zero_mod _)) (iblk V c 0 ⟨0, hn⟩) (iblk V c 1 ⟨0, hn⟩))
  | n + 1, hn =>
    if h0 : (n + 1) % 11 = 0 then
      (out_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (first_of ⟨n + 1, hn⟩ h0) (notLast_of_first ⟨n + 1, hn⟩ h0) (iblk V c 0 ⟨n + 1, hn⟩) (iblk V c 1 ⟨n + 1, hn⟩), sout_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (first_of ⟨n + 1, hn⟩ h0) (notLast_of_first ⟨n + 1, hn⟩ h0) (iblk V c 0 ⟨n + 1, hn⟩) (iblk V c 1 ⟨n + 1, hn⟩))
    else
      if h1 : (n + 1) % 11 = 10 then
        (out_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (last_of ⟨n + 1, hn⟩ h1) (iblk V c 0 ⟨n + 1, hn⟩) (iblk V c 1 ⟨n + 1, hn⟩) (outsAt V c n (Nat.lt_of_succ_lt hn)).2, sout_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (last_of ⟨n + 1, hn⟩ h1) (iblk V c 0 ⟨n + 1, hn⟩) (iblk V c 1 ⟨n + 1, hn⟩) (outsAt V c n (Nat.lt_of_succ_lt hn)).2)
      else
        (out_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (notLast_of ⟨n + 1, hn⟩ h1) (iblk V c 0 ⟨n + 1, hn⟩) (iblk V c 1 ⟨n + 1, hn⟩) (outsAt V c n (Nat.lt_of_succ_lt hn)).2, sout_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (notLast_of ⟨n + 1, hn⟩ h1) (iblk V c 0 ⟨n + 1, hn⟩) (iblk V c 1 ⟨n + 1, hn⟩) (outsAt V c n (Nat.lt_of_succ_lt hn)).2)

/-- `outsAt` at a first block. -/
theorem outsAt_A (V : VT F) (c : Dev nD) (t : Fin cfg1.N) (h0 : t.val % 11 = 0) :
    outsAt V c t.val t.isLt = (out_A c (grid1.coords t) (ms0 t) (hs0 t) (ms1 t) (hs1 t) (ms2 t) (hs2 t) scM (Memref.isWhole_whole _) (first_of t h0) (notLast_of_first t h0) (iblk V c 0 t) (iblk V c 1 t), sout_A c (grid1.coords t) (ms0 t) (hs0 t) (ms1 t) (hs1 t) (ms2 t) (hs2 t) scM (Memref.isWhole_whole _) (first_of t h0) (notLast_of_first t h0) (iblk V c 0 t) (iblk V c 1 t)) := by
  obtain ⟨n, hn⟩ := t
  cases n with
  | zero => exact rfl
  | succ n => exact (dif_pos h0).trans rfl

/-- `outsAt` at a middle block: over what the point before left. -/
theorem outsAt_B (V : VT F) (c : Dev nD) (t : Fin cfg1.N) (h0 : ¬t.val % 11 = 0) (h1 : ¬t.val % 11 = 10) :
    outsAt V c t.val t.isLt = (out_B c (grid1.coords t) (ms0 t) (hs0 t) (ms1 t) (hs1 t) (ms2 t) (hs2 t) scM (Memref.isWhole_whole _) (notFirst_of t h0) (notLast_of t h1) (iblk V c 0 t) (iblk V c 1 t) (outsAt V c (t.val - 1) (Nat.lt_of_le_of_lt (Nat.sub_le _ _) t.isLt)).2, sout_B c (grid1.coords t) (ms0 t) (hs0 t) (ms1 t) (hs1 t) (ms2 t) (hs2 t) scM (Memref.isWhole_whole _) (notFirst_of t h0) (notLast_of t h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last block: over what the point before left. -/
theorem outsAt_C (V : VT F) (c : Dev nD) (t : Fin cfg1.N) (h0 : ¬t.val % 11 = 0) (h1 : t.val % 11 = 10) :
    outsAt V c t.val t.isLt = (out_C c (grid1.coords t) (ms0 t) (hs0 t) (ms1 t) (hs1 t) (ms2 t) (hs2 t) scM (Memref.isWhole_whole _) (notFirst_of t h0) (last_of t h1) (iblk V c 0 t) (iblk V c 1 t) (outsAt V c (t.val - 1) (Nat.lt_of_le_of_lt (Nat.sub_le _ _) t.isLt)).2, sout_C c (grid1.coords t) (ms0 t) (hs0 t) (ms1 t) (hs1 t) (ms2 t) (hs2 t) scM (Memref.isWhole_whole _) (notFirst_of t h0) (last_of t h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the class's (the accumulator at anything);
    afterwards the accumulator at what the point before left in it, the other scoped buffers, the generator register. -/
def PhiS (V : VT F) (c : Dev nD) : (n : ℕ) → n ≤ cfg1.N → sProp 𝕄
  | 0, _ => Pipeline.ΦA spec1 c
  | n + 1, hn => iprop(iprop(owns (c : Thread nD τ) scM fullShare ((outsAt V c n hn).2) ∗ Rest1 (F := F) c) ∗ (∃ r, prngReg c r))

theorem PhiS_zero (V : VT F) (c : Dev nD) (n : ℕ) (h : n ≤ cfg1.N) (hz : n = 0) : PhiS V c n h = Pipeline.ΦA spec1 c := by
  subst hz; rfl

theorem PhiS_succ (V : VT F) (c : Dev nD) (n : ℕ) (hn : n < cfg1.N) :
    PhiS V c (n + 1) hn = iprop(iprop(owns (c : Thread nD τ) scM fullShare ((outsAt V c n hn).2) ∗ Rest1 (F := F) c) ∗ (∃ r, prngReg c r)) := rfl

theorem PhiS_pos (V : VT F) (c : Dev nD) (n : ℕ) (h : n ≤ cfg1.N) (hz : n ≠ 0) :
    PhiS V c n h = iprop(iprop(owns (c : Thread nD τ) scM fullShare ((outsAt V c (n - 1) (by omega)).2) ∗ Rest1 (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt`; the invariant `PhiS`; nothing owed; full shares. -/
def dat (V : VT F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (V : VT F) (c : Dev nD) (w : Fin cfg1.W) : (dat V c).A w = V c (Pipeline.arrRef spec1 w) := by
  dsimp only [dat]

theorem q_full (V : VT F) (c : Dev nD) (w : Fin cfg1.W) : (dat V c).q w = fullShare := rfl
theorem owed_zero (V : VT F) (c : Dev nD) (t : Fin (cfg1.N + 1)) : (dat V c).owed t = 0 := rfl

theorem PhiS_castSucc (V : VT F) (c : Dev nD) (t : Fin cfg1.N) :
    (dat V c).Φ t.castSucc = PhiS V c t.val (Nat.le_of_lt t.isLt) := by
  dsimp only [dat]; simp only [Fin.coe_castSucc]

theorem after0 (V : VT F) (c : Dev nD) (t : Fin cfg1.N) : (dat V c).after 0 t = iblk V c 0 t := by dsimp only [dat]
theorem after1 (V : VT F) (c : Dev nD) (t : Fin cfg1.N) : (dat V c).after 1 t = iblk V c 1 t := by dsimp only [dat]
theorem after2 (V : VT F) (c : Dev nD) (t : Fin cfg1.N) : (dat V c).after 2 t = (outsAt V c t.val t.isLt).1 := by dsimp only [dat]

theorem before0 (V : VT F) (c : Dev nD) (t : Fin cfg1.N) (d) : (dat V c).before 0 t d = iblk V c 0 t :=
  before0_of V (dat V c) (A_eq V c 0) (after0 V c) t d
theorem before1 (V : VT F) (c : Dev nD) (t : Fin cfg1.N) (d) : (dat V c).before 1 t d = iblk V c 1 t :=
  before1_of V (dat V c) (A_eq V c 1) (after1 V c) t d

/-! ## The body obligation, at a generic point -/

/-- What the body is called with at point `t`, -/
def bodyPre (V : VT F) (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (V : VT F) (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the closed forms say which kind of point it is; the
    invariant hands the body the accumulator at what the point before left (at anything before the first point) and
    takes it back at this point's contents; the core owes nothing throughout. -/
theorem sound_body (V : VT F) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ]
  have hN : t.val < 176 := lt_of_lt_of_eq t.isLt (show cfg1.N = 176 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  by_cases h0 : t.val % 11 = 0
  · rw [Dat.leavesExact_idle (dat V c) 2 t (idle2 t (notLast_of_first t h0)) (noFlush2 t (notLast_of_first t h0))]
    rw [outsAt_A V c t h0]
    unfold sout_A; (try dsimp only)
    by_cases hz : t.val = 0
    · rw [PhiS_castSucc V c t, PhiS_zero V c _ _ hz, PhiA1_eq]
      iintro ⟨⟨⟨HS, HR⟩, Hg⟩, Ho, ⟨%d0, H0⟩, ⟨%d1, H1⟩, ⟨%d2, H2⟩⟩
      iapply ((kernelRun_A c (grid1.coords t) _ _ _ _ _ _ _ _ (first_of t h0) (notLast_of_first t h0) (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitr [Hg]
        · isplitl [HS]
          · unfold owns; iexists _; isplitr
            swap; · iexact HS
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, HR⟩, Hg⟩, Ho, ⟨%d0, H0⟩, ⟨%d1, H1⟩, ⟨%d2, H2⟩⟩
      iapply ((kernelRun_A c (grid1.coords t) _ _ _ _ _ _ _ _ (first_of t h0) (notLast_of_first t h0) (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitr [Hg]
        · isplitl [HS]
          · unfold owns; iexists _; isplitr
            swap; · iexact HS
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun hz => h0 (by rw [hz])
    by_cases h1 : t.val % 11 = 10
    · rw [show (dat V c).leavesExact 2 t = owns (c : Thread nD τ) (ms2 t) fullShare ((dat V c).after 2 t) from by
        unfold Dat.leavesExact; rw [live2 t (last_of t h1)], after2]
      rw [outsAt_C V c t h0 h1]
      unfold out_C sout_C; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_C c (grid1.coords t) _ _ _ _ _ _ _ _ (notFirst_of t h0) (last_of t h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitr [Hg]
        · isplitl [HS]
          · unfold owns; iexists _; isplitr
            swap; · iexact HS
            ipureintro; exact View.read_writes_of_cover _ _ _ _ _ (scover_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover_C c _ _ _ _ _ _ _ _ _ _ _ _ _ _)
    · rw [Dat.leavesExact_idle (dat V c) 2 t (idle2 t (notLast_of t h1)) (noFlush2 t (notLast_of t h1))]
      rw [outsAt_B V c t h0 h1]
      unfold sout_B; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_B c (grid1.coords t) _ _ _ _ _ _ _ _ (notFirst_of t h0) (notLast_of t h1) (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitr [Hg]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2

/-- The pipeline's body obligation, at every point. -/
theorem body_obligation (V : VT F) (c : Dev nD) : BodyObligation (dat (F := F) V c) (defs₀ (F := F)) Variants.none () Set.univ := fun t => by
  rw [bigSep_W1, bigSep_W1]
  exact sound_body V c t

/-- What the launch hands the region is the invariant before the first point. -/
theorem hin (V : VT F) (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's named contents are forgotten. -/
theorem Phi_out (V : VT F) (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS, HR⟩, Hg⟩
  isplitr [Hg]
  · isplitl [HS]
    · iexists _; iexact HS
    iexact HR
  iexact Hg

/-- The same after the last point. -/
theorem hout (V : VT F) (c : Dev nD) : (dat V c).Φ (Fin.last cfg1.N) ⊢ Pipeline.ΦA spec1 c :=
  Phi_out V c _ (by rw [Fin.val_last]; have : cfg1.N = 176 := N_1; omega)

end Cert.Kernel.Down

end
-- ==== Proof.K.Whole.lean ====
/-
  The whole program: a regrouping of the tokens on the host, the gate/up kernel, the down kernel, a regrouping back.
  Between two items a core holds every unscoped buffer whole at named contents: the launch contents, then the
  regrouped tokens added, then the activation array at what the gate/up kernel's write-backs leave, then the result array
  at what the down kernel's write-backs leave, then the regrouped result. Each kernel is entered by splitting its arrays
  out of those buffers and left by putting them back; no item writes an argument array. The run reads every unscoped
  buffer at the end: the frame and the value claims are both read off it.
-/
import proofs.«104179_j6614249635977_2_alg».proof.Proof.K.GateUp.Body
import proofs.«104179_j6614249635977_2_alg».proof.Proof.K.GateUp.Arrays
import proofs.«104179_j6614249635977_2_alg».proof.Proof.K.Down.Region
import proofs.«104179_j6614249635977_2_alg».proof.Proof.Gen.Kernel.Regions
import Idealize.ShloMosaic.Lib.Pipeline.Regions
import Idealize.ShloMosaic.Lib.Pipeline.RegionsLoop
import Idealize.ShloMosaic.Lib.Pipeline.Kit

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
/-- After the tokens are regrouped. -/
abbrev W1 : Dev nD → Valuation τ sig (Elt F) := fun c => StableHlo.after hostOps0 (W0 m c)
abbrev V1 : GateUp.VT F := fun c b => W1 m c b
/-- What the gate/up kernel's write-backs leave in the activation array. -/
def act (c : Dev nD) : Buf (Elt F) ((c : Thread nD τ).loc main_v1) := (GateUp.dat (V1 m) c).arrAt 3 cfg0.N
/-- After the gate/up kernel. -/
def W2 (c : Dev nD) : Valuation τ sig (Elt F) := Function.update (W1 m c) main_v1 (act m c)
abbrev V2 : GateUp.VT F := fun c b => W2 m c b
/-- What the down kernel's write-backs leave in the result array. -/
def res (c : Dev nD) : Buf (Elt F) ((c : Thread nD τ).loc main_v2) := (Down.dat (V2 m) c).arrAt 2 cfg1.N
/-- After the down kernel. -/
def W3 (c : Dev nD) : Valuation τ sig (Elt F) := Function.update (W2 m c) main_v2 (res m c)
abbrev V3 : GateUp.VT F := fun c b => W3 m c b
/-- After the result is regrouped. -/
abbrev W4 : Dev nD → Valuation τ sig (Elt F) := fun c => StableHlo.after hostOps2 (W3 m c)

theorem W2_v1 (c : Dev nD) : W2 m c main_v1 = act m c := by unfold W2; exact Function.update_self ..
theorem W2_of_ne (c : Dev nD) (b : Ref sig .tc) (h : b ≠ main_v1) : W2 m c b = W1 m c b := by
  unfold W2; exact Function.update_of_ne (StableHlo.devRef_ne_of_ne h : (Proc.devRef .tc b : DevRef τ sig) ≠ Proc.devRef .tc main_v1) ..
theorem W3_v2 (c : Dev nD) : W3 m c main_v2 = res m c := by unfold W3; exact Function.update_self ..
theorem W3_of_ne (c : Dev nD) (b : Ref sig .tc) (h : b ≠ main_v2) : W3 m c b = W2 m c b := by
  unfold W3; exact Function.update_of_ne (StableHlo.devRef_ne_of_ne h : (Proc.devRef .tc b : DevRef τ sig) ≠ Proc.devRef .tc main_v2) ..

/-- An argument array reaches the end as launched: no host item writes it and no kernel changes it. -/
theorem W4_arg (c : Dev nD) (b : Ref sig .tc) (h2 : b ∉ hostOps2_W) (hv2 : b ≠ main_v2) (hv1 : b ≠ main_v1) (h0 : b ∉ hostOps0_W) :
    W4 m c b = m ((c : Thread nD τ).loc b) :=
  (StableHlo.after_of_writes_sub hostOps2 _ hostOps2_writes h2).trans <| (W3_of_ne m c b hv2).trans <| (W2_of_ne m c b hv1).trans <|
    (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => GateUp.dat (V1 m) c
  | ⟨1, _⟩ => fun c => Down.dat (V2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-- The buffers no window of the gate/up kernel stages are the same before and after it. -/
theorem rest0_eq (c : Dev nD) :
    (Pipeline.unscopedRest spec0 c (V1 m c) : sProp 𝕄) = Pipeline.unscopedRest spec0 c (V2 m c) := by
  rw [unscopedRest0_eq, unscopedRest0_eq]
  simp only [W2_of_ne m c main_arg0 (by decide), W2_of_ne m c main_arg2 (by decide), W2_of_ne m c main_v2 (by decide), W2_of_ne m c main_v3 (by decide)]

/-! ## The regions as segments -/

set_option backward.isDefEq.respectTransparency.types false in
/-- The gate/up kernel: entered from every unscoped buffer at `W1`, left at `W2`. Its three buffers are split out of the
    unscoped buffers, the projection array halved between its two windows, and put back at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (GateUp.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄)
        ⊢ iprop((pdats m 0 c).arrays ((pdats m 0 c).arrAt · 0) ∗ Pipeline.unscopedRest spec0 c (V1 m c)) := by
      rw [Pipeline.unscopedBufs_split₀ (Pipeline.pin (pcfgs (F := F)) adm) 0 winFacts₀0.arr_unscoped c (V1 m c)]
      exact sep_mono (GateUp.arrays_of_bufs (V1 m) c (V1 m c) _ rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (GateUp.hin (V1 m) c)
    unfold Pipeline.ΦA
    iintro ⟨Hp, -, Hr⟩
    isplitl [Hr]; · iexact Hr
    iexact Hp
  hout c := by
    rw [Pipeline.ownSems0_none]
    refine (GateUp.hout (V1 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (unscopedBufs c (V2 m c) : sProp 𝕄) := by
      rw [Pipeline.unscopedBufs_split₀ (Pipeline.pin (pcfgs (F := F)) adm) 0 winFacts₀0.arr_unscoped c (V2 m c), rest0_eq m c]
      refine sep_mono (GateUp.bufs_of_arrays (V1 m) c (V2 m c) _ ?_ ?_ ?_ ?_) .rfl
      · exact ((GateUp.dat (V1 m) c).arrAt_in 0 rfl _).trans ((GateUp.A_eq (V1 m) c 0).trans (W2_of_ne m c main_v0 (by decide)).symm)
      · exact ((GateUp.dat (V1 m) c).arrAt_in 1 rfl _).trans ((GateUp.A_eq (V1 m) c 1).trans (W2_of_ne m c main_arg1 (by decide)).symm)
      · exact ((GateUp.dat (V1 m) c).arrAt_in 2 rfl _).trans ((GateUp.A_eq (V1 m) c 2).trans (W2_of_ne m c main_arg1 (by decide)).symm)
      · exact (W2_v1 m c).symm
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the down kernel's exit each of its arrays holds what the pipeline leaves, -/
theorem hF1 (c : Dev nD) (w : Fin cfg1.W) : (pdats m 1 c).arrAt w cfg1.N = V3 m c (Pipeline.arrRef spec1 w) := by
  fin_cases w
  · exact ((Down.dat (V2 m) c).arrAt_in 0 rfl _).trans ((Down.A_eq (V2 m) c 0).trans (W3_of_ne m c main_v1 (by decide)).symm)
  · exact ((Down.dat (V2 m) c).arrAt_in 1 rfl _).trans ((Down.A_eq (V2 m) c 1).trans (W3_of_ne m c main_arg2 (by decide)).symm)
  · exact (W3_v2 m c).symm
/-- and every other buffer what it held at entry. -/
theorem hrest1 (c : Dev nD) : ∀ b, b ∉ Finset.univ.image (Pipeline.arrRef spec1) → V3 m c b = V2 m c b :=
  fun b hb => W3_of_ne m c b fun e => hb (Finset.mem_image.mpr ⟨2, Finset.mem_univ _, e.symm⟩)

set_option backward.isDefEq.respectTransparency.types false in
/-- The down kernel: entered from every unscoped buffer at `W2`, left at `W3`; its three arrays are distinct buffers. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation (V2 m) c).loose
  hwaits := Pipeline.hwaits_of_owed_zero _ _ _ _ L lv 1 fun c t => Down.owed_zero (V2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun w => Down.q_full (V2 m) c w) (V2 m c) fun w => Down.A_eq (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from Down.owed_zero (V2 m) c 0]
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Down.hin (V2 m) c)
    unfold Pipeline.ΦA
    iintro ⟨Hp, -, Hr⟩
    isplitl [Hr]; · iexact Hr
    iexact Hp
  hout c := by
    rw [Pipeline.ownSems0_none]
    refine (Down.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => Down.q_full (V2 m) c w)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from Down.owed_zero (V2 m) c _]
    icases HO with ⟨%W, -, HO⟩; iexists W; iexact HO

/-! ## @main as segments, and the launch -/

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide))⟩)
    (run_all m ρ)

end Cert.Kernel.Whole

end
-- ==== Proof.KI.GateUp.Runs.lean ====
/-
  The gate/up kernel: what its three kinds of grid point share.

  The grid is (expert, column block, feature block) = 8 × 4 × 8 with the feature block innermost. At the FIRST feature
  block of a run the body resets its two accumulators (gate, up); at every block it adds the block's two matrix products
  to them; at the LAST block it stores `up · (gate · σ(gate))`, chunk by chunk, into the activation block, which the
  pipeline then writes back. Between the points of a run the accumulators are carried in two scratch buffers.
  Here: the two conditions in closed form over the grid, where the output window is idle, the memrefs the body is called
  with, and the region's invariant with the two accumulators named.
-/
import proofs.«104179_j6614249635977_2_alg».proof.Proof.Gen.KernelIdeal.Launch
import proofs.«104179_j6614249635977_2_alg».proof.Proof.Gen.KernelIdeal.Skeleton
import proofs.«104179_j6614249635977_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers' contents when the region is entered, a parameter of everything below. -/
abbrev VT (F : FTy → Type) := (c : Dev nD) → (b : Ref sig .tc) → Buf (Elt F) ((c : Thread nD τ).loc b)

/-! ## The two conditions of the body -/

/-- The point is the first feature block of its run: the accumulators are reset. -/
abbrev isFirst (i : grid0.Coords) : Prop := (Scalar.cmpi .ne (Scalar.extui (Scalar.cmpi .eq (BitVec.ofNat 32 (i 2).val) 0#32)) 0#32) = 1#1
/-- The points ≡ 0 (mod 8). -/
theorem isFirst_iff : ∀ t : Fin cfg0.N, isFirst (grid0.coords t) ↔ t.val % 8 = 0 :=
  (by decide +kernel : ∀ t : Fin grid0.N, isFirst (grid0.coords t) ↔ t.val % 8 = 0)

/-- The point is the last feature block of its run: the activation block is stored. -/
abbrev isLast (i : grid0.Coords) : Prop := k0_cond2 i = 1#1
/-- The points ≡ 7 (mod 8). -/
theorem isLast_iff : ∀ t : Fin cfg0.N, isLast (grid0.coords t) ↔ t.val % 8 = 7 :=
  (by decide +kernel : ∀ t : Fin grid0.N, isLast (grid0.coords t) ↔ t.val % 8 = 7)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last block the body stores nothing into the activation block, -/
theorem idle3 : ∀ t : Fin cfg0.N, ¬isLast (grid0.coords t) → cfg0.idle 3 (grid0.coords t) = true := by decide +kernel
/-- and the pipeline does not write it back there. -/
theorem noFlush3 : ∀ t : Fin cfg0.N, ¬isLast (grid0.coords t) → (cfg0.win 3).flush t = false := by decide +kernel
/-- At the last block it is stored. -/
theorem live3 : ∀ t : Fin cfg0.N, isLast (grid0.coords t) → cfg0.idle 3 (grid0.coords t) = false := by decide +kernel

/-! ## The memrefs the body is called with -/

abbrev ms0 (t : Fin cfg0.N) : Memref sig .tc .vmem S1x1024x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x256x1408 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x256x1408 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024x1408 .bf16 := win0_3.stage (cfg0.slots t 3)
abbrev hs3 (t : Fin cfg0.N) : (ms3 t).IsWhole := hstage0_3 ((cfg0.slots t 3).cast nbuf0_3)
/-- The gate accumulator and the up accumulator: whole scoped buffers of the kernel's own. -/
abbrev gateM : Memref sig .tc .vmem S1024x1408 .f32 := Memref.whole cc0_scratch0
abbrev upM : Memref sig .tc .vmem S1024x1408 .f32 := Memref.whole cc0_scratch1
/-- Views through which the accumulators' and the activation block's contents are stated. -/
abbrev VG : View sig .tc .vmem S1024x1408 .f32 := gateM.view
abbrev VU : View sig .tc .vmem S1024x1408 .f32 := upM.view
abbrev VO : View sig .tc .vmem S1x1024x1408 .bf16 := (Memref.whole cc0_stg3_0 : Memref sig .tc .vmem S1x1024x1408 .bf16).view

/-! ## The region's invariant, the accumulators named -/

/-- The scoped buffers the kernel never touches (the other pallas_call's), each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- The class invariant: both accumulators at some contents, the untouched scoped buffers, the generator register. -/
theorem PhiA0_eq (c : Dev nD) :
    (Pipeline.ΦA spec0 c : sProp 𝕄)
      = iprop(((∃ d, owns (c : Thread nD τ) gateM fullShare d) ∗ (∃ d, owns (c : Thread nD τ) upM fullShare d) ∗ Rest0 c) ∗ (∃ r, prngReg c r)) := by
  unfold Pipeline.ΦA Rest0; rw [scopedRest0_eq]; simp only [gateM, upM, owns_whole]; try rfl

/-! ## The windows' blocks -/

/-- Window `w`'s block at point `t`, read off its array as the region finds it. -/
def iblk (V : VT F) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

end Cert.KernelIdeal.GateUp

end
-- ==== Proof.KI.GateUp.RunFirst.lean ====
/-
  The gate/up body at the FIRST feature block of a run: both accumulators are reset and the block's two products added.
-/
import proofs.«104179_j6614249635977_2_alg».proof.Proof.KI.GateUp.Runs

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 4000000 in
/-- runFirst: on whole memrefs — the three input blocks at their contents — the body runs to its end holding the inputs as
    they were and each buffer it stored into with its stores applied, last first, as pieces; the pieces are what the
    symbolic run of the body's skeleton finds. -/
noncomputable def runFirst (i : grid0.Coords) (arg3 : Memref sig .tc .vmem S1x1024x256 .f32) (harg3 : arg3.IsWhole) (arg4 : Memref sig .tc .vmem S1x256x1408 .f32) (harg4 : arg4.IsWhole) (arg5 : Memref sig .tc .vmem S1x256x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hf : isFirst i) (hl : ¬isLast i)
    (x0 : Vec F S1x1024x256 .f32) (x1 : Vec F S1x256x1408 .f32) (x2 : Vec F S1x256x1408 .f32) :
    Σ' (LG : List (View.Piece (Elt F) S1024x1408 .f32)), { LU : List (View.Piece (Elt F) S1024x1408 .f32) //
      ∀ (xo : Vec F S1x1024x1408 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ (∃ d, owns (c : Thread nD τ) arg7 fullShare d) ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LG) ∗ (∃ f, arg8.view.loc (c : Thread nD τ) ↦[arg8.view.set]{fullShare} arg8.view.writes (Elt F) f LU)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, fun xo E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%dg, %fg, -, HG⟩, ⟨%du, %fu, -, HU⟩, Hk⟩
    obtain rfl := harg3.eq_unread hf0; obtain rfl := harg4.eq_unread hf1; obtain rfl := harg5.eq_unread hf2; obtain rfl := harg6.eq_unread hf3
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HG]
    · iexists _; iexact HG
    iexists _; iexact HU

end Cert.KernelIdeal.GateUp

end
-- ==== Proof.KI.GateUp.RunMid.lean ====
/-
  The gate/up body at a MIDDLE feature block of a run: the block's two products are added to the accumulators.
-/
import proofs.«104179_j6614249635977_2_alg».proof.Proof.KI.GateUp.Runs

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 4000000 in
/-- runMid: on whole memrefs — the three input blocks at their contents — the body runs to its end holding the inputs as
    they were and each buffer it stored into with its stores applied, last first, as pieces; the pieces are what the
    symbolic run of the body's skeleton finds. -/
noncomputable def runMid (i : grid0.Coords) (arg3 : Memref sig .tc .vmem S1x1024x256 .f32) (harg3 : arg3.IsWhole) (arg4 : Memref sig .tc .vmem S1x256x1408 .f32) (harg4 : arg4.IsWhole) (arg5 : Memref sig .tc .vmem S1x256x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hf : ¬isFirst i) (hl : ¬isLast i)
    (x0 : Vec F S1x1024x256 .f32) (x1 : Vec F S1x256x1408 .f32) (x2 : Vec F S1x256x1408 .f32)
    (g0 : Vec F S1024x1408 .f32) (u0 : Vec F S1024x1408 .f32) :
    Σ' (LG : List (View.Piece (Elt F) S1024x1408 .f32)), { LU : List (View.Piece (Elt F) S1024x1408 .f32) //
      ∀ (xo : Vec F S1x1024x1408 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo ∗ owns (c : Thread nD τ) arg7 fullShare g0 ∗ owns (c : Thread nD τ) arg8 fullShare u0
            ∗ (iprop(owns (c : Thread nD τ) arg3 fullShare x0 ∗ owns (c : Thread nD τ) arg4 fullShare x1 ∗ owns (c : Thread nD τ) arg5 fullShare x2 ∗ owns (c : Thread nD τ) arg6 fullShare xo ∗ (∃ f, arg7.view.loc (c : Thread nD τ) ↦[arg7.view.set]{fullShare} arg7.view.writes (Elt F) f LG) ∗ (∃ f, arg8.view.loc (c : Thread nD τ) ↦[arg8.view.set]{fullShare} arg8.view.writes (Elt F) f LU)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, fun xo E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%f3, %hf3, H3⟩, ⟨%fg, %hfg, HG⟩, ⟨%fu, %hfu, HU⟩, Hk⟩
    obtain rfl := harg3.eq_unread hf0; obtain rfl := harg4.eq_unread hf1; obtain rfl := harg5.eq_unread hf2; obtain rfl := harg6.eq_unread hf3; obtain rfl := harg7.eq_unread hfg; obtain rfl := harg8.eq_unread hfu
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HG]
    · iexists _; iexact HG
    iexists _; iexact HU

end Cert.KernelIdeal.GateUp

end
-- ==== Proof.KI.GateUp.RunLast.lean ====
/-
  The gate/up body at the LAST feature block of a run: the block's two products are added to the accumulators, and the
  activation block `up · (gate · σ(gate))` is stored in eleven chunks of 128 columns.
-/
import proofs.«104179_j6614249635977_2_alg».proof.Proof.KI.GateUp.Runs

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD)

set_option maxHeartbeats 4000000 in
/-- runLast: on whole memrefs — the three input blocks at their contents — the body runs to its end holding the inputs as
    they were and each buffer it stored into with its stores applied, last first, as pieces; the pieces are what the
    symbolic run of the body's skeleton finds. -/
noncomputable def runLast (i : grid0.Coords) (arg3 : Memref sig .tc .vmem S1x1024x256 .f32) (harg3 : arg3.IsWhole) (arg4 : Memref sig .tc .vmem S1x256x1408 .f32) (harg4 : arg4.IsWhole) (arg5 : Memref sig .tc .vmem S1x256x1408 .f32) (harg5 : arg5.IsWhole) (arg6 : Memref sig .tc .vmem S1x1024x1408 .bf16) (harg6 : arg6.IsWhole) (arg7 : Memref sig .tc .vmem S1024x1408 .f32) (harg7 : arg7.IsWhole) (arg8 : Memref sig .tc .vmem S1024x1408 .f32) (harg8 : arg8.IsWhole) (hf : ¬isFirst i) (hl : isLast i)
    (x0 : Vec F S1x1024x256 .f32) (x1 : Vec F S1x256x1408 .f32) (x2 : Vec F S1x256x1408 .f32)
    (g0 : Vec F S1024x1408 .f32) (u0 : Vec F S1024x1408 .f32) :
    Σ' (LO : List (View.Piece (Elt F) S1x1024x1408 .bf16)) (LG : List (View.Piece (Elt F) S1024x1408 .f32)), { LU : List (View.Piece (Elt F) S1024x1408 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare g0 ∗ owns (c : Thread nD τ) arg8 fullShare u0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO) ∗ (∃ f, arg7.view.loc (c : Thread nD τ) ↦[arg7.view.set]{fullShare} arg7.view.writes (Elt F) f LG) ∗ (∃ f, arg8.view.loc (c : Thread nD τ) ↦[arg8.view.set]{fullShare} arg8.view.writes (Elt F) f LU)) -∗ K ⟨⟩))
          ⊢ wp frame (wpE (defs₀ (F := F)) Variants.none c none) E (cc0__gate_up_kernel i arg3 harg3 arg4 harg4 arg5 harg5 arg6 harg6 arg7 harg7 arg8 harg8) K } := by
  refine ⟨?_, ?_, ?_, fun E K => ?run⟩
  case run =>
    simp only [cc0__gate_up_kernel_eq_skeleton]; unfold cc0__gate_up_kernel_skel
    unfold owns
    iintro ⟨⟨%f0, %hf0, H0⟩, ⟨%f1, %hf1, H1⟩, ⟨%f2, %hf2, H2⟩, ⟨%d3, %f3, -, H3⟩, ⟨%fg, %hfg, HG⟩, ⟨%fu, %hfu, HU⟩, Hk⟩
    obtain rfl := harg3.eq_unread hf0; obtain rfl := harg4.eq_unread hf1; obtain rfl := harg5.eq_unread hf2; obtain rfl := harg7.eq_unread hfg; obtain rfl := harg8.eq_unread hfu
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    isplitl [HG]
    · iexists _; iexact HG
    iexists _; iexact HU

end Cert.KernelIdeal.GateUp

end
-- ==== Proof.KI.GateUp.Data.lean ====
/-
  The gate/up kernel as the pipeline's proof data: what the accumulators hold after each grid point (by recursion on the
  point: reset-and-add at the first feature block of a run, add at the others), what the activation block holds after
  the last block of a run, the region's invariant carrying the accumulators from point to point, and the body obligation
  at every point. The projection array is handed to the kernel through two windows (gate columns, up columns): each holds
  half of it.
-/
import proofs.«104179_j6614249635977_2_alg».proof.Proof.KI.GateUp.RunFirst
import proofs.«104179_j6614249635977_2_alg».proof.Proof.KI.GateUp.RunMid
import proofs.«104179_j6614249635977_2_alg».proof.Proof.KI.GateUp.RunLast

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VT F) (c : Dev nD)

/-! ## The three runs at a grid point's memrefs -/

abbrev firstAt (t : Fin cfg0.N) (hf : isFirst (grid0.coords t)) (hl : ¬isLast (grid0.coords t)) (x0 : Vec F S1x1024x256 .f32) (x1 : Vec F S1x256x1408 .f32) (x2 : Vec F S1x256x1408 .f32) :=
  runFirst (F := F) c (grid0.coords t) (ms0 t) (hs0 t) (ms1 t) (hs1 t) (ms2 t) (hs2 t) (ms3 t) (hs3 t) gateM (Memref.isWhole_whole _) upM (Memref.isWhole_whole _) hf hl x0 x1 x2
abbrev midAt (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) :=
  runMid (F := F) c (grid0.coords t) (ms0 t) (hs0 t) (ms1 t) (hs1 t) (ms2 t) (hs2 t) (ms3 t) (hs3 t) gateM (Memref.isWhole_whole _) upM (Memref.isWhole_whole _) hf hl x0 x1 x2 g0 u0
abbrev lastAt (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) :=
  runLast (F := F) c (grid0.coords t) (ms0 t) (hs0 t) (ms1 t) (hs1 t) (ms2 t) (hs2 t) (ms3 t) (hs3 t) gateM (Memref.isWhole_whole _) upM (Memref.isWhole_whole _) hf hl x0 x1 x2 g0 u0

/-- The first block of a run is not its last, and conversely. -/
theorem notLast_of_first {t : Fin cfg0.N} (h0 : t.val % 8 = 0) : ¬isLast (grid0.coords t) :=
  fun h => by have := (isLast_iff t).mp h; omega
theorem notFirst_of_last {t : Fin cfg0.N} (h1 : t.val % 8 = 7) : ¬isFirst (grid0.coords t) :=
  fun h => by have := (isFirst_iff t).mp h; omega

/-! ## What each kind of point leaves: the found pieces read back, and that they cover -/

def gFirst (t : Fin cfg0.N) (hf : isFirst (grid0.coords t)) (hl : ¬isLast (grid0.coords t)) (x0 : Vec F S1x1024x256 .f32) (x1 : Vec F S1x256x1408 .f32) (x2 : Vec F S1x256x1408 .f32) : Vec F S1024x1408 .f32 :=
  VG.read (Elt F) (VG.writes (Elt F) VG.junk (firstAt c t hf hl x0 x1 x2).1)
def uFirst (t : Fin cfg0.N) (hf : isFirst (grid0.coords t)) (hl : ¬isLast (grid0.coords t)) (x0 : Vec F S1x1024x256 .f32) (x1 : Vec F S1x256x1408 .f32) (x2 : Vec F S1x256x1408 .f32) : Vec F S1024x1408 .f32 :=
  VU.read (Elt F) (VU.writes (Elt F) VU.junk (firstAt c t hf hl x0 x1 x2).2.1)
theorem gFirst_cover (t : Fin cfg0.N) (hf : isFirst (grid0.coords t)) (hl : ¬isLast (grid0.coords t)) (x0 : Vec F S1x1024x256 .f32) (x1 : Vec F S1x256x1408 .f32) (x2 : Vec F S1x256x1408 .f32) (y : S1024x1408.Idx) :
    ∃ pc ∈ (firstAt c t hf hl x0 x1 x2).1, y ∈ pc.1.set :=
  View.cover_of_tiledL (firstAt c t hf hl x0 x1 x2).1 S1024x1408.size (by sl_kernel_rfl) y
theorem uFirst_cover (t : Fin cfg0.N) (hf : isFirst (grid0.coords t)) (hl : ¬isLast (grid0.coords t)) (x0 : Vec F S1x1024x256 .f32) (x1 : Vec F S1x256x1408 .f32) (x2 : Vec F S1x256x1408 .f32) (y : S1024x1408.Idx) :
    ∃ pc ∈ (firstAt c t hf hl x0 x1 x2).2.1, y ∈ pc.1.set :=
  View.cover_of_tiledL (firstAt c t hf hl x0 x1 x2).2.1 S1024x1408.size (by sl_kernel_rfl) y

def gMid (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) : Vec F S1024x1408 .f32 :=
  VG.read (Elt F) (VG.writes (Elt F) VG.junk (midAt c t hf hl x0 x1 x2 g0 u0).1)
def uMid (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) : Vec F S1024x1408 .f32 :=
  VU.read (Elt F) (VU.writes (Elt F) VU.junk (midAt c t hf hl x0 x1 x2 g0 u0).2.1)
theorem gMid_cover (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) (y : S1024x1408.Idx) :
    ∃ pc ∈ (midAt c t hf hl x0 x1 x2 g0 u0).1, y ∈ pc.1.set :=
  View.cover_of_tiledL (midAt c t hf hl x0 x1 x2 g0 u0).1 S1024x1408.size (by sl_kernel_rfl) y
theorem uMid_cover (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) (y : S1024x1408.Idx) :
    ∃ pc ∈ (midAt c t hf hl x0 x1 x2 g0 u0).2.1, y ∈ pc.1.set :=
  View.cover_of_tiledL (midAt c t hf hl x0 x1 x2 g0 u0).2.1 S1024x1408.size (by sl_kernel_rfl) y

def oLast (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) : Vec F S1x1024x1408 .bf16 :=
  VO.read (Elt F) (VO.writes (Elt F) VO.junk (lastAt c t hf hl x0 x1 x2 g0 u0).1)
def gLast (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) : Vec F S1024x1408 .f32 :=
  VG.read (Elt F) (VG.writes (Elt F) VG.junk (lastAt c t hf hl x0 x1 x2 g0 u0).2.1)
def uLast (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) : Vec F S1024x1408 .f32 :=
  VU.read (Elt F) (VU.writes (Elt F) VU.junk (lastAt c t hf hl x0 x1 x2 g0 u0).2.2.1)
theorem oLast_cover (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) (y : S1x1024x1408.Idx) :
    ∃ pc ∈ (lastAt c t hf hl x0 x1 x2 g0 u0).1, y ∈ pc.1.set :=
  View.cover_of_tiledL (lastAt c t hf hl x0 x1 x2 g0 u0).1 S1x1024x128.size (by sl_kernel_rfl) y
theorem gLast_cover (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) (y : S1024x1408.Idx) :
    ∃ pc ∈ (lastAt c t hf hl x0 x1 x2 g0 u0).2.1, y ∈ pc.1.set :=
  View.cover_of_tiledL (lastAt c t hf hl x0 x1 x2 g0 u0).2.1 S1024x1408.size (by sl_kernel_rfl) y
theorem uLast_cover (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) (y : S1024x1408.Idx) :
    ∃ pc ∈ (lastAt c t hf hl x0 x1 x2 g0 u0).2.2.1, y ∈ pc.1.set :=
  View.cover_of_tiledL (lastAt c t hf hl x0 x1 x2 g0 u0).2.2.1 S1024x1408.size (by sl_kernel_rfl) y

/-! ## The accumulators after each point -/

/-- The gate and up accumulators after the body at point `n`: at the first feature block of a run the reset
    accumulators plus the block's products; otherwise what the point before left plus the block's products. -/
def accAt : (n : ℕ) → n < cfg0.N → Vec F S1024x1408 .f32 × Vec F S1024x1408 .f32
  | 0, hn =>
    (gFirst c ⟨0, hn⟩ ((isFirst_iff ⟨0, hn⟩).mpr (Nat.zero_mod _)) (notLast_of_first (t := ⟨0, hn⟩) (Nat.zero_mod _)) (iblk V c 0 ⟨0, hn⟩) (iblk V c 1 ⟨0, hn⟩) (iblk V c 2 ⟨0, hn⟩),
     uFirst c ⟨0, hn⟩ ((isFirst_iff ⟨0, hn⟩).mpr (Nat.zero_mod _)) (notLast_of_first (t := ⟨0, hn⟩) (Nat.zero_mod _)) (iblk V c 0 ⟨0, hn⟩) (iblk V c 1 ⟨0, hn⟩) (iblk V c 2 ⟨0, hn⟩))
  | n + 1, hn =>
    if h0 : (n + 1) % 8 = 0 then
      (gFirst c ⟨n + 1, hn⟩ ((isFirst_iff ⟨n + 1, hn⟩).mpr h0) (notLast_of_first (t := ⟨n + 1, hn⟩) h0) (iblk V c 0 ⟨n + 1, hn⟩) (iblk V c 1 ⟨n + 1, hn⟩) (iblk V c 2 ⟨n + 1, hn⟩),
       uFirst c ⟨n + 1, hn⟩ ((isFirst_iff ⟨n + 1, hn⟩).mpr h0) (notLast_of_first (t := ⟨n + 1, hn⟩) h0) (iblk V c 0 ⟨n + 1, hn⟩) (iblk V c 1 ⟨n + 1, hn⟩) (iblk V c 2 ⟨n + 1, hn⟩))
    else if h1 : (n + 1) % 8 = 7 then
      (gLast c ⟨n + 1, hn⟩ (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (accAt n (Nat.lt_of_succ_lt hn)).1 (accAt n (Nat.lt_of_succ_lt hn)).2,
       uLast c ⟨n + 1, hn⟩ (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (accAt n (Nat.lt_of_succ_lt hn)).1 (accAt n (Nat.lt_of_succ_lt hn)).2)
    else
      (gMid c ⟨n + 1, hn⟩ (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (accAt n (Nat.lt_of_succ_lt hn)).1 (accAt n (Nat.lt_of_succ_lt hn)).2,
       uMid c ⟨n + 1, hn⟩ (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (accAt n (Nat.lt_of_succ_lt hn)).1 (accAt n (Nat.lt_of_succ_lt hn)).2)

/-- The point before `t`, for a `t` that is not the first of the grid. -/
abbrev prevLt (t : Fin cfg0.N) : t.val - 1 < cfg0.N := Nat.lt_of_le_of_lt (Nat.sub_le _ _) t.isLt

theorem accAt_first (t : Fin cfg0.N) (h0 : t.val % 8 = 0) :
    accAt V c t.val t.isLt = (gFirst c t ((isFirst_iff t).mpr h0) (notLast_of_first h0) (iblk V c 0 t) (iblk V c 1 t) (iblk V c 2 t), uFirst c t ((isFirst_iff t).mpr h0) (notLast_of_first h0) (iblk V c 0 t) (iblk V c 1 t) (iblk V c 2 t)) := by
  obtain ⟨n, hn⟩ := t
  cases n with
  | zero => exact rfl
  | succ n => exact (dif_pos h0).trans rfl

theorem accAt_last (t : Fin cfg0.N) (h0 : ¬t.val % 8 = 0) (h1 : t.val % 8 = 7) :
    accAt V c t.val t.isLt = (gLast c t (fun h => h0 ((isFirst_iff t).mp h)) ((isLast_iff t).mpr h1) (iblk V c 0 t) (iblk V c 1 t) (iblk V c 2 t) (accAt V c (t.val - 1) (prevLt t)).1 (accAt V c (t.val - 1) (prevLt t)).2,
      uLast c t (fun h => h0 ((isFirst_iff t).mp h)) ((isLast_iff t).mpr h1) (iblk V c 0 t) (iblk V c 1 t) (iblk V c 2 t) (accAt V c (t.val - 1) (prevLt t)).1 (accAt V c (t.val - 1) (prevLt t)).2) := by
  obtain ⟨n, hn⟩ := t
  cases n with
  | zero => exact (by exfalso; (try dsimp only at h0); exact absurd (Nat.zero_mod _) h0)
  | succ n => exact (dif_neg h0).trans ((dif_pos h1).trans rfl)

theorem accAt_mid (t : Fin cfg0.N) (h0 : ¬t.val % 8 = 0) (h1 : ¬t.val % 8 = 7) :
    accAt V c t.val t.isLt = (gMid c t (fun h => h0 ((isFirst_iff t).mp h)) (fun h => h1 ((isLast_iff t).mp h)) (iblk V c 0 t) (iblk V c 1 t) (iblk V c 2 t) (accAt V c (t.val - 1) (prevLt t)).1 (accAt V c (t.val - 1) (prevLt t)).2,
      uMid c t (fun h => h0 ((isFirst_iff t).mp h)) (fun h => h1 ((isLast_iff t).mp h)) (iblk V c 0 t) (iblk V c 1 t) (iblk V c 2 t) (accAt V c (t.val - 1) (prevLt t)).1 (accAt V c (t.val - 1) (prevLt t)).2) := by
  obtain ⟨n, hn⟩ := t
  cases n with
  | zero => exact (by exfalso; (try dsimp only at h0); exact absurd (Nat.zero_mod _) h0)
  | succ n => exact (dif_neg h0).trans ((dif_neg h1).trans rfl)

/-- The activation block after the body at point `t`: stored at the last feature block of a run from the accumulators
    the point before left; elsewhere the window is idle and this is a placeholder nothing consults. -/
def outAt (t : Fin cfg0.N) : Vec F S1x1024x1408 .bf16 :=
  if h1 : t.val % 8 = 7 then
    oLast c t (notFirst_of_last h1) ((isLast_iff t).mpr h1) (iblk V c 0 t) (iblk V c 1 t) (iblk V c 2 t) (accAt V c (t.val - 1) (prevLt t)).1 (accAt V c (t.val - 1) (prevLt t)).2
  else VO.read (Elt F) (VO.writes (Elt F) VO.junk [])

/-! ## The invariant: the accumulators carried from point to point -/

def PhiS : (n : ℕ) → n ≤ cfg0.N → sProp 𝕄
  | 0, _ => Pipeline.ΦA spec0 c
  | n + 1, hn => iprop((owns (c : Thread nD τ) gateM fullShare (accAt V c n hn).1 ∗ owns (c : Thread nD τ) upM fullShare (accAt V c n hn).2 ∗ Rest0 c) ∗ (∃ r, prngReg c r))

theorem PhiS_succ (n : ℕ) (hn : n < cfg0.N) :
    PhiS V c (n + 1) hn = iprop((owns (c : Thread nD τ) gateM fullShare (accAt V c n hn).1 ∗ owns (c : Thread nD τ) upM fullShare (accAt V c n hn).2 ∗ Rest0 c) ∗ (∃ r, prngReg c r)) := rfl

theorem PhiS_pos (n : ℕ) (h : n ≤ cfg0.N) (hz : n ≠ 0) :
    PhiS V c n h = iprop((owns (c : Thread nD τ) gateM fullShare (accAt V c (n - 1) (by omega)).1 ∗ owns (c : Thread nD τ) upM fullShare (accAt V c (n - 1) (by omega)).2 ∗ Rest0 c) ∗ (∃ r, prngReg c r)) := by
  cases n with
  | zero => exact absurd rfl hz
  | succ n => rfl

/-- At any point the invariant holds both accumulators at SOME contents: the named ones may be forgotten. -/
theorem PhiS_forget (n : ℕ) (h : n ≤ cfg0.N) : PhiS V c n h ⊢ Pipeline.ΦA spec0 c := by
  cases n with
  | zero => exact .rfl
  | succ n =>
    rw [PhiS_succ, PhiA0_eq]
    iintro ⟨⟨HG, HU, HR⟩, Hg⟩
    isplitr [Hg]
    · isplitl [HG]; · iexists _; iexact HG
      isplitl [HU]; · iexists _; iexact HU
      iexact HR
    iexact Hg

/-! ## The proof data -/

/-- The arrays as the region finds them; after the body each input's buffer at its block and the activation block at
    `outAt`; the invariant carrying the accumulators; the projection array held half by the gate window and half by the
    up window; nothing owed. -/
def dat : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outAt V c t
  Φ t := PhiS V c t.val (Nat.le_of_lt_succ t.isLt)
  q w := match w with
    | ⟨0, _⟩ => fullShare
    | ⟨1, _⟩ => fullShare.left
    | ⟨2, _⟩ => fullShare.right
    | ⟨3, _⟩ => fullShare
  owed _ := 0

theorem A_eq (w : Fin cfg0.W) : (dat V c).A w = V c (Pipeline.arrRef spec0 w) := by dsimp only [dat]
theorem PhiS_castSucc (t : Fin cfg0.N) : (dat V c).Φ t.castSucc = PhiS V c t.val (Nat.le_of_lt t.isLt) := by
  dsimp only [dat]; simp only [Fin.coe_castSucc]
theorem after0 (t : Fin cfg0.N) : (dat V c).after 0 t = iblk V c 0 t := by dsimp only [dat]
theorem after1 (t : Fin cfg0.N) : (dat V c).after 1 t = iblk V c 1 t := by dsimp only [dat]
theorem after2 (t : Fin cfg0.N) : (dat V c).after 2 t = iblk V c 2 t := by dsimp only [dat]
theorem after3 (t : Fin cfg0.N) : (dat V c).after 3 t = outAt V c t := by dsimp only [dat]

/-- Each input's current staging buffer holds its block at every point. -/
theorem before0 (t : Fin cfg0.N) (d) : (dat V c).before 0 t d = iblk V c 0 t :=
  ((dat V c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (t : Fin cfg0.N) (d) : (dat V c).before 1 t d = iblk V c 1 t :=
  ((dat V c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (t : Fin cfg0.N) (d) : (dat V c).before 2 t d = iblk V c 2 t :=
  ((dat V c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)

end Cert.KernelIdeal.GateUp

end
-- ==== Proof.KI.GateUp.Body.lean ====
/-
  The gate/up kernel's body obligation: at every grid point, from the invariant (the accumulators as the point before
  left them), the three input blocks in their staging buffers and the activation block's buffer, the body runs and
  leaves the invariant at this point's accumulators, the inputs in place, and the activation block stored (at the last
  feature block of a run) or untouched (elsewhere). By cases on the kind of point.
-/
import proofs.«104179_j6614249635977_2_alg».proof.Proof.KI.GateUp.Data

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VT F) (c : Dev nD)

/-- The invariant opened: both accumulators at some contents, the untouched buffers, the generator register. -/
theorem PhiS_open (n : ℕ) (h : n ≤ cfg0.N) :
    PhiS V c n h ⊢ (iprop(((∃ d, owns (c : Thread nD τ) gateM fullShare d) ∗ (∃ d, owns (c : Thread nD τ) upM fullShare d) ∗ Rest0 c) ∗ (∃ r, prngReg c r)) : sProp 𝕄) :=
  by have e := PhiS_forget V c n h; rw [PhiA0_eq] at e; exact e

/-- What the body is called with at point `t`, -/
def bodyPre (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d)))

/-- and what it returns. -/
def bodyPost (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  rw [show (dat V c).leavesExact 2 t = owns (c : Thread nD τ) (ms2 t) fullShare ((dat V c).after 2 t) from by
    unfold Dat.leavesExact; rw [live2 t], after2]
  rw [PhiS_castSucc V c t]
  by_cases h0 : t.val % 8 = 0
  · -- the first feature block of a run: whatever the accumulators held is overwritten
    have hf : isFirst (grid0.coords t) := (isFirst_iff t).mpr h0
    have hl : ¬isLast (grid0.coords t) := notLast_of_first h0
    rw [Dat.leavesExact_idle (dat V c) 3 t (idle3 t hl) (noFlush3 t hl)]
    rw [accAt_first V c t h0]
    unfold gFirst uFirst; (try dsimp only)
    iintro ⟨HΦ, Ho, ⟨%d0, H0⟩, ⟨%d1, H1⟩, ⟨%d2, H2⟩, ⟨%d3, H3⟩⟩
    ihave HΦ' := (PhiS_open V c t.val (Nat.le_of_lt t.isLt)) $$ HΦ
    icases HΦ' with ⟨⟨HG, HU, HR⟩, Hg⟩
    iapply ((firstAt c t hf hl (iblk V c 0 t) (iblk V c 1 t) (iblk V c 2 t)).2.2 _ Set.univ _)
    isplitl [H0]; · iexact H0
    isplitl [H1]; · iexact H1
    isplitl [H2]; · iexact H2
    isplitl [H3]; · iexact H3
    isplitl [HG]; · iexact HG
    isplitl [HU]; · iexact HU
    iintro ⟨H0, H1, H2, H3, ⟨%eg, HG⟩, ⟨%eu, HU⟩⟩
    isplitl [HG HU HR Hg]
    · isplitl [HG HU HR]
      · isplitl [HG]
        · unfold owns; iexists _; isplitr
          swap; · iexact HG
          ipureintro; exact View.read_writes_of_cover _ _ _ _ _ (gFirst_cover c t hf hl _ _ _)
        isplitl [HU]
        · unfold owns; iexists _; isplitr
          swap; · iexact HU
          ipureintro; exact View.read_writes_of_cover _ _ _ _ _ (uFirst_cover c t hf hl _ _ _)
        iexact HR
      iexact Hg
    isplitl [Ho]; · iexact Ho
    isplitl [H0]; · iexact H0
    isplitl [H1]; · iexact H1
    isplitl [H2]; · iexact H2
    iexists _; iexact H3
  · have hz : t.val ≠ 0 := fun h => h0 (by rw [h])
    have hf : ¬isFirst (grid0.coords t) := fun h => h0 ((isFirst_iff t).mp h)
    rw [PhiS_pos V c _ _ hz]
    by_cases h1 : t.val % 8 = 7
    · -- the last feature block of a run: the accumulators updated, the activation block stored
      have hl : isLast (grid0.coords t) := (isLast_iff t).mpr h1
      rw [show (dat V c).leavesExact 3 t = owns (c : Thread nD τ) (ms3 t) fullShare ((dat V c).after 3 t) from by
        unfold Dat.leavesExact; rw [live3 t hl], after3]
      rw [show outAt V c t = oLast c t (notFirst_of_last h1) ((isLast_iff t).mpr h1) (iblk V c 0 t) (iblk V c 1 t) (iblk V c 2 t) (accAt V c (t.val - 1) (prevLt t)).1 (accAt V c (t.val - 1) (prevLt t)).2 from by
        unfold outAt; rw [dif_pos h1]]
      rw [accAt_last V c t h0 h1]
      unfold oLast gLast uLast; (try dsimp only)
      iintro ⟨⟨⟨HG, HU, HR⟩, Hg⟩, Ho, ⟨%d0, H0⟩, ⟨%d1, H1⟩, ⟨%d2, H2⟩, ⟨%d3, H3⟩⟩
      iapply ((lastAt c t hf hl (iblk V c 0 t) (iblk V c 1 t) (iblk V c 2 t) _ _).2.2.2 Set.univ _)
      isplitl [H0]; · iexact H0
      isplitl [H1]; · iexact H1
      isplitl [H2]; · iexact H2
      isplitl [H3]; · iexists _; iexact H3
      isplitl [HG]; · iexact HG
      isplitl [HU]; · iexact HU
      iintro ⟨H0, H1, H2, ⟨%e3, H3⟩, ⟨%eg, HG⟩, ⟨%eu, HU⟩⟩
      isplitl [HG HU HR Hg]
      · isplitl [HG HU HR]
        · isplitl [HG]
          · unfold owns; iexists _; isplitr
            swap; · iexact HG
            ipureintro; exact View.read_writes_of_cover _ _ _ _ _ (gLast_cover c t hf hl _ _ _ _ _)
          isplitl [HU]
          · unfold owns; iexists _; isplitr
            swap; · iexact HU
            ipureintro; exact View.read_writes_of_cover _ _ _ _ _ (uLast_cover c t hf hl _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (oLast_cover c t hf hl _ _ _ _ _)
    · -- a middle feature block: the accumulators updated, the activation block untouched
      have hl : ¬isLast (grid0.coords t) := fun h => h1 ((isLast_iff t).mp h)
      rw [Dat.leavesExact_idle (dat V c) 3 t (idle3 t hl) (noFlush3 t hl)]
      rw [accAt_mid V c t h0 h1]
      unfold gMid uMid; (try dsimp only)
      iintro ⟨⟨⟨HG, HU, HR⟩, Hg⟩, Ho, ⟨%d0, H0⟩, ⟨%d1, H1⟩, ⟨%d2, H2⟩, ⟨%d3, H3⟩⟩
      iapply ((midAt c t hf hl (iblk V c 0 t) (iblk V c 1 t) (iblk V c 2 t) _ _).2.2 _ Set.univ _)
      isplitl [H0]; · iexact H0
      isplitl [H1]; · iexact H1
      isplitl [H2]; · iexact H2
      isplitl [H3]; · iexact H3
      isplitl [HG]; · iexact HG
      isplitl [HU]; · iexact HU
      iintro ⟨H0, H1, H2, H3, ⟨%eg, HG⟩, ⟨%eu, HU⟩⟩
      isplitl [HG HU HR Hg]
      · isplitl [HG HU HR]
        · isplitl [HG]
          · unfold owns; iexists _; isplitr
            swap; · iexact HG
            ipureintro; exact View.read_writes_of_cover _ _ _ _ _ (gMid_cover c t hf hl _ _ _ _ _)
          isplitl [HU]
          · unfold owns; iexists _; isplitr
            swap; · iexact HU
            ipureintro; exact View.read_writes_of_cover _ _ _ _ _ (uMid_cover c t hf hl _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation : BodyObligation (dat (F := F) V c) (defs₀ (F := F)) Variants.none () Set.univ := fun t => by
  rw [bigSep_W0, bigSep_W0]
  exact sound_body V c t

/-- What the launch hands the region is the invariant before the first point, -/
theorem hin : Pipeline.ΦA spec0 c ⊢ (dat V c).Φ 0 := by
  rw [show (dat V c).Φ 0 = PhiS V c 0 (Nat.zero_le _) from rfl]
  exact .rfl

/-- and after the last point the invariant gives it back, the accumulators' contents forgotten. -/
theorem hout : (dat V c).Φ (Fin.last cfg0.N) ⊢ Pipeline.ΦA spec0 c := by
  rw [show (dat V c).Φ (Fin.last cfg0.N) = PhiS V c (Fin.last cfg0.N).val (Nat.le_of_lt_succ (Fin.last cfg0.N).isLt) from rfl]
  exact PhiS_forget V c _ _

end Cert.KernelIdeal.GateUp

end
-- ==== Proof.KI.GateUp.Arrays.lean ====
/-
  The gate/up kernel's arrays against the core's buffers. Three buffers stand behind its four windows: the regrouped
  tokens, the projection array (read through the gate window and through the up window) and the activation array. The
  projection array, held whole outside the region, is split in two halves at entry, one per window that reads it, and the
  halves are joined again at exit; nothing writes it, so both halves hold its entry contents throughout.
-/
import proofs.«104179_j6614249635977_2_alg».proof.Proof.KI.GateUp.Data

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : VT F) (c : Dev nD)

/-- The buffers behind the windows' arrays, one by one. -/
theorem arrBufs_eq (V' : (b : Ref sig .tc) → Buf (Elt F) ((c : Thread nD τ).loc b)) :
    (Pipeline.arrBufs spec0 c V' : sProp 𝕄)
      = iprop((((c : Thread nD τ).loc main_v0) ↦{fullShare} V' main_v0) ∗ (((c : Thread nD τ).loc main_arg1) ↦{fullShare} V' main_arg1) ∗ (((c : Thread nD τ).loc main_v1) ↦{fullShare} V' main_v1)) := by
  unfold Pipeline.arrBufs
  exact bigSep_eq_bigSepL_of_eq [main_v0, main_arg1, main_v1] (by decide) (by decide) _

/-- The proof data's arrays, one by one, each at its share. -/
theorem arrays_eq (G : (w : Fin cfg0.W) → Buf (Elt F) ((cfg0.win w).arr.view.loc (c.tc : Thread nD τ))) :
    ((dat V c).arrays G : sProp 𝕄)
      = iprop((((c : Thread nD τ).loc main_v0) ↦{fullShare} G 0) ∗ (((c : Thread nD τ).loc main_arg1) ↦{fullShare.left} G 1) ∗ (((c : Thread nD τ).loc main_arg1) ↦{fullShare.right} G 2) ∗ (((c : Thread nD τ).loc main_v1) ↦{fullShare} G 3)) := by
  unfold Dat.arrays
  rw [bigSep_W0, (arr_whole0 0).set_eq_univ, (arr_whole0 1).set_eq_univ, (arr_whole0 3).set_eq_univ]
  rfl

/-- ENTRY: the three buffers whole make the four windows' arrays, the projection array halved. -/
theorem arrays_of_bufs (V' : (b : Ref sig .tc) → Buf (Elt F) ((c : Thread nD τ).loc b))
    (G : (w : Fin cfg0.W) → Buf (Elt F) ((cfg0.win w).arr.view.loc (c.tc : Thread nD τ)))
    (h0 : G 0 = V' main_v0) (h1 : G 1 = V' main_arg1) (h2 : G 2 = V' main_arg1) (h3 : G 3 = V' main_v1) :
    (Pipeline.arrBufs spec0 c V' : sProp 𝕄) ⊢ (dat V c).arrays G := by
  rw [arrBufs_eq, arrays_eq, h0, h1, h2, h3]
  iintro ⟨H0, H1, H3⟩
  ihave H12 := (pointsTo_share (PosShare.mem_left_op_right fullShare)).1 $$ H1
  icases H12 with ⟨Hl, Hr⟩
  isplitl [H0]; · iexact H0
  isplitl [Hl]; · iexact Hl
  isplitl [Hr]; · iexact Hr
  iexact H3

/-- EXIT: the four windows' arrays, the two halves of the projection array at one contents, make the three buffers whole. -/
theorem bufs_of_arrays (V' : (b : Ref sig .tc) → Buf (Elt F) ((c : Thread nD τ).loc b))
    (G : (w : Fin cfg0.W) → Buf (Elt F) ((cfg0.win w).arr.view.loc (c.tc : Thread nD τ)))
    (h0 : G 0 = V' main_v0) (h1 : G 1 = V' main_arg1) (h2 : G 2 = V' main_arg1) (h3 : G 3 = V' main_v1) :
    ((dat V c).arrays G : sProp 𝕄) ⊢ Pipeline.arrBufs spec0 c V' := by
  rw [arrBufs_eq, arrays_eq, h0, h1, h2, h3]
  iintro ⟨H0, Hl, Hr, H3⟩
  isplitl [H0]; · iexact H0
  isplitl [Hl Hr]
  · iapply (pointsTo_share (PosShare.mem_left_op_right fullShare)).2
    isplitl [Hl]; · iexact Hl
    iexact Hr
  iexact H3

end Cert.KernelIdeal.GateUp

end
-- ==== Proof.KI.Down.Runs.lean ====
/-
  The down kernel: what its three kinds of grid point share.

  The grid is (expert, output half, activation block) = 8 × 2 × 11 with the activation block innermost. At the FIRST
  activation block of a run the body resets its accumulator; at every block it adds the block's matrix product to it;
  at the LAST block it stores the accumulator into the output block, which the pipeline then writes back. Between the
  points of a run the accumulator is carried in a scratch buffer.
  Here: the two conditions in closed form over the grid, where the output window is idle, the memrefs the body is called
  with, the region's invariant with the accumulator named, and the input windows' blocks.
-/
import proofs.«104179_j6614249635977_2_alg».proof.Proof.Gen.KernelIdeal.Launch
import proofs.«104179_j6614249635977_2_alg».proof.Proof.Gen.KernelIdeal.Skeleton
import proofs.«104179_j6614249635977_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers' contents when the region is entered, a parameter of everything below. -/
abbrev VT (F : FTy → Type) := (c : Dev nD) → (b : Ref sig .tc) → Buf (Elt F) ((c : Thread nD τ).loc b)

/-! ## The two conditions of the body -/

/-- The point is the first activation block of its run: the accumulator is reset. -/
abbrev isFirst (i : grid1.Coords) : Prop := (Scalar.cmpi .ne (Scalar.extui (Scalar.cmpi .eq (BitVec.ofNat 32 (i 2).val) 0#32)) 0#32) = 1#1
/-- The points ≡ 0 (mod 11). -/
theorem isFirst_iff : ∀ t : Fin cfg1.N, isFirst (grid1.coords t) ↔ t.val % 11 = 0 :=
  (by decide +kernel : ∀ t : Fin grid1.N, isFirst (grid1.coords t) ↔ t.val % 11 = 0)

/-- The point is the last activation block of its run: the output block is stored. -/
abbrev isLast (i : grid1.Coords) : Prop := k1_cond2 i = 1#1
/-- The points ≡ 10 (mod 11). -/
theorem isLast_iff : ∀ t : Fin cfg1.N, isLast (grid1.coords t) ↔ t.val % 11 = 10 :=
  (by decide +kernel : ∀ t : Fin grid1.N, isLast (grid1.coords t) ↔ t.val % 11 = 10)

/-- The two conditions from the point's number: a first block is not a last one (11 blocks to a run). -/
theorem first_of (t : Fin cfg1.N) (h0 : t.val % 11 = 0) : isFirst (grid1.coords t) := (isFirst_iff t).mpr h0
theorem notFirst_of (t : Fin cfg1.N) (h0 : ¬t.val % 11 = 0) : ¬isFirst (grid1.coords t) := fun h => h0 ((isFirst_iff t).mp h)
theorem last_of (t : Fin cfg1.N) (h1 : t.val % 11 = 10) : isLast (grid1.coords t) := (isLast_iff t).mpr h1
theorem notLast_of (t : Fin cfg1.N) (h1 : ¬t.val % 11 = 10) : ¬isLast (grid1.coords t) := fun h => h1 ((isLast_iff t).mp h)
theorem notLast_of_first (t : Fin cfg1.N) (h0 : t.val % 11 = 0) : ¬isLast (grid1.coords t) :=
  fun h => by have h1 := (isLast_iff t).mp h; omega

/-! ## Where the windows are idle -/

/-- The two inputs are never idle. -/
theorem live0 : ∀ t : Fin cfg1.N, cfg1.idle 0 (grid1.coords t) = false := by decide +kernel
theorem live1 : ∀ t : Fin cfg1.N, cfg1.idle 1 (grid1.coords t) = false := by decide +kernel
/-- Off the last block the body stores nothing into the output window, and the pipeline does not write it back. -/
theorem idle2 : ∀ t : Fin cfg1.N, ¬isLast (grid1.coords t) → cfg1.idle 2 (grid1.coords t) = true := by decide +kernel
theorem noFlush2 : ∀ t : Fin cfg1.N, ¬isLast (grid1.coords t) → (cfg1.win 2).flush t = false := by decide +kernel
/-- At the last block it stores into it. -/
theorem live2 : ∀ t : Fin cfg1.N, isLast (grid1.coords t) → cfg1.idle 2 (grid1.coords t) = false := by decide +kernel

/-! ## The memrefs the body is called with -/

/-- One staging buffer of the output window, through which its contents are stated (the choice does not matter). -/
abbrev VO : View sig .tc .vmem S1x1024x1024 .f32 := (Memref.whole cc1_stg2_0 : Memref sig .tc .vmem S1x1024x1024 .f32).view
/-- Each window's current staging memref at point `t`, as the pipeline passes it, and its wholeness. -/
abbrev ms0 (t : Fin cfg1.N) : Memref sig .tc .vmem S1x1024x512 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x512x1024 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x1024 .f32 := win1_2.stage (cfg1.slots t 2)
abbrev hs2 (t : Fin cfg1.N) : (ms2 t).IsWhole := hstage1_2 ((cfg1.slots t 2).cast nbuf1_2)
/-- The accumulator: a whole scoped buffer of the kernel's own, passed beside the windows. -/
abbrev scM : Memref sig .tc .vmem S1024x1024 .f32 := Memref.whole cc1_scratch0
/-- The same as a view: what it holds is stated through it. -/
abbrev VS : View sig .tc .vmem S1024x1024 .f32 := scM.view

/-! ## The region's invariant with the accumulator named -/

/-- The core's other scoped buffers that are no staging buffer of this region (the staging buffers and accumulators
    of the region before it), each whole at some contents: never opened here. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The class invariant with the accumulator as a memref owned at some contents, the other scoped buffers as one
    conjunct, and the generator register at some state. -/
theorem PhiA1_eq (c : Dev nD) :
    (Pipeline.ΦA spec1 c : sProp 𝕄)
      = iprop(iprop((∃ d, owns (c : Thread nD τ) scM fullShare d) ∗ Rest1 (F := F) c) ∗ (∃ r, prngReg c r)) := by
  unfold Pipeline.ΦA; rw [scopedRest1_eq]; unfold Rest1; simp only [scM, owns_whole]
  refine BI.Entails.antisymm (show (_ : sProp 𝕄) ⊢ (_ : sProp 𝕄) from ?_) (show (_ : sProp 𝕄) ⊢ (_ : sProp 𝕄) from ?_)
  · iintro ⟨⟨A0, A1, A2, A3, A4, A5, A6, A7, A8, A9, AS⟩, Hg⟩
    isplitr [Hg]
    · isplitl [AS]
      · iexact AS
      isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      iexact A9
    · iexact Hg
  · iintro ⟨⟨AS, A0, A1, A2, A3, A4, A5, A6, A7, A8, A9⟩, Hg⟩
    isplitr [Hg]
    · isplitl [A0]; · iexact A0
      isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      iexact AS
    · iexact Hg

/-! ## The input windows' blocks -/

/-- Window `w`'s block at point `t`, read off its array as the region finds it. -/
def iblk (V : VT F) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is the region-entry contents and whose body leaves the block in place. -/
theorem before0_of (V : VT F) {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before1_of (V : VT F) {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Down

end
-- ==== Proof.KI.Down.RunA.lean ====
/-
  The down kernel's body at the FIRST activation block of a run (and not the last): the accumulator, found at any
  contents, is reset and the block's product added; the output block is not touched. The run is a triple over whole
  memrefs; the pieces the accumulator ends with are its witness.
-/
import proofs.«104179_j6614249635977_2_alg».proof.Proof.KI.Down.Runs

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a first block: the inputs' memrefs at their contents and the output's at `xi2` are handed back as they were, the
    accumulator — owned at anything — ends with the pieces `LS` written (the reset, then the sum). -/
noncomputable def kernelRun_A (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : isFirst i) (hcL : ¬isLast i)
    (x0 : Vec F S1x1024x512 .bf16) (x1 : Vec F S1x512x1024 .f32) :
    Σ' (L2 : List (View.Piece (Elt F) S1x1024x1024 .f32)), { LS : List (View.Piece (Elt F) S1024x1024 .f32) //
      ∀ (xi2 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    rw [cc1__down_kernel_eq_skeleton]; unfold cc1__down_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Down

end
-- ==== Proof.KI.Down.RunB.lean ====
/-
  The down kernel's body at a MIDDLE activation block of a run (neither first nor last): the block's product is added
  to the accumulator, found at what the point before left; the output block is not touched. The run is a triple over
  whole memrefs; the pieces the accumulator ends with are its witness.
-/
import proofs.«104179_j6614249635977_2_alg».proof.Proof.KI.Down.Runs

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a middle block: the inputs' memrefs at their contents and the output's at `xi2` are handed back as they were, the
    accumulator — owned at `xs` — ends with the pieces `LS` written (the sum). -/
noncomputable def kernelRun_B (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : ¬isLast i)
    (x0 : Vec F S1x1024x512 .bf16) (x1 : Vec F S1x512x1024 .f32) (xs : Vec F S1024x1024 .f32) :
    Σ' (L2 : List (View.Piece (Elt F) S1x1024x1024 .f32)), { LS : List (View.Piece (Elt F) S1024x1024 .f32) //
      ∀ (xi2 : Vec F S1x1024x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS)) -∗ K ⟨⟩))
          ⊢ wp frame (wpE (defs₀ (F := F)) Variants.none c none) E (cc1__down_kernel i arg3 harg3 arg4 harg4 arg5 harg5 arg6 harg6) K } := by
  refine ⟨[], ?_, fun xi2 E K => ?run⟩
  case run =>
    rw [cc1__down_kernel_eq_skeleton]; unfold cc1__down_kernel_skel
    unfold owns
    iintro ⟨⟨%f0, %hf0, H0⟩, ⟨%f1, %hf1, H1⟩, ⟨%f2, %hf2, H2⟩, ⟨%fs, %hfs, HS⟩, Hk⟩
    obtain rfl := harg3.eq_unread hf0; obtain rfl := harg4.eq_unread hf1; obtain rfl := harg5.eq_unread hf2; obtain rfl := harg6.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

end Cert.KernelIdeal.Down

end
-- ==== Proof.KI.Down.RunC.lean ====
/-
  The down kernel's body at the LAST activation block of a run (and not the first): the block's product is added to the
  accumulator, found at what the point before left, and the accumulator is stored into the output block. The run is a
  triple over whole memrefs; the pieces the output block and the accumulator end with are its witness.
-/
import proofs.«104179_j6614249635977_2_alg».proof.Proof.KI.Down.Runs

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- At a last block: the inputs' memrefs at their contents are handed back as they were; the output's — owned at
    anything — ends with the pieces `L2` written (the accumulator), the accumulator — owned at `xs` — with `LS` (the sum). -/
noncomputable def kernelRun_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) :
    Σ' (L2 : List (View.Piece (Elt F) S1x1024x1024 .f32)), { LS : List (View.Piece (Elt F) S1024x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS)) -∗ K ⟨⟩))
          ⊢ wp frame (wpE (defs₀ (F := F)) Variants.none c none) E (cc1__down_kernel i arg3 harg3 arg4 harg4 arg5 harg5 arg6 harg6) K } := by
  refine ⟨?_, ?_, fun E K => ?run⟩
  case run =>
    rw [cc1__down_kernel_eq_skeleton]; unfold cc1__down_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hcF | exact hcL)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Down

end
-- ==== Proof.KI.Down.Region.lean ====
/-
  The down kernel as proof data of its pipeline, and the body's obligation at every grid point.

  What each of the three kinds of point leaves in the accumulator (and, at a last block, in the output block) is read back
  from the pieces its run wrote; `outsAt` chains them point by point, a middle or last block starting from what the
  point before left in the accumulator. The region's invariant names the accumulator's contents after every point.
-/
import proofs.«104179_j6614249635977_2_alg».proof.Proof.KI.Down.RunA
import proofs.«104179_j6614249635977_2_alg».proof.Proof.KI.Down.RunB
import proofs.«104179_j6614249635977_2_alg».proof.Proof.KI.Down.RunC

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each kind of point leaves -/

/-- A first block stores nothing into the output window: no pieces, a placeholder nothing consults (the window is idle
    there and not written back). -/
def out_A (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : isFirst i) (hcL : ¬isLast i)
    (x0 : Vec F S1x1024x512 .bf16) (x1 : Vec F S1x512x1024 .f32) : Vec F S1x1024x1024 .f32 :=
  VO.read (Elt F) (VO.writes (Elt F) VO.junk (kernelRun_A c i arg3 harg3 arg4 harg4 arg5 harg5 arg6 harg6 hcF hcL x0 x1).1)

/-- A first block's pieces for the accumulator cover it. -/
theorem scover_A (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : isFirst i) (hcL : ¬isLast i)
    (x0 : Vec F S1x1024x512 .bf16) (x1 : Vec F S1x512x1024 .f32) (y : S1024x1024.Idx) :
    ∃ pc ∈ (kernelRun_A c i arg3 harg3 arg4 harg4 arg5 harg5 arg6 harg6 hcF hcL x0 x1).2.1, y ∈ pc.1.set :=
  View.cover_of_tiledL (kernelRun_A c i arg3 harg3 arg4 harg4 arg5 harg5 arg6 harg6 hcF hcL x0 x1).2.1 S1024x1024.size (by sl_kernel_rfl) y

/-- What a first block leaves in the accumulator: its pieces read back. -/
def sout_A (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : isFirst i) (hcL : ¬isLast i)
    (x0 : Vec F S1x1024x512 .bf16) (x1 : Vec F S1x512x1024 .f32) : Vec F S1024x1024 .f32 :=
  VS.read (Elt F) (VS.writes (Elt F) VS.junk (kernelRun_A c i arg3 harg3 arg4 harg4 arg5 harg5 arg6 harg6 hcF hcL x0 x1).2.1)

/-- A middle block stores nothing into the output window either. -/
def out_B (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : ¬isLast i)
    (x0 : Vec F S1x1024x512 .bf16) (x1 : Vec F S1x512x1024 .f32) (xs : Vec F S1024x1024 .f32) : Vec F S1x1024x1024 .f32 :=
  VO.read (Elt F) (VO.writes (Elt F) VO.junk (kernelRun_B c i arg3 harg3 arg4 harg4 arg5 harg5 arg6 harg6 hcF hcL x0 x1 xs).1)

/-- A middle block's pieces for the accumulator cover it. -/
theorem scover_B (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : ¬isLast i)
    (x0 : Vec F S1x1024x512 .bf16) (x1 : Vec F S1x512x1024 .f32) (xs : Vec F S1024x1024 .f32) (y : S1024x1024.Idx) :
    ∃ pc ∈ (kernelRun_B c i arg3 harg3 arg4 harg4 arg5 harg5 arg6 harg6 hcF hcL x0 x1 xs).2.1, y ∈ pc.1.set :=
  View.cover_of_tiledL (kernelRun_B c i arg3 harg3 arg4 harg4 arg5 harg5 arg6 harg6 hcF hcL x0 x1 xs).2.1 S1024x1024.size (by sl_kernel_rfl) y

/-- What a middle block leaves in the accumulator. -/
def sout_B (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : ¬isLast i)
    (x0 : Vec F S1x1024x512 .bf16) (x1 : Vec F S1x512x1024 .f32) (xs : Vec F S1024x1024 .f32) : Vec F S1024x1024 .f32 :=
  VS.read (Elt F) (VS.writes (Elt F) VS.junk (kernelRun_B c i arg3 harg3 arg4 harg4 arg5 harg5 arg6 harg6 hcF hcL x0 x1 xs).2.1)

/-- A last block's pieces for the output block cover it. -/
theorem cover_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) (y : S1x1024x1024.Idx) :
    ∃ pc ∈ (kernelRun_C c i arg3 harg3 arg4 harg4 arg5 harg5 arg6 harg6 hcF hcL x0 x1 xs).1, y ∈ pc.1.set :=
  View.cover_of_tiledL (kernelRun_C c i arg3 harg3 arg4 harg4 arg5 harg5 arg6 harg6 hcF hcL x0 x1 xs).1 S1x1024x1024.size (by sl_kernel_rfl) y

/-- What a last block leaves in the output block. -/
def out_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) : Vec F S1x1024x1024 .f32 :=
  VO.read (Elt F) (VO.writes (Elt F) VO.junk (kernelRun_C c i arg3 harg3 arg4 harg4 arg5 harg5 arg6 harg6 hcF hcL x0 x1 xs).1)

/-- A last block's pieces for the accumulator cover it. -/
theorem scover_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) (y : S1024x1024.Idx) :
    ∃ pc ∈ (kernelRun_C c i arg3 harg3 arg4 harg4 arg5 harg5 arg6 harg6 hcF hcL x0 x1 xs).2.1, y ∈ pc.1.set :=
  View.cover_of_tiledL (kernelRun_C c i arg3 harg3 arg4 harg4 arg5 harg5 arg6 harg6 hcF hcL x0 x1 xs).2.1 S1024x1024.size (by sl_kernel_rfl) y

/-- What a last block leaves in the accumulator. -/
def sout_C (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) : Vec F S1024x1024 .f32 :=
  VS.read (Elt F) (VS.writes (Elt F) VS.junk (kernelRun_C c i arg3 harg3 arg4 harg4 arg5 harg5 arg6 harg6 hcF hcL x0 x1 xs).2.1)

/-! ## Point by point -/

/-- What the output's staging buffer and the accumulator hold after the body at position `n`: the kind of point the
    closed forms select, run at the point's memrefs and input blocks, a middle or last block over what the point before
    left in the accumulator. -/
def outsAt (V : VT F) (c : Dev nD) : (n : ℕ) → n < cfg1.N → Vec F S1x1024x1024 .f32 × Vec F S1024x1024 .f32
  | 0, hn => (out_A c (grid1.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) (first_of ⟨0, hn⟩ (Nat.zero_mod _)) (notLast_of_first ⟨0, hn⟩ (Nat.zero_mod _)) (iblk V c 0 ⟨0, hn⟩) (iblk V c 1 ⟨0, hn⟩), sout_A c (grid1.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) (first_of ⟨0, hn⟩ (Nat.zero_mod _)) (notLast_of_first ⟨0, hn⟩ (Nat.zero_mod _)) (iblk V c 0 ⟨0, hn⟩) (iblk V c 1 ⟨0, hn⟩))
  | n + 1, hn =>
    if h0 : (n + 1) % 11 = 0 then
      (out_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (first_of ⟨n + 1, hn⟩ h0) (notLast_of_first ⟨n + 1, hn⟩ h0) (iblk V c 0 ⟨n + 1, hn⟩) (iblk V c 1 ⟨n + 1, hn⟩), sout_A c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (first_of ⟨n + 1, hn⟩ h0) (notLast_of_first ⟨n + 1, hn⟩ h0) (iblk V c 0 ⟨n + 1, hn⟩) (iblk V c 1 ⟨n + 1, hn⟩))
    else
      if h1 : (n + 1) % 11 = 10 then
        (out_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (last_of ⟨n + 1, hn⟩ h1) (iblk V c 0 ⟨n + 1, hn⟩) (iblk V c 1 ⟨n + 1, hn⟩) (outsAt V c n (Nat.lt_of_succ_lt hn)).2, sout_C c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (last_of ⟨n + 1, hn⟩ h1) (iblk V c 0 ⟨n + 1, hn⟩) (iblk V c 1 ⟨n + 1, hn⟩) (outsAt V c n (Nat.lt_of_succ_lt hn)).2)
      else
        (out_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (notLast_of ⟨n + 1, hn⟩ h1) (iblk V c 0 ⟨n + 1, hn⟩) (iblk V c 1 ⟨n + 1, hn⟩) (outsAt V c n (Nat.lt_of_succ_lt hn)).2, sout_B c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (notLast_of ⟨n + 1, hn⟩ h1) (iblk V c 0 ⟨n + 1, hn⟩) (iblk V c 1 ⟨n + 1, hn⟩) (outsAt V c n (Nat.lt_of_succ_lt hn)).2)

/-- `outsAt` at a first block. -/
theorem outsAt_A (V : VT F) (c : Dev nD) (t : Fin cfg1.N) (h0 : t.val % 11 = 0) :
    outsAt V c t.val t.isLt = (out_A c (grid1.coords t) (ms0 t) (hs0 t) (ms1 t) (hs1 t) (ms2 t) (hs2 t) scM (Memref.isWhole_whole _) (first_of t h0) (notLast_of_first t h0) (iblk V c 0 t) (iblk V c 1 t), sout_A c (grid1.coords t) (ms0 t) (hs0 t) (ms1 t) (hs1 t) (ms2 t) (hs2 t) scM (Memref.isWhole_whole _) (first_of t h0) (notLast_of_first t h0) (iblk V c 0 t) (iblk V c 1 t)) := by
  obtain ⟨n, hn⟩ := t
  cases n with
  | zero => exact rfl
  | succ n => exact (dif_pos h0).trans rfl

/-- `outsAt` at a middle block: over what the point before left. -/
theorem outsAt_B (V : VT F) (c : Dev nD) (t : Fin cfg1.N) (h0 : ¬t.val % 11 = 0) (h1 : ¬t.val % 11 = 10) :
    outsAt V c t.val t.isLt = (out_B c (grid1.coords t) (ms0 t) (hs0 t) (ms1 t) (hs1 t) (ms2 t) (hs2 t) scM (Memref.isWhole_whole _) (notFirst_of t h0) (notLast_of t h1) (iblk V c 0 t) (iblk V c 1 t) (outsAt V c (t.val - 1) (Nat.lt_of_le_of_lt (Nat.sub_le _ _) t.isLt)).2, sout_B c (grid1.coords t) (ms0 t) (hs0 t) (ms1 t) (hs1 t) (ms2 t) (hs2 t) scM (Memref.isWhole_whole _) (notFirst_of t h0) (notLast_of t h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt` at a last block: over what the point before left. -/
theorem outsAt_C (V : VT F) (c : Dev nD) (t : Fin cfg1.N) (h0 : ¬t.val % 11 = 0) (h1 : t.val % 11 = 10) :
    outsAt V c t.val t.isLt = (out_C c (grid1.coords t) (ms0 t) (hs0 t) (ms1 t) (hs1 t) (ms2 t) (hs2 t) scM (Memref.isWhole_whole _) (notFirst_of t h0) (last_of t h1) (iblk V c 0 t) (iblk V c 1 t) (outsAt V c (t.val - 1) (Nat.lt_of_le_of_lt (Nat.sub_le _ _) t.isLt)).2, sout_C c (grid1.coords t) (ms0 t) (hs0 t) (ms1 t) (hs1 t) (ms2 t) (hs2 t) scM (Memref.isWhole_whole _) (notFirst_of t h0) (last_of t h1) (iblk V c 0 t) (iblk V c 1 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the class's (the accumulator at anything);
    afterwards the accumulator at what the point before left in it, the other scoped buffers, the generator register. -/
def PhiS (V : VT F) (c : Dev nD) : (n : ℕ) → n ≤ cfg1.N → sProp 𝕄
  | 0, _ => Pipeline.ΦA spec1 c
  | n + 1, hn => iprop(iprop(owns (c : Thread nD τ) scM fullShare ((outsAt V c n hn).2) ∗ Rest1 (F := F) c) ∗ (∃ r, prngReg c r))

theorem PhiS_zero (V : VT F) (c : Dev nD) (n : ℕ) (h : n ≤ cfg1.N) (hz : n = 0) : PhiS V c n h = Pipeline.ΦA spec1 c := by
  subst hz; rfl

theorem PhiS_succ (V : VT F) (c : Dev nD) (n : ℕ) (hn : n < cfg1.N) :
    PhiS V c (n + 1) hn = iprop(iprop(owns (c : Thread nD τ) scM fullShare ((outsAt V c n hn).2) ∗ Rest1 (F := F) c) ∗ (∃ r, prngReg c r)) := rfl

theorem PhiS_pos (V : VT F) (c : Dev nD) (n : ℕ) (h : n ≤ cfg1.N) (hz : n ≠ 0) :
    PhiS V c n h = iprop(iprop(owns (c : Thread nD τ) scM fullShare ((outsAt V c (n - 1) (by omega)).2) ∗ Rest1 (F := F) c) ∗ (∃ r, prngReg c r)) := by
  cases n with
  | zero => exact absurd rfl hz
  | succ n => rfl

/-! ## The pipeline's proof data -/

/-- The proof data of the region on core `c`: the arrays as the region finds them; after the body at point `t` each
    input's buffer at its block and the output's at `outsAt`; the invariant `PhiS`; nothing owed; full shares. -/
def dat (V : VT F) (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q _ := fullShare
  owed _ := 0

theorem A_eq (V : VT F) (c : Dev nD) (w : Fin cfg1.W) : (dat V c).A w = V c (Pipeline.arrRef spec1 w) := by
  dsimp only [dat]

theorem q_full (V : VT F) (c : Dev nD) (w : Fin cfg1.W) : (dat V c).q w = fullShare := rfl
theorem owed_zero (V : VT F) (c : Dev nD) (t : Fin (cfg1.N + 1)) : (dat V c).owed t = 0 := rfl

theorem PhiS_castSucc (V : VT F) (c : Dev nD) (t : Fin cfg1.N) :
    (dat V c).Φ t.castSucc = PhiS V c t.val (Nat.le_of_lt t.isLt) := by
  dsimp only [dat]; simp only [Fin.coe_castSucc]

theorem after0 (V : VT F) (c : Dev nD) (t : Fin cfg1.N) : (dat V c).after 0 t = iblk V c 0 t := by dsimp only [dat]
theorem after1 (V : VT F) (c : Dev nD) (t : Fin cfg1.N) : (dat V c).after 1 t = iblk V c 1 t := by dsimp only [dat]
theorem after2 (V : VT F) (c : Dev nD) (t : Fin cfg1.N) : (dat V c).after 2 t = (outsAt V c t.val t.isLt).1 := by dsimp only [dat]

theorem before0 (V : VT F) (c : Dev nD) (t : Fin cfg1.N) (d) : (dat V c).before 0 t d = iblk V c 0 t :=
  before0_of V (dat V c) (A_eq V c 0) (after0 V c) t d
theorem before1 (V : VT F) (c : Dev nD) (t : Fin cfg1.N) (d) : (dat V c).before 1 t d = iblk V c 1 t :=
  before1_of V (dat V c) (A_eq V c 1) (after1 V c) t d

/-! ## The body obligation, at a generic point -/

/-- What the body is called with at point `t`, -/
def bodyPre (V : VT F) (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- and what it returns. -/
def bodyPost (V : VT F) (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point: the inputs' memrefs hold their blocks; the closed forms say which kind of point it is; the
    invariant hands the body the accumulator at what the point before left (at anything before the first point) and
    takes it back at this point's contents; the core owes nothing throughout. -/
theorem sound_body (V : VT F) (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = PhiS V c (t.val + 1) t.isLt from rfl, PhiS_succ]
  have hN : t.val < 176 := lt_of_lt_of_eq t.isLt (show cfg1.N = 176 from N_1)
  rw [show (dat V c).leavesExact 0 t = owns (c : Thread nD τ) (ms0 t) fullShare ((dat V c).after 0 t) from by
    unfold Dat.leavesExact; rw [live0 t], after0]
  rw [show (dat V c).leavesExact 1 t = owns (c : Thread nD τ) (ms1 t) fullShare ((dat V c).after 1 t) from by
    unfold Dat.leavesExact; rw [live1 t], after1]
  by_cases h0 : t.val % 11 = 0
  · rw [Dat.leavesExact_idle (dat V c) 2 t (idle2 t (notLast_of_first t h0)) (noFlush2 t (notLast_of_first t h0))]
    rw [outsAt_A V c t h0]
    unfold sout_A; (try dsimp only)
    by_cases hz : t.val = 0
    · rw [PhiS_castSucc V c t, PhiS_zero V c _ _ hz, PhiA1_eq]
      iintro ⟨⟨⟨HS, HR⟩, Hg⟩, Ho, ⟨%d0, H0⟩, ⟨%d1, H1⟩, ⟨%d2, H2⟩⟩
      iapply ((kernelRun_A c (grid1.coords t) _ _ _ _ _ _ _ _ (first_of t h0) (notLast_of_first t h0) (iblk V c 0 t) (iblk V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitr [Hg]
        · isplitl [HS]
          · unfold owns; iexists _; isplitr
            swap; · iexact HS
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨HS, HR⟩, Hg⟩, Ho, ⟨%d0, H0⟩, ⟨%d1, H1⟩, ⟨%d2, H2⟩⟩
      iapply ((kernelRun_A c (grid1.coords t) _ _ _ _ _ _ _ _ (first_of t h0) (notLast_of_first t h0) (iblk V c 0 t) (iblk V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [HS HR Hg]
      · isplitr [Hg]
        · isplitl [HS]
          · unfold owns; iexists _; isplitr
            swap; · iexact HS
            ipureintro; exact View.read_writes_of_cover _ _ _ _ _ (scover_A c _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun hz => h0 (by rw [hz])
    by_cases h1 : t.val % 11 = 10
    · rw [show (dat V c).leavesExact 2 t = owns (c : Thread nD τ) (ms2 t) fullShare ((dat V c).after 2 t) from by
        unfold Dat.leavesExact; rw [live2 t (last_of t h1)], after2]
      rw [outsAt_C V c t h0 h1]
      unfold out_C sout_C; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_C c (grid1.coords t) _ _ _ _ _ _ _ _ (notFirst_of t h0) (last_of t h1) (iblk V c 0 t) (iblk V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [HS HR Hg]
      · isplitr [Hg]
        · isplitl [HS]
          · unfold owns; iexists _; isplitr
            swap; · iexact HS
            ipureintro; exact View.read_writes_of_cover _ _ _ _ _ (scover_C c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover_C c _ _ _ _ _ _ _ _ _ _ _ _ _ _)
    · rw [Dat.leavesExact_idle (dat V c) 2 t (idle2 t (notLast_of t h1)) (noFlush2 t (notLast_of t h1))]
      rw [outsAt_B V c t h0 h1]
      unfold sout_B; (try dsimp only)
      rw [PhiS_castSucc V c t, PhiS_pos V c _ _ hz]
      iintro ⟨⟨⟨HS, HR⟩, Hg⟩, Ho, ⟨%d0, H0⟩, ⟨%d1, H1⟩, ⟨%d2, H2⟩⟩
      iapply ((kernelRun_B c (grid1.coords t) _ _ _ _ _ _ _ _ (notFirst_of t h0) (notLast_of t h1) (iblk V c 0 t) (iblk V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [HS HR Hg]
      · isplitr [Hg]
        · isplitl [HS]
          · unfold owns; iexists _; isplitr
            swap; · iexact HS
            ipureintro; exact View.read_writes_of_cover _ _ _ _ _ (scover_B c _ _ _ _ _ _ _ _ _ _ _ _ _ _)
          iexact HR
        iexact Hg
      isplitl [Ho]; · iexact Ho
      isplitl [H0]; · iexact H0
      isplitl [H1]; · iexact H1
      iexists _; iexact H2

/-- The pipeline's body obligation, at every point. -/
theorem body_obligation (V : VT F) (c : Dev nD) : BodyObligation (dat (F := F) V c) (defs₀ (F := F)) Variants.none () Set.univ := fun t => by
  rw [bigSep_W1, bigSep_W1]
  exact sound_body V c t

/-- What the launch hands the region is the invariant before the first point. -/
theorem hin (V : VT F) (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's named contents are forgotten. -/
theorem Phi_out (V : VT F) (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA1_eq]
  iintro ⟨⟨HS, HR⟩, Hg⟩
  isplitr [Hg]
  · isplitl [HS]
    · iexists _; iexact HS
    iexact HR
  iexact Hg

/-- The same after the last point. -/
theorem hout (V : VT F) (c : Dev nD) : (dat V c).Φ (Fin.last cfg1.N) ⊢ Pipeline.ΦA spec1 c :=
  Phi_out V c _ (by rw [Fin.val_last]; have : cfg1.N = 176 := N_1; omega)

end Cert.KernelIdeal.Down

end
-- ==== Proof.KI.Whole.lean ====
/-
  The whole program: a regrouping of the tokens on the host, the gate/up kernel, the down kernel, a regrouping back.
  Between two items a core holds every unscoped buffer whole at named contents: the launch contents, then the
  regrouped tokens added, then the activation array at what the gate/up kernel's write-backs leave, then the result array
  at what the down kernel's write-backs leave, then the regrouped result. Each kernel is entered by splitting its arrays
  out of those buffers and left by putting them back; no item writes an argument array. The run reads every unscoped
  buffer at the end: the frame and the value claims are both read off it.
-/
import proofs.«104179_j6614249635977_2_alg».proof.Proof.KI.GateUp.Body
import proofs.«104179_j6614249635977_2_alg».proof.Proof.KI.GateUp.Arrays
import proofs.«104179_j6614249635977_2_alg».proof.Proof.KI.Down.Region
import proofs.«104179_j6614249635977_2_alg».proof.Proof.Gen.KernelIdeal.Regions
import Idealize.ShloMosaic.Lib.Pipeline.Regions
import Idealize.ShloMosaic.Lib.Pipeline.RegionsLoop
import Idealize.ShloMosaic.Lib.Pipeline.Kit

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m (c, b)
/-- After the tokens are regrouped. -/
abbrev W1 : Dev nD → Valuation τ sig (Elt F) := fun c => StableHlo.after hostOps0 (W0 m c)
abbrev V1 : GateUp.VT F := fun c b => W1 m c b
/-- What the gate/up kernel's write-backs leave in the activation array. -/
def act (c : Dev nD) : Buf (Elt F) ((c : Thread nD τ).loc main_v1) := (GateUp.dat (V1 m) c).arrAt 3 cfg0.N
/-- After the gate/up kernel. -/
def W2 (c : Dev nD) : Valuation τ sig (Elt F) := Function.update (W1 m c) main_v1 (act m c)
abbrev V2 : GateUp.VT F := fun c b => W2 m c b
/-- What the down kernel's write-backs leave in the result array. -/
def res (c : Dev nD) : Buf (Elt F) ((c : Thread nD τ).loc main_v2) := (Down.dat (V2 m) c).arrAt 2 cfg1.N
/-- After the down kernel. -/
def W3 (c : Dev nD) : Valuation τ sig (Elt F) := Function.update (W2 m c) main_v2 (res m c)
abbrev V3 : GateUp.VT F := fun c b => W3 m c b
/-- After the result is regrouped. -/
abbrev W4 : Dev nD → Valuation τ sig (Elt F) := fun c => StableHlo.after hostOps2 (W3 m c)

theorem W2_v1 (c : Dev nD) : W2 m c main_v1 = act m c := by unfold W2; exact Function.update_self ..
theorem W2_of_ne (c : Dev nD) (b : Ref sig .tc) (h : b ≠ main_v1) : W2 m c b = W1 m c b := by
  unfold W2; exact Function.update_of_ne (StableHlo.devRef_ne_of_ne h : (Proc.devRef .tc b : DevRef τ sig) ≠ Proc.devRef .tc main_v1) ..
theorem W3_v2 (c : Dev nD) : W3 m c main_v2 = res m c := by unfold W3; exact Function.update_self ..
theorem W3_of_ne (c : Dev nD) (b : Ref sig .tc) (h : b ≠ main_v2) : W3 m c b = W2 m c b := by
  unfold W3; exact Function.update_of_ne (StableHlo.devRef_ne_of_ne h : (Proc.devRef .tc b : DevRef τ sig) ≠ Proc.devRef .tc main_v2) ..

/-- An argument array reaches the end as launched: no host item writes it and no kernel changes it. -/
theorem W4_arg (c : Dev nD) (b : Ref sig .tc) (h2 : b ∉ hostOps2_W) (hv2 : b ≠ main_v2) (hv1 : b ≠ main_v1) (h0 : b ∉ hostOps0_W) :
    W4 m c b = m ((c : Thread nD τ).loc b) :=
  (StableHlo.after_of_writes_sub hostOps2 _ hostOps2_writes h2).trans <| (W3_of_ne m c b hv2).trans <| (W2_of_ne m c b hv1).trans <|
    (StableHlo.after_of_writes_sub hostOps0 _ hostOps0_writes h0).trans rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => GateUp.dat (V1 m) c
  | ⟨1, _⟩ => fun c => Down.dat (V2 m) c
abbrev 𝒱₀ : Variants := Variants.none
abbrev L : GSem nD τ sig → Finset Unit := fun _ => ∅
abbrev lv : GSem nD τ sig → Unit → ℕ := fun _ _ => 0
/-- What rides beside the buffers through every item: the generator register at some state, and the core owing nothing. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m c) ∗ ∃ r, prngReg c r)

/-- The buffers no window of the gate/up kernel stages are the same before and after it. -/
theorem rest0_eq (c : Dev nD) :
    (Pipeline.unscopedRest spec0 c (V1 m c) : sProp 𝕄) = Pipeline.unscopedRest spec0 c (V2 m c) := by
  rw [unscopedRest0_eq, unscopedRest0_eq]
  simp only [W2_of_ne m c main_arg0 (by decide), W2_of_ne m c main_arg2 (by decide), W2_of_ne m c main_v2 (by decide), W2_of_ne m c main_v3 (by decide)]

/-! ## The regions as segments -/

set_option backward.isDefEq.respectTransparency.types false in
/-- The gate/up kernel: entered from every unscoped buffer at `W1`, left at `W2`. Its three buffers are split out of the
    unscoped buffers, the projection array halved between its two windows, and put back at the exit contents. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (GateUp.body_obligation (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit : (unscopedBufs c (V1 m c) : sProp 𝕄)
        ⊢ iprop((pdats m 0 c).arrays ((pdats m 0 c).arrAt · 0) ∗ Pipeline.unscopedRest spec0 c (V1 m c)) := by
      rw [Pipeline.unscopedBufs_split₀ (Pipeline.pin (pcfgs (F := F)) adm) 0 winFacts₀0.arr_unscoped c (V1 m c)]
      exact sep_mono (GateUp.arrays_of_bufs (V1 m) c (V1 m c) _ rfl rfl rfl rfl) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (GateUp.hin (V1 m) c)
    unfold Pipeline.ΦA
    iintro ⟨Hp, -, Hr⟩
    isplitl [Hr]; · iexact Hr
    iexact Hp
  hout c := by
    rw [Pipeline.ownSems0_none]
    refine (GateUp.hout (V1 m) c).trans ?_
    unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (V1 m c))
        ⊢ (unscopedBufs c (V2 m c) : sProp 𝕄) := by
      rw [Pipeline.unscopedBufs_split₀ (Pipeline.pin (pcfgs (F := F)) adm) 0 winFacts₀0.arr_unscoped c (V2 m c), rest0_eq m c]
      refine sep_mono (GateUp.bufs_of_arrays (V1 m) c (V2 m c) _ ?_ ?_ ?_ ?_) .rfl
      · exact ((GateUp.dat (V1 m) c).arrAt_in 0 rfl _).trans ((GateUp.A_eq (V1 m) c 0).trans (W2_of_ne m c main_v0 (by decide)).symm)
      · exact ((GateUp.dat (V1 m) c).arrAt_in 1 rfl _).trans ((GateUp.A_eq (V1 m) c 1).trans (W2_of_ne m c main_arg1 (by decide)).symm)
      · exact ((GateUp.dat (V1 m) c).arrAt_in 2 rfl _).trans ((GateUp.A_eq (V1 m) c 2).trans (W2_of_ne m c main_arg1 (by decide)).symm)
      · exact (W2_v1 m c).symm
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the down kernel's exit each of its arrays holds what the pipeline leaves, -/
theorem hF1 (c : Dev nD) (w : Fin cfg1.W) : (pdats m 1 c).arrAt w cfg1.N = V3 m c (Pipeline.arrRef spec1 w) := by
  fin_cases w
  · exact ((Down.dat (V2 m) c).arrAt_in 0 rfl _).trans ((Down.A_eq (V2 m) c 0).trans (W3_of_ne m c main_v1 (by decide)).symm)
  · exact ((Down.dat (V2 m) c).arrAt_in 1 rfl _).trans ((Down.A_eq (V2 m) c 1).trans (W3_of_ne m c main_arg2 (by decide)).symm)
  · exact (W3_v2 m c).symm
/-- and every other buffer what it held at entry. -/
theorem hrest1 (c : Dev nD) : ∀ b, b ∉ Finset.univ.image (Pipeline.arrRef spec1) → V3 m c b = V2 m c b :=
  fun b hb => W3_of_ne m c b fun e => hb (Finset.mem_image.mpr ⟨2, Finset.mem_univ _, e.symm⟩)

set_option backward.isDefEq.respectTransparency.types false in
/-- The down kernel: entered from every unscoped buffer at `W2`, left at `W3`; its three arrays are distinct buffers. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Down.body_obligation (V2 m) c).loose
  hwaits := Pipeline.hwaits_of_owed_zero _ _ _ _ L lv 1 fun c t => Down.owed_zero (V2 m) c t
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun w => Down.q_full (V2 m) c w) (V2 m c) fun w => Down.A_eq (V2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from Down.owed_zero (V2 m) c 0]
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (Down.hin (V2 m) c)
    unfold Pipeline.ΦA
    iintro ⟨Hp, -, Hr⟩
    isplitl [Hr]; · iexact Hr
    iexact Hp
  hout c := by
    rw [Pipeline.ownSems0_none]
    refine (Down.hout (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun w => Down.q_full (V2 m) c w)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from Down.owed_zero (V2 m) c _]
    icases HO with ⟨%W, -, HO⟩; iexists W; iexact HO

/-! ## @main as segments, and the launch -/

/-- @main's four items in order. -/
abbrev segs : List (Pipeline.Seg (pcfgs (F := F)) adm (pdats m) () defs₀ 𝒱₀ L lv) :=
  [ .host (hseg hostOps0 hostOps0_sub hostOps0_fresh (W0 m)),
    .region (reg0 m),
    .region (reg1 m),
    .host (hseg hostOps2 hostOps2_sub hostOps2_fresh (W3 m)) ]
theorem main_run (c : Dev nD) : main (F := F) c = Pipeline.Seg.run (segs m) := (main_chain c).trans (by chain_rfl)

set_option backward.isDefEq.respectTransparency.types false in
/-- THE RUN. From any memory with zero counters every weakly fair execution of @main terminates, nothing faulting, and
    every final memory holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide))⟩)
    (run_all m ρ)

end Cert.KernelIdeal.Whole

end
-- ==== Proof.Spec.lean ====
/-
  What both programs compute, as functions of the argument arrays over the extended reals, element by element.

  Tokens arrive grouped by expert: `x : [8, 1024, 2048]` (expert, token, feature). Each expert `e` has a projection
  `w e : [2048, 11264]` whose first 5632 columns are the GATE and whose last 5632 columns are the UP projection, and a
  down projection `d e : [5632, 2048]`. For a token the gate and up pre-activations are the inner products of its
  features with the two halves' columns, the activation is `up · (gate · σ(gate))` with `σ` the logistic function, and
  the result is the inner product of the activations with the down projection's columns.

  The kernel accumulates each inner product block by block along the contracted axis from a zero accumulator
  (8 blocks of 256 features; 11 blocks of 512 activations); the reference contracts the whole axis at once. On the
  extended reals addition is commutative and associative (with `⊥` absorbing), so a sum may be regrouped into blocks
  freely, and `0 + s = s`; no finiteness of the inputs is needed anywhere.
-/
import Idealize.ShloMosaic.Lib.ValueIdx

noncomputable section

open scoped BigOperators

namespace Cert.Spec

open Idealize.ShloMosaic Idealize.ShloMosaic.ValueIdx

/-- Tokens grouped by expert. -/
abbrev SX : Shape := ⟨3, ![8, 1024, 2048]⟩
/-- The gate and up projections side by side. -/
abbrev SW : Shape := ⟨3, ![8, 2048, 11264]⟩
/-- The activations. -/
abbrev SA : Shape := ⟨3, ![8, 1024, 5632]⟩
/-- The down projection. -/
abbrev SD : Shape := ⟨3, ![8, 5632, 2048]⟩

/-- Column `f` of expert `e`'s projection applied to token `t`: the inner product over the 2048 features. -/
def proj (x : SX.Idx → EReal) (w : SW.Idx → EReal) (e : Fin 8) (t : Fin 1024) (f : Fin 11264) : EReal :=
  ∑ h : Fin 2048, x (ix3 e t h) * w (ix3 e h f)

/-- The gated activation `up · (gate · σ(gate))`, `σ` the logistic function of the extended reals. -/
def swiglu (gate up : EReal) : EReal := up * (gate * Ideal.logistic gate)

/-- Activation `f` of token `t` of expert `e`: gate column `f`, up column `f + 5632`. -/
def actAt (x : SX.Idx → EReal) (w : SW.Idx → EReal) (e : Fin 8) (t : Fin 1024) (f : Fin 5632) : EReal :=
  swiglu (proj x w e t ⟨f.val, by omega⟩) (proj x w e t ⟨f.val + 5632, by omega⟩)

/-- The activations as an array. -/
def actArr (x : SX.Idx → EReal) (w : SW.Idx → EReal) : SA.Idx → EReal :=
  fun j => actAt x w (j 0) (j 1) (j 2)

/-- Feature `h` of the result for token `t` of expert `e`: the inner product over the 5632 activations. -/
def outAt (a : SA.Idx → EReal) (d : SD.Idx → EReal) (e : Fin 8) (t : Fin 1024) (h : Fin 2048) : EReal :=
  ∑ f : Fin 5632, a (ix3 e t f) * d (ix3 e f h)

/-- The result as an array, still grouped by expert. -/
def outArr (a : SA.Idx → EReal) (d : SD.Idx → EReal) : SX.Idx → EReal :=
  fun j => outAt a d (j 0) (j 1) (j 2)

end Cert.Spec

end
-- ==== Proof.KI.GateUp.ValueFinal.lean ====
/-
  The activation array after the gate/up kernel: the points that write a block back are the last feature blocks of the
  runs, each writes the block of its expert and column block, those blocks tile the array, and what each writes is its
  block of the specification's activations. So the array ends at the specification's activations.
-/
import proofs.«104179_j6614249635977_2_alg».proof.Proof.KI.GateUp.Data
import proofs.«104179_j6614249635977_2_alg».proof.Proof.Spec
import Idealize.ShloMosaic.Lib.Pipeline.Value
import Idealize.ShloMosaic.Lib.ValueIdx

set_option maxRecDepth 16384

noncomputable section

namespace Cert.KernelIdeal.GateUp

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : VT Ideal) (c : Dev nD)

/-- The output window's block index at point `t`, decided over the grid: the expert, the whole token axis, the column block. -/
theorem outIdx : ∀ t : Fin cfg0.N, win0_3.index t (0 : Fin 3) = t.val / 32 ∧ win0_3.index t (1 : Fin 3) = 0 ∧ win0_3.index t (2 : Fin 3) = (t.val / 8) % 4 :=
  (by decide +kernel : ∀ t : Fin grid0.N, win0_3.index t (0 : Fin 3) = t.val / 32 ∧ win0_3.index t (1 : Fin 3) = 0 ∧ win0_3.index t (2 : Fin 3) = (t.val / 8) % 4)

/-- An index of the array is in point `t`'s block iff each coordinate is in the block's range on its axis. -/
theorem mem_outBlk (t : Fin cfg0.N) (i : S8x1024x5632.Idx) :
    i ∈ ((cfg0.win 3).blk t).view.set ↔ ∀ a : Fin 3, win0_3.index t a * S1x1024x1408.size a ≤ (i a).val ∧ (i a).val < win0_3.index t a * S1x1024x1408.size a + S1x1024x1408.size a := by
  show i ∈ ((View.whole main_v1).slice (win0_3.rect t)).set ↔ _
  rw [View.set_slice_whole, Rect.mem_set_unit]
  exact Iff.rfl

/-- What a writing-back point writes back is its block of the specification's array, given the stored block element by element. -/
theorem flushed_eq_of
    (H : ∀ (t : Fin cfg0.N) (h1 : t.val % 8 = 7) (r : Fin 1024) (col : Fin 1408),
      (dat (F := Ideal) V c).after 3 t (ix3 (0 : Fin 1) r col) = Cert.Spec.actAt (V c main_v0) (V c main_arg1) ⟨t.val / 32, by have := t.isLt; have : cfg0.N = 256 := N_0; omega⟩ r ⟨1408 * ((t.val / 8) % 4) + col.val, by omega⟩)
    (t : Fin cfg0.N) (hf : (cfg0.win 3).flush t = true) :
    (dat (F := Ideal) V c).flushed 3 t = ((cfg0.win 3).blk t).view.read (Elt Ideal) (Cert.Spec.actArr (V c main_v0) (V c main_arg1)) := by
  have h1 : t.val % 8 = 7 := (flush0_3 t).mp hf
  show (cfg0.win 3).cut (grid0.coords t) ((dat (F := Ideal) V c).after 3 t) = _
  funext (j : S1x1024x1408.Idx)
  obtain ⟨a, r, col, rfl⟩ : ∃ (a : Fin 1) (r : Fin 1024) (col : Fin 1408), j = ix3 a r col := ⟨j 0, j 1, j 2, eq_ix3 j⟩
  obtain rfl : a = 0 := Subsingleton.elim _ _
  show (dat (F := Ideal) V c).after 3 t (ix3 (0 : Fin 1) r col) = Cert.Spec.actArr (V c main_v0) (V c main_arg1) (((cfg0.win 3).blk t).view.emb (ix3 (0 : Fin 1) r col))
  refine (H t h1 r col).trans ?_
  obtain ⟨e0, e1, e2⟩ := outIdx t
  unfold Cert.Spec.actArr
  refine congr (congr (congrArg (Cert.Spec.actAt _ _) (Fin.ext ?_)) (Fin.ext ?_)) (Fin.ext ?_)
  · show t.val / 32 = win0_3.index t (0 : Fin 3) * 1 + 1 * (0 : Fin 1).val
    rw [e0]; simp
  · show r.val = win0_3.index t (1 : Fin 3) * 1024 + 1 * r.val
    rw [e1]; omega
  · show 1408 * ((t.val / 8) % 4) + col.val = win0_3.index t (2 : Fin 3) * 1408 + 1 * col.val
    rw [e2]; omega

/-- Every index of the output array is in some writing-back point's block: the blocks tile it. -/
theorem cover (i : S8x1024x5632.Idx) : ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 5632 := (i 2).isLt
  have hN : cfg0.N = 256 := N_0
  obtain ⟨n, hn⟩ : ∃ n, n = 32 * (i 0).val + 8 * ((i 2).val / 1408) + 7 := ⟨_, rfl⟩
  have hlt : n < cfg0.N := by omega
  obtain ⟨e0, e1, e2⟩ := outIdx ⟨n, hlt⟩
  have e0' : win0_3.index ⟨n, hlt⟩ (0 : Fin 3) = n / 32 := e0
  have e2' : win0_3.index ⟨n, hlt⟩ (2 : Fin 3) = (n / 8) % 4 := e2
  refine ⟨⟨n, hlt⟩, (flush0_3 _).mpr (by show n % 8 = 7; omega), ?_⟩
  rw [mem_outBlk]
  intro a
  match a with
  | ⟨0, _⟩ =>
    show win0_3.index ⟨n, hlt⟩ (0 : Fin 3) * 1 ≤ (i 0).val ∧ (i 0).val < win0_3.index ⟨n, hlt⟩ (0 : Fin 3) * 1 + 1
    rw [e0']; omega
  | ⟨1, _⟩ =>
    show win0_3.index ⟨n, hlt⟩ (1 : Fin 3) * 1024 ≤ (i 1).val ∧ (i 1).val < win0_3.index ⟨n, hlt⟩ (1 : Fin 3) * 1024 + 1024
    rw [e1]; omega
  | ⟨2, _⟩ =>
    show win0_3.index ⟨n, hlt⟩ (2 : Fin 3) * 1408 ≤ (i 2).val ∧ (i 2).val < win0_3.index ⟨n, hlt⟩ (2 : Fin 3) * 1408 + 1408
    rw [e2']; omega

/-- The output array after the region, given the stored block element by element. -/
theorem final_of
    (H : ∀ (t : Fin cfg0.N) (h1 : t.val % 8 = 7) (r : Fin 1024) (col : Fin 1408),
      (dat (F := Ideal) V c).after 3 t (ix3 (0 : Fin 1) r col) = Cert.Spec.actAt (V c main_v0) (V c main_arg1) ⟨t.val / 32, by have := t.isLt; have : cfg0.N = 256 := N_0; omega⟩ r ⟨1408 * ((t.val / 8) % 4) + col.val, by omega⟩) :
    (dat (F := Ideal) V c).arrAt 3 cfg0.N = Cert.Spec.actArr (V c main_v0) (V c main_arg1) :=
  (dat (F := Ideal) V c).arrAt_eq_of_cover 3 _ (fun t hf => flushed_eq_of V c H t hf) (cover)

end Cert.KernelIdeal.GateUp

end
-- ==== Proof.KI.GateUp.ValueA.lean ====
/-
  What the gate/up body leaves in its two accumulators, read back from the stores the symbolic run found.

  At every feature block the body loads the accumulator, adds the block's matrix product and stores the sum through the
  whole buffer: one covering store, so the buffer holds that store's payload. At the first block of a run the
  accumulator was reset just before: the load reads the reset value back.
-/
import proofs.«104179_j6614249635977_2_alg».proof.Proof.KI.GateUp.Data
import Idealize.ShloMosaic.Lib.Pipeline.Value

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD)

/-- The zero offsets of a whole-buffer rectangle, rank two and rank three. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle block: the gate accumulator plus the block's gate product. -/
theorem gMid_eq (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) :
    gMid c t hf hl x0 x1 x2 g0 u0 = k0_pay4 x0 x1 g0 := by
  unfold gMid
  rw [View.read_writes_eq_canon _ _ _ (gMid_cover c t hf hl x0 x1 x2 g0 u0)]
  unfold midAt runMid
  dsimp only
  rw [View.canon_unit_zero hz2]
  simp only [View.readAt_eq_ld, (hs0 t).read_unread, (hs1 t).read_unread, (hs2 t).read_unread, (Memref.isWhole_whole cc0_scratch0).read_unread, (Memref.isWhole_whole cc0_scratch1).read_unread,
    View.ld_unit_zero (S := S1024x1408) hz2, View.ld_unit_zero (S := S1x1024x256) hz3, View.ld_unit_zero (S := S1x256x1408) hz3]

/-- A middle block: the up accumulator plus the block's up product. -/
theorem uMid_eq (t : Fin cfg0.N) (hf : ¬isFirst (grid0.coords t)) (hl : ¬isLast (grid0.coords t)) (x0 : Vec F S1x1024x256 .f32) (x1 : Vec F S1x256x1408 .f32) (x2 : Vec F S1x256x1408 .f32) (g0 : Vec F S1024x1408 .f32) (u0 : Vec F S1024x1408 .f32) :
    uMid c t hf hl x0 x1 x2 g0 u0 = k0_pay5 x0 x2 u0 := by
  unfold uMid
  rw [View.read_writes_eq_canon _ _ _ (uMid_cover c t hf hl x0 x1 x2 g0 u0)]
  unfold midAt runMid
  dsimp only
  rw [View.canon_unit_zero hz2]
  simp only [View.readAt_eq_ld, (hs0 t).read_unread, (hs1 t).read_unread, (hs2 t).read_unread, (Memref.isWhole_whole cc0_scratch0).read_unread, (Memref.isWhole_whole cc0_scratch1).read_unread,
    View.ld_unit_zero (S := S1024x1408) hz2, View.ld_unit_zero (S := S1x1024x256) hz3, View.ld_unit_zero (S := S1x256x1408) hz3]

/-- The first block of a run: the reset value plus the block's gate product. -/
theorem gFirst_eq (t : Fin cfg0.N) (hf : isFirst (grid0.coords t)) (hl : ¬isLast (grid0.coords t)) (x0 : Vec F S1x1024x256 .f32) (x1 : Vec F S1x256x1408 .f32) (x2 : Vec F S1x256x1408 .f32) :
    gFirst c t hf hl x0 x1 x2 = k0_pay4 x0 x1 (k0_pay1 (F := F)) := by
  unfold gFirst
  rw [View.read_writes_eq_canon _ _ _ (gFirst_cover c t hf hl x0 x1 x2)]
  unfold firstAt runFirst
  dsimp only
  sl_unfold_words
  rw [View.canon_cons_unit_zero (S := S1024x1408) hz2, View.readCov_unit_zero (S := S1024x1408) _ hz2]
  simp only [View.readAt_eq_ld, (hs0 t).read_unread, (hs1 t).read_unread, (hs2 t).read_unread, (Memref.isWhole_whole cc0_scratch0).read_unread, (Memref.isWhole_whole cc0_scratch1).read_unread,
    View.ld_unit_zero (S := S1024x1408) hz2, View.ld_unit_zero (S := S1x1024x256) hz3, View.ld_unit_zero (S := S1x256x1408) hz3]

/-- The first block of a run: the reset value plus the block's up product. -/
theorem uFirst_eq (t : Fin cfg0.N) (hf : isFirst (grid0.coords t)) (hl : ¬isLast (grid0.coords t)) (x0 : Vec F S1x1024x256 .f32) (x1 : Vec F S1x256x1408 .f32) (x2 : Vec F S1x256x1408 .f32) :
    uFirst c t hf hl x0 x1 x2 = k0_pay5 x0 x2 (k0_pay2 (F := F)) := by
  unfold uFirst
  rw [View.read_writes_eq_canon _ _ _ (uFirst_cover c t hf hl x0 x1 x2)]
  unfold firstAt runFirst
  dsimp only
  sl_unfold_words
  rw [View.canon_cons_unit_zero (S := S1024x1408) hz2, View.readCov_unit_zero (S := S1024x1408) _ hz2]
  simp only [View.readAt_eq_ld, (hs0 t).read_unread, (hs1 t).read_unread, (hs2 t).read_unread, (Memref.isWhole_whole cc0_scratch0).read_unread, (Memref.isWhole_whole cc0_scratch1).read_unread,
    View.ld_unit_zero (S := S1024x1408) hz2, View.ld_unit_zero (S := S1x1024x256) hz3, View.ld_unit_zero (S := S1x256x1408) hz3]

/-- The last block of a run: the gate accumulator plus the block's gate product. -/
theorem gLast_eq (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) :
    gLast c t hf hl x0 x1 x2 g0 u0 = k0_pay4 x0 x1 g0 := by
  unfold gLast
  rw [View.read_writes_eq_canon _ _ _ (gLast_cover c t hf hl x0 x1 x2 g0 u0)]
  unfold lastAt runLast
  dsimp only
  sl_unfold_words
  rw [View.canon_unit_zero hz2]
  simp only [View.readAt_eq_ld, (hs0 t).read_unread, (hs1 t).read_unread, (hs2 t).read_unread, (Memref.isWhole_whole cc0_scratch0).read_unread, (Memref.isWhole_whole cc0_scratch1).read_unread,
    View.ld_unit_zero (S := S1024x1408) hz2, View.ld_unit_zero (S := S1x1024x256) hz3, View.ld_unit_zero (S := S1x256x1408) hz3]

/-- The last block of a run: the up accumulator plus the block's up product. -/
theorem uLast_eq (t : Fin cfg0.N) (hf : ¬isFirst (grid0.coords t)) (hl : isLast (grid0.coords t)) (x0 : Vec F S1x1024x256 .f32) (x1 : Vec F S1x256x1408 .f32) (x2 : Vec F S1x256x1408 .f32) (g0 : Vec F S1024x1408 .f32) (u0 : Vec F S1024x1408 .f32) :
    uLast c t hf hl x0 x1 x2 g0 u0 = k0_pay5 x0 x2 u0 := by
  unfold uLast
  rw [View.read_writes_eq_canon _ _ _ (uLast_cover c t hf hl x0 x1 x2 g0 u0)]
  unfold lastAt runLast
  dsimp only
  sl_unfold_words
  rw [View.canon_unit_zero hz2]
  simp only [View.readAt_eq_ld, (hs0 t).read_unread, (hs1 t).read_unread, (hs2 t).read_unread, (Memref.isWhole_whole cc0_scratch0).read_unread, (Memref.isWhole_whole cc0_scratch1).read_unread,
    View.ld_unit_zero (S := S1024x1408) hz2, View.ld_unit_zero (S := S1x1024x256) hz3, View.ld_unit_zero (S := S1x256x1408) hz3]

end Cert.KernelIdeal.GateUp

end
-- ==== Proof.KI.GateUp.ValueC.lean ====
/-
  The gate/up body's payloads on the extended reals, element by element.

  There a change of float format is the identity, a matrix product into the zero accumulator is the sum of the products
  along the contracted axis, and the activation is `up · (gate · σ(gate))`; the reshapes between a block `[1, a, b]` and
  a matrix `[a, b]` keep the two trailing coordinates.
-/
import proofs.«104179_j6614249635977_2_alg».proof.Proof.Gen.KernelIdeal.Skeleton
import proofs.«104179_j6614249635977_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.GateUp

open Cert.KernelIdeal Cert.KernelIdeal.Gen
open Idealize.ShloMosaic Idealize.ShloMosaic.ValueIdx

/-- The body's matrix product: rows × 256 features times 256 features × columns. -/
abbrev DK : DotDims S1024x256 S256x1408 S1024x1408 := dot_S1024x256_S256x1408_S1024x1408_1_0_0_1_n_n

theorem lhsK_0 (i : S1024x1408.Idx) (q : DK.contr.Idx) : (DK.lhsIdx i q 0).val = (i 0).val := by
  unfold DotDims.lhsIdx
  rw [dif_neg (show ¬(0 : Fin S1024x256.rank) ∈ DK.lhsBatch by decide), dif_pos (show (0 : Fin S1024x256.rank) ∈ DK.lhsNonContracting by decide)]
  rfl
theorem lhsK_1 (i : S1024x1408.Idx) (q : DK.contr.Idx) : (DK.lhsIdx i q 1).val = (q ⟨0, by decide⟩).val :=
  DK.lhsIdx_val_of_single rfl i q
theorem rhsK_0 (i : S1024x1408.Idx) (q : DK.contr.Idx) : (DK.rhsIdx i q 0).val = (q ⟨0, by decide⟩).val :=
  DK.rhsIdx_val_of_single rfl i q
theorem rhsK_1 (i : S1024x1408.Idx) (q : DK.contr.Idx) : (DK.rhsIdx i q 1).val = (i 1).val := by
  unfold DotDims.rhsIdx
  rw [dif_neg (show ¬(1 : Fin S256x1408.rank) ∈ DK.rhsBatch by decide), dif_pos (show (1 : Fin S256x1408.rank) ∈ DK.rhsNonContracting by decide)]
  rfl

/-- The product into the zero accumulator at `(r, col)`: the sum over the block's 256 features. -/
theorem mm_apply (a : FVec Ideal S1024x256 .bf16) (b : FVec Ideal S256x1408 .bf16) (r : Fin 1024) (col : Fin 1408) :
    matmul (F := Ideal) DK none a b (constant S1024x1408 .f32 0x00000000#32) (ix2 r col)
      = ∑ k : Fin 256, a (ix2 r k) * b (ix2 k col) := by
  refine (Ideal.matmul_constant_zero_apply DK none a b (ix2 r col)).trans ?_
  rw [← Equiv.sum_comp (ValueIdx.contrEquiv1 DK 256 rfl rfl).symm]
  refine Finset.sum_congr rfl fun k _ => ?_
  have hk := ValueIdx.contrEquiv1_symm_val DK 256 rfl rfl k
  have el : DK.lhsIdx (ix2 r col) ((ValueIdx.contrEquiv1 DK 256 rfl rfl).symm k) = ix2 r k := funext fun a => Fin.ext (by
    match a with
    | ⟨0, _⟩ => exact lhsK_0 _ _
    | ⟨1, _⟩ => exact (lhsK_1 _ _).trans hk)
  have er : DK.rhsIdx (ix2 r col) ((ValueIdx.contrEquiv1 DK 256 rfl rfl).symm k) = ix2 k col := funext fun a => Fin.ext (by
    match a with
    | ⟨0, _⟩ => exact (rhsK_0 _ _).trans hk
    | ⟨1, _⟩ => exact rhsK_1 _ _)
  rw [el, er]

/-- The gate accumulator's update at `(r, col)`. -/
theorem pay4_apply (x0 : Vec Ideal S1x1024x256 .f32) (x1 : Vec Ideal S1x256x1408 .f32) (g : Vec Ideal S1024x1408 .f32)
    (r : Fin 1024) (col : Fin 1408) :
    k0_pay4 (F := Ideal) x0 x1 g (ix2 r col)
      = g (ix2 r col) + ∑ k : Fin 256, x0 (ix3 (0 : Fin 1) r k) * x1 (ix3 (0 : Fin 1) k col) := by
  unfold k0_pay4 k0_pay3
  dsimp only
  rw [shapeCast_self]
  refine (addf_apply _ _ _).trans ?_
  congr 1
  refine (mm_apply _ _ r col).trans ?_
  refine Finset.sum_congr rfl fun k _ => ?_
  congr 1
  · exact shapeCast_1ab_ab_apply x0 shapeCasts_S1x1024x256_S1024x256 r k
  · exact shapeCast_1ab_ab_apply x1 shapeCasts_S1x256x1408_S256x1408 k col

/-- The up accumulator's update at `(r, col)`. -/
theorem pay5_apply (x0 : Vec Ideal S1x1024x256 .f32) (x2 : Vec Ideal S1x256x1408 .f32) (u : Vec Ideal S1024x1408 .f32)
    (r : Fin 1024) (col : Fin 1408) :
    k0_pay5 (F := Ideal) x0 x2 u (ix2 r col)
      = u (ix2 r col) + ∑ k : Fin 256, x0 (ix3 (0 : Fin 1) r k) * x2 (ix3 (0 : Fin 1) k col) := by
  unfold k0_pay5 k0_pay3
  dsimp only
  rw [shapeCast_self]
  refine (addf_apply _ _ _).trans ?_
  congr 1
  refine (mm_apply _ _ r col).trans ?_
  refine Finset.sum_congr rfl fun k _ => ?_
  congr 1
  · exact shapeCast_1ab_ab_apply x0 shapeCasts_S1x1024x256_S1024x256 r k
  · exact shapeCast_1ab_ab_apply x2 shapeCasts_S1x256x1408_S256x1408 k col

/-- The reset values are zero. -/
theorem pay1_apply (i : S1024x1408.Idx) : k0_pay1 (F := Ideal) i = (0 : EReal) := by
  unfold k0_pay1
  rw [shapeCast_self]
  exact Ideal.ofBits_zero_f32
theorem pay2_apply (i : S1024x1408.Idx) : k0_pay2 (F := Ideal) i = (0 : EReal) := by
  unfold k0_pay2
  rw [shapeCast_self]
  exact Ideal.ofBits_zero_f32

/-! ## The activation chunks -/

theorem pay7_apply (g u : Vec Ideal S1024x128 .f32) (z : Fin 1) (r : Fin 1024) (l : Fin 128) :
    k0_pay7 (F := Ideal) g u (ix3 z r l) = Cert.Spec.swiglu (g (ix2 r l)) (u (ix2 r l)) := by
  unfold k0_pay7
  exact shapeCast_ab_1ab_apply _ shapeCasts_S1024x128_S1x1024x128 z r l
theorem pay8_apply (g u : Vec Ideal S1024x128 .f32) (z : Fin 1) (r : Fin 1024) (l : Fin 128) :
    k0_pay8 (F := Ideal) g u (ix3 z r l) = Cert.Spec.swiglu (g (ix2 r l)) (u (ix2 r l)) := by
  unfold k0_pay8
  exact shapeCast_ab_1ab_apply _ shapeCasts_S1024x128_S1x1024x128 z r l
theorem pay9_apply (g u : Vec Ideal S1024x128 .f32) (z : Fin 1) (r : Fin 1024) (l : Fin 128) :
    k0_pay9 (F := Ideal) g u (ix3 z r l) = Cert.Spec.swiglu (g (ix2 r l)) (u (ix2 r l)) := by
  unfold k0_pay9
  exact shapeCast_ab_1ab_apply _ shapeCasts_S1024x128_S1x1024x128 z r l
theorem pay12_apply (g u : Vec Ideal S1024x128 .f32) (z : Fin 1) (r : Fin 1024) (l : Fin 128) :
    k0_pay12 (F := Ideal) g u (ix3 z r l) = Cert.Spec.swiglu (g (ix2 r l)) (u (ix2 r l)) := by
  unfold k0_pay12
  exact shapeCast_ab_1ab_apply _ shapeCasts_S1024x128_S1x1024x128 z r l
theorem pay13_apply (g u : Vec Ideal S1024x128 .f32) (z : Fin 1) (r : Fin 1024) (l : Fin 128) :
    k0_pay13 (F := Ideal) g u (ix3 z r l) = Cert.Spec.swiglu (g (ix2 r l)) (u (ix2 r l)) := by
  unfold k0_pay13
  exact shapeCast_ab_1ab_apply _ shapeCasts_S1024x128_S1x1024x128 z r l
theorem pay14_apply (g u : Vec Ideal S1024x128 .f32) (z : Fin 1) (r : Fin 1024) (l : Fin 128) :
    k0_pay14 (F := Ideal) g u (ix3 z r l) = Cert.Spec.swiglu (g (ix2 r l)) (u (ix2 r l)) := by
  unfold k0_pay14
  exact shapeCast_ab_1ab_apply _ shapeCasts_S1024x128_S1x1024x128 z r l
theorem pay15_apply (g u : Vec Ideal S1024x128 .f32) (z : Fin 1) (r : Fin 1024) (l : Fin 128) :
    k0_pay15 (F := Ideal) g u (ix3 z r l) = Cert.Spec.swiglu (g (ix2 r l)) (u (ix2 r l)) := by
  unfold k0_pay15
  exact shapeCast_ab_1ab_apply _ shapeCasts_S1024x128_S1x1024x128 z r l
theorem pay16_apply (g u : Vec Ideal S1024x128 .f32) (z : Fin 1) (r : Fin 1024) (l : Fin 128) :
    k0_pay16 (F := Ideal) g u (ix3 z r l) = Cert.Spec.swiglu (g (ix2 r l)) (u (ix2 r l)) := by
  unfold k0_pay16
  exact shapeCast_ab_1ab_apply _ shapeCasts_S1024x128_S1x1024x128 z r l
theorem pay17_apply (g u : Vec Ideal S1024x128 .f32) (z : Fin 1) (r : Fin 1024) (l : Fin 128) :
    k0_pay17 (F := Ideal) g u (ix3 z r l) = Cert.Spec.swiglu (g (ix2 r l)) (u (ix2 r l)) := by
  unfold k0_pay17
  exact shapeCast_ab_1ab_apply _ shapeCasts_S1024x128_S1x1024x128 z r l
theorem pay11_apply (g u : Vec Ideal S1024x128 .f32) (z : Fin 1) (r : Fin 1024) (l : Fin 128) :
    k0_pay11 (F := Ideal) (k0_pay10 g u) (ix3 z r l) = Cert.Spec.swiglu (g (ix2 r l)) (u (ix2 r l)) := by
  unfold k0_pay11 k0_pay10
  exact shapeCast_ab_1ab_apply _ shapeCasts_S1024x128_S1x1024x128 z r l
theorem pay6_apply (g u : Vec Ideal S1024x128 .f32) (z : Fin 1) (r : Fin 1024) (l : Fin 128) :
    k0_pay6 (F := Ideal) (k0_pay18 g u) (ix3 z r l) = Cert.Spec.swiglu (g (ix2 r l)) (u (ix2 r l)) := by
  unfold k0_pay6 k0_pay18
  exact shapeCast_ab_1ab_apply _ shapeCasts_S1024x128_S1x1024x128 z r l

end Cert.KernelIdeal.GateUp

end
-- ==== Proof.KI.GateUp.ValueB.lean ====
/-
  The activation block the gate/up body stores at the last feature block of a run, on the extended reals.

  The body stores the block in eleven chunks of 128 columns; chunk `j` is `up · (gate · σ(gate))` of columns
  `128 j … 128 j + 127` of the two accumulators as the same body has just updated them. Read back together the eleven
  chunks are one function of the block's index.
-/
import proofs.«104179_j6614249635977_2_alg».proof.Proof.KI.GateUp.ValueA
import proofs.«104179_j6614249635977_2_alg».proof.Proof.KI.GateUp.ValueC

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

variable (c : Dev nD)

/-- The activations of two accumulators, as a block `[1, 1024, 1408]`. -/
def actOf (P4 P5 : Vec Ideal S1024x1408 .f32) : Vec Ideal S1x1024x1408 .bf16 := fun y =>
  Cert.Spec.swiglu (P4 (ix2 (⟨(y 1).val, (y 1).isLt⟩ : Fin 1024) (⟨(y 2).val, (y 2).isLt⟩ : Fin 1408)))
    (P5 (ix2 (⟨(y 1).val, (y 1).isLt⟩ : Fin 1024) (⟨(y 2).val, (y 2).isLt⟩ : Fin 1408)))

/-- One chunk: a payload that forms the activations of the columns `o … o + 127` of the accumulators, stored at those
    columns of the block, agrees with the block's function. -/
theorem piece_ok (P4 P5 : Vec Ideal S1024x1408 .f32) (o : Nat)
    (pay : Vec Ideal S1024x128 .f32 → Vec Ideal S1024x128 .f32 → FVec Ideal S1x1024x128 .bf16)
    (hpay : ∀ v w (z : Fin 1) (r : Fin 1024) (l : Fin 128), pay v w (ix3 z r l) = Cert.Spec.swiglu (v (ix2 r l)) (w (ix2 r l)))
    (inb3 : ∀ a, (![0, 0, o] : Fin 3 → Nat) a + (![1, 1024, 128] : Fin 3 → Nat) a ≤ S1x1024x1408.size a)
    (inb2 : ∀ a, (![0, o] : Fin 2 → Nat) a + S1024x128.size a ≤ S1024x1408.size a)
    (x : (Rect.unit (s := S1x1024x1408) ![0, 0, o] ![1, 1024, 128] inb3).shape.Idx) :
    pay (fun j => P4 ((Rect.unit (s := S1024x1408) ![0, o] S1024x128.size inb2).toLoadRect.idx j))
        (fun j => P5 ((Rect.unit (s := S1024x1408) ![0, o] S1024x128.size inb2).toLoadRect.idx j)) x
      = actOf P4 P5 ((Rect.unit (s := S1x1024x1408) ![0, 0, o] ![1, 1024, 128] inb3).emb x) := by
  have hx := eq_ix3 (n0 := 1) (n1 := 1024) (n2 := 128) x
  rw [hx]
  refine (hpay _ _ _ _ _).trans ?_
  unfold actOf
  congr 1
  · exact congrArg P4 (funext fun a => Fin.ext (by match a with | ⟨0, _⟩ => rfl | ⟨1, _⟩ => rfl))
  · exact congrArg P5 (funext fun a => Fin.ext (by match a with | ⟨0, _⟩ => rfl | ⟨1, _⟩ => rfl))

set_option maxHeartbeats 1600000 in
/-- The stored block at `(0, r, col)`: the activation of the two updated accumulators there. -/
theorem oLast_apply (t : Fin cfg0.N) (hf : ¬isFirst (grid0.coords t)) (hl : isLast (grid0.coords t)) (x0 : Vec Ideal S1x1024x256 .f32) (x1 : Vec Ideal S1x256x1408 .f32) (x2 : Vec Ideal S1x256x1408 .f32) (g0 : Vec Ideal S1024x1408 .f32) (u0 : Vec Ideal S1024x1408 .f32)
    (z : Fin 1) (r : Fin 1024) (col : Fin 1408) :
    oLast (F := Ideal) c t hf hl x0 x1 x2 g0 u0 (ix3 z r col)
      = Cert.Spec.swiglu (k0_pay4 x0 x1 g0 (ix2 r col)) (k0_pay5 x0 x2 u0 (ix2 r col)) := by
  unfold oLast
  rw [View.read_writes_eq_canon _ _ _ (oLast_cover c t hf hl x0 x1 x2 g0 u0)]
  refine (View.canon_apply_of_pieces (actOf (k0_pay4 x0 x1 g0) (k0_pay5 x0 x2 u0)) (lastAt c t hf hl x0 x1 x2 g0 u0).1 ?_
    (ix3 z r col) (oLast_cover c t hf hl x0 x1 x2 g0 u0 (ix3 z r col))).trans ?_
  · unfold lastAt runLast
    dsimp only
    sl_unfold_words
    intro p hp
    simp only [List.mem_cons, List.mem_nil_iff, or_false] at hp
    rcases hp with rfl | rfl | rfl | rfl | rfl | rfl | rfl | rfl | rfl | rfl | rfl
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 1280 (fun v w => k0_pay6 (F := Ideal) (k0_pay18 v w)) pay6_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 1152 k0_pay17 pay17_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 1024 k0_pay16 pay16_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 896 k0_pay15 pay15_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 768 k0_pay14 pay14_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 640 k0_pay13 pay13_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 512 k0_pay12 pay12_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 384 (fun v w => k0_pay11 (F := Ideal) (k0_pay10 v w)) pay11_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 256 k0_pay9 pay9_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 128 k0_pay8 pay8_apply _ _ x
    · intro x
      simp only [View.readAt_eq_ld, (hs0 t).read_unread, (hs1 t).read_unread, (hs2 t).read_unread, (Memref.isWhole_whole cc0_scratch0).read_unread, (Memref.isWhole_whole cc0_scratch1).read_unread,
        View.ld_unit_zero (S := S1024x1408) hz2, View.ld_unit_zero (S := S1x1024x256) hz3, View.ld_unit_zero (S := S1x256x1408) hz3, View.readCov_eq_canon', View.canon_unit_zero (S := S1024x1408) hz2]
      exact piece_ok (k0_pay4 x0 x1 g0) (k0_pay5 x0 x2 u0) 0 k0_pay7 pay7_apply _ _ x
  · rfl

end Cert.KernelIdeal.GateUp

end
-- ==== Proof.KI.GateUp.ValueD.lean ====
/-
  Where the gate/up kernel's input blocks sit in their arrays.

  Grid point `t = 32 e + 8 b + k` is (expert `e`, column block `b`, feature block `k`). Its token block is
  `x[e, 0:1024, 256 k : 256 k + 256]`, its gate block `w[e, 256 k : +256, 1408 b : +1408]` and its up block
  `w[e, 256 k : +256, 5632 + 1408 b : +1408]`.
-/
import proofs.«104179_j6614249635977_2_alg».proof.Proof.KI.GateUp.Data
import Idealize.ShloMosaic.Lib.Pipeline.Value
import Idealize.ShloMosaic.Lib.ValueIdx

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx

/-- The three input windows' block indices at every grid point, in closed form. -/
theorem idx0 : ∀ t : Fin cfg0.N, win0_0.index t 0 = t.val / 32 ∧ win0_0.index t 1 = 0 ∧ win0_0.index t 2 = t.val % 8 :=
  (by decide +kernel : ∀ t : Fin grid0.N, win0_0.index t 0 = t.val / 32 ∧ win0_0.index t 1 = 0 ∧ win0_0.index t 2 = t.val % 8)
theorem idx1 : ∀ t : Fin cfg0.N, win0_1.index t 0 = t.val / 32 ∧ win0_1.index t 1 = t.val % 8 ∧ win0_1.index t 2 = (t.val / 8) % 4 :=
  (by decide +kernel : ∀ t : Fin grid0.N, win0_1.index t 0 = t.val / 32 ∧ win0_1.index t 1 = t.val % 8 ∧ win0_1.index t 2 = (t.val / 8) % 4)
theorem idx2 : ∀ t : Fin cfg0.N, win0_2.index t 0 = t.val / 32 ∧ win0_2.index t 1 = t.val % 8 ∧ win0_2.index t 2 = (t.val / 8) % 4 + 4 :=
  (by decide +kernel : ∀ t : Fin grid0.N, win0_2.index t 0 = t.val / 32 ∧ win0_2.index t 1 = t.val % 8 ∧ win0_2.index t 2 = (t.val / 8) % 4 + 4)

theorem lt256 (t : Fin cfg0.N) : t.val < 256 := by have := t.isLt; have : cfg0.N = 256 := N_0; omega

/-- The token block at point `t`. -/
theorem iblk0_apply (V : VT F) (c : Dev nD) (t : Fin cfg0.N) (r : Fin 1024) (k : Fin 256) :
    (iblk V c 0 t : Vec F S1x1024x256 .f32) (ix3 (0 : Fin 1) r k)
      = V c main_v0 (ix3 (⟨t.val / 32, by have := lt256 t; omega⟩ : Fin 8) r (⟨256 * (t.val % 8) + k.val, by omega⟩ : Fin 2048)) := by
  unfold iblk
  rw [View.read_apply]
  show V c main_v0 _ = V c main_v0 _
  congr 1
  funext a
  apply Fin.ext
  match a with
  | ⟨0, _⟩ => show win0_0.index t 0 * 1 + 1 * 0 = t.val / 32; rw [(idx0 t).1]; omega
  | ⟨1, _⟩ => show win0_0.index t 1 * 1024 + 1 * r.val = r.val; rw [(idx0 t).2.1]; omega
  | ⟨2, _⟩ => show win0_0.index t 2 * 256 + 1 * k.val = 256 * (t.val % 8) + k.val; rw [(idx0 t).2.2]; omega

/-- The gate block at point `t`. -/
theorem iblk1_apply (V : VT F) (c : Dev nD) (t : Fin cfg0.N) (k : Fin 256) (col : Fin 1408) :
    (iblk V c 1 t : Vec F S1x256x1408 .f32) (ix3 (0 : Fin 1) k col)
      = V c main_arg1 (ix3 (⟨t.val / 32, by have := lt256 t; omega⟩ : Fin 8) (⟨256 * (t.val % 8) + k.val, by omega⟩ : Fin 2048)
          (⟨1408 * ((t.val / 8) % 4) + col.val, by omega⟩ : Fin 11264)) := by
  unfold iblk
  rw [View.read_apply]
  show V c main_arg1 _ = V c main_arg1 _
  congr 1
  funext a
  apply Fin.ext
  match a with
  | ⟨0, _⟩ => show win0_1.index t 0 * 1 + 1 * 0 = t.val / 32; rw [(idx1 t).1]; omega
  | ⟨1, _⟩ => show win0_1.index t 1 * 256 + 1 * k.val = 256 * (t.val % 8) + k.val; rw [(idx1 t).2.1]; omega
  | ⟨2, _⟩ => show win0_1.index t 2 * 1408 + 1 * col.val = 1408 * ((t.val / 8) % 4) + col.val; rw [(idx1 t).2.2]; omega

/-- The up block at point `t`. -/
theorem iblk2_apply (V : VT F) (c : Dev nD) (t : Fin cfg0.N) (k : Fin 256) (col : Fin 1408) :
    (iblk V c 2 t : Vec F S1x256x1408 .f32) (ix3 (0 : Fin 1) k col)
      = V c main_arg1 (ix3 (⟨t.val / 32, by have := lt256 t; omega⟩ : Fin 8) (⟨256 * (t.val % 8) + k.val, by omega⟩ : Fin 2048)
          (⟨1408 * ((t.val / 8) % 4) + col.val + 5632, by omega⟩ : Fin 11264)) := by
  unfold iblk
  rw [View.read_apply]
  show V c main_arg1 _ = V c main_arg1 _
  congr 1
  funext a
  apply Fin.ext
  match a with
  | ⟨0, _⟩ => show win0_2.index t 0 * 1 + 1 * 0 = t.val / 32; rw [(idx2 t).1]; omega
  | ⟨1, _⟩ => show win0_2.index t 1 * 256 + 1 * k.val = 256 * (t.val % 8) + k.val; rw [(idx2 t).2.1]; omega
  | ⟨2, _⟩ => show win0_2.index t 2 * 1408 + 1 * col.val = 1408 * ((t.val / 8) % 4) + col.val + 5632; rw [(idx2 t).2.2]; omega

end Cert.KernelIdeal.GateUp

end
-- ==== Proof.Ref.Sums.lean ====
/-
  Regrouping a sum over a contracted axis into consecutive blocks, in any commutative additive monoid.

  An axis of length `nb * bs` is cut into `nb` blocks of `bs` consecutive positions; position `k` of block `b`
  is `b * bs + k`. Summing the blocks' inner sums over all blocks is the sum over the whole axis.
-/
import Mathlib.Algebra.BigOperators.Fin

open scoped BigOperators

namespace Cert.Sums

variable {M : Type*} [AddCommMonoid M]

/-- The same statement with the length of the axis named, so that the induction over the number of blocks never
    has to transport a sum along an equation between lengths. -/
theorem sum_blocks_aux (bs : ℕ) (g : ℕ → M) : ∀ (nb N : ℕ), N = nb * bs →
    ∑ b ∈ Finset.range nb, ∑ k : Fin bs, g (b * bs + k.val) = ∑ h : Fin N, g h.val
  | 0, N, hN => by
    have h0 : N = 0 := by rw [hN, Nat.zero_mul]
    subst h0
    simp
  | n + 1, N, hN => by
    have hN' : N = n * bs + bs := by rw [hN, Nat.succ_mul]
    subst hN'
    rw [Finset.sum_range_succ, sum_blocks_aux bs g n (n * bs) rfl, Fin.sum_univ_add]
    rfl

/-- The sum over `nb` consecutive blocks of `bs` positions each is the sum over all `nb * bs` positions. -/
theorem sum_blocks (nb bs : ℕ) (g : ℕ → M) :
    ∑ b ∈ Finset.range nb, ∑ k : Fin bs, g (b * bs + k.val) = ∑ h : Fin (nb * bs), g h.val :=
  sum_blocks_aux bs g nb (nb * bs) rfl

/-- Eight blocks of 256 positions make up an axis of 2048. -/
theorem sum_blocks_2048 (g : ℕ → M) :
    ∑ b ∈ Finset.range 8, ∑ k : Fin 256, g (b * 256 + k.val) = ∑ h : Fin 2048, g h.val :=
  sum_blocks_aux 256 g 8 2048 rfl

/-- Eleven blocks of 512 positions make up an axis of 5632. -/
theorem sum_blocks_5632 (g : ℕ → M) :
    ∑ b ∈ Finset.range 11, ∑ k : Fin 512, g (b * 512 + k.val) = ∑ f : Fin 5632, g f.val :=
  sum_blocks_aux 512 g 11 5632 rfl

end Cert.Sums
-- ==== Proof.KI.GateUp.Value.lean ====
/-
  The activation block the gate/up kernel stores at the last feature block of a run, element by element.

  By induction on the grid point the two accumulators hold, after feature block `k` of a run, the sums over the blocks
  `0 … k` of the products of the run's tokens with the run's gate columns and up columns: the first block adds its
  product to the reset (zero) accumulator, every later block adds its product to what the block before left. After the
  eighth block the eight block sums are the whole inner product over the 2048 features, and the stored block is
  `up · (gate · σ(gate))` of the two: the specification's activations.
-/
import proofs.«104179_j6614249635977_2_alg».proof.Proof.KI.GateUp.ValueA
import proofs.«104179_j6614249635977_2_alg».proof.Proof.KI.GateUp.ValueB
import proofs.«104179_j6614249635977_2_alg».proof.Proof.KI.GateUp.ValueC
import proofs.«104179_j6614249635977_2_alg».proof.Proof.KI.GateUp.ValueD
import proofs.«104179_j6614249635977_2_alg».proof.Proof.Ref.Sums
import proofs.«104179_j6614249635977_2_alg».proof.Proof.Spec
import Idealize.ShloMosaic.Lib.ValueIdx

set_option maxRecDepth 16384

noncomputable section

namespace Cert.KernelIdeal.GateUp

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.ValueIdx
open scoped BigOperators

variable (V : VT Ideal) (c : Dev nD)

/-- The token array, the projection array and the three input blocks at a point, as arrays of extended reals. -/
abbrev xArr : Vec Ideal S8x1024x2048 .f32 := V c main_v0
abbrev wArr : Vec Ideal S8x2048x11264 .f32 := V c main_arg1
abbrev xb (t : Fin cfg0.N) : Vec Ideal S1x1024x256 .f32 := iblk V c 0 t
abbrev gb (t : Fin cfg0.N) : Vec Ideal S1x256x1408 .f32 := iblk V c 1 t
abbrev ub (t : Fin cfg0.N) : Vec Ideal S1x256x1408 .f32 := iblk V c 2 t

/-- Feature `h` of token `r` of expert `e` times entry `(h, f)` of the expert's projection; zero beyond the 2048
    features, so that it is a function of a natural number. -/
def term (e : Fin 8) (r : Fin 1024) (f : Fin 11264) (h : ℕ) : EReal :=
  if hh : h < 2048 then
    xArr V c (ix3 e r (⟨h, hh⟩ : Fin 2048)) * wArr V c (ix3 e (⟨h, hh⟩ : Fin 2048) f)
  else 0

/-- A product of the token block and the gate block at point `t` is a term of the inner product. -/
theorem blk_gate (t : Fin cfg0.N) (e : Fin 8) (f : Fin 11264) (r : Fin 1024) (col : Fin 1408) (he : e.val = t.val / 32)
    (hf : f.val = 1408 * ((t.val / 8) % 4) + col.val) (x0 : Vec Ideal S1x1024x256 .f32) (x1 : Vec Ideal S1x256x1408 .f32)
    (hx0 : x0 = iblk V c 0 t) (hx1 : x1 = iblk V c 1 t) (k : Fin 256) :
    x0 (ix3 (0 : Fin 1) r k) * x1 (ix3 (0 : Fin 1) k col) = term V c e r f (t.val % 8 * 256 + k.val) := by
  have hh : t.val % 8 * 256 + k.val < 2048 := by omega
  have e0 : x0 (ix3 (0 : Fin 1) r k) = _ := (congrFun hx0 _).trans (iblk0_apply V c t r k)
  have e1 : x1 (ix3 (0 : Fin 1) k col) = _ := (congrFun hx1 _).trans (iblk1_apply V c t k col)
  rw [e0, e1]
  unfold term xArr wArr
  rw [dif_pos hh]
  congr 1
  · congr 1
    funext a
    apply Fin.ext
    match a with
    | ⟨0, _⟩ => exact he.symm
    | ⟨1, _⟩ => rfl
    | ⟨2, _⟩ => show 256 * (t.val % 8) + k.val = t.val % 8 * 256 + k.val; omega
  · congr 1
    funext a
    apply Fin.ext
    match a with
    | ⟨0, _⟩ => exact he.symm
    | ⟨1, _⟩ => show 256 * (t.val % 8) + k.val = t.val % 8 * 256 + k.val; omega
    | ⟨2, _⟩ => exact hf.symm

/-- The same for the up block, whose columns are the up half's. -/
theorem blk_up (t : Fin cfg0.N) (e : Fin 8) (fu : Fin 11264) (r : Fin 1024) (col : Fin 1408) (he : e.val = t.val / 32)
    (hf : fu.val = 1408 * ((t.val / 8) % 4) + col.val + 5632) (x0 : Vec Ideal S1x1024x256 .f32) (x2 : Vec Ideal S1x256x1408 .f32)
    (hx0 : x0 = iblk V c 0 t) (hx2 : x2 = iblk V c 2 t) (k : Fin 256) :
    x0 (ix3 (0 : Fin 1) r k) * x2 (ix3 (0 : Fin 1) k col) = term V c e r fu (t.val % 8 * 256 + k.val) := by
  have hh : t.val % 8 * 256 + k.val < 2048 := by omega
  have e0 : x0 (ix3 (0 : Fin 1) r k) = _ := (congrFun hx0 _).trans (iblk0_apply V c t r k)
  have e1 : x2 (ix3 (0 : Fin 1) k col) = _ := (congrFun hx2 _).trans (iblk2_apply V c t k col)
  rw [e0, e1]
  unfold term xArr wArr
  rw [dif_pos hh]
  congr 1
  · congr 1
    funext a
    apply Fin.ext
    match a with
    | ⟨0, _⟩ => exact he.symm
    | ⟨1, _⟩ => rfl
    | ⟨2, _⟩ => show 256 * (t.val % 8) + k.val = t.val % 8 * 256 + k.val; omega
  · congr 1
    funext a
    apply Fin.ext
    match a with
    | ⟨0, _⟩ => exact he.symm
    | ⟨1, _⟩ => show 256 * (t.val % 8) + k.val = t.val % 8 * 256 + k.val; omega
    | ⟨2, _⟩ => exact hf.symm

/-- What one point adds to the accumulators at `(r, col)`: the block `t % 8` of the two inner products. -/
theorem step_gate (t : Fin cfg0.N) (e : Fin 8) (f : Fin 11264) (r : Fin 1024) (col : Fin 1408) (he : e.val = t.val / 32)
    (hf : f.val = 1408 * ((t.val / 8) % 4) + col.val) (g : Vec Ideal S1024x1408 .f32) :
    k0_pay4 (F := Ideal) (iblk V c 0 t) (iblk V c 1 t) g (ix2 r col)
      = g (ix2 r col) + ∑ k : Fin 256, term V c e r f (t.val % 8 * 256 + k.val) :=
  (pay4_apply _ _ g r col).trans (congrArg (g (ix2 r col) + ·) (Finset.sum_congr rfl fun k _ => blk_gate V c t e f r col he hf _ _ rfl rfl k))

theorem step_up (t : Fin cfg0.N) (e : Fin 8) (fu : Fin 11264) (r : Fin 1024) (col : Fin 1408) (he : e.val = t.val / 32)
    (hf : fu.val = 1408 * ((t.val / 8) % 4) + col.val + 5632) (u : Vec Ideal S1024x1408 .f32) :
    k0_pay5 (F := Ideal) (iblk V c 0 t) (iblk V c 2 t) u (ix2 r col)
      = u (ix2 r col) + ∑ k : Fin 256, term V c e r fu (t.val % 8 * 256 + k.val) :=
  (pay5_apply _ _ u r col).trans (congrArg (u (ix2 r col) + ·) (Finset.sum_congr rfl fun k _ => blk_up V c t e fu r col he hf _ _ rfl rfl k))

set_option maxHeartbeats 1600000 in
/-- Each accumulator after point `n` is the last point's payload of what the point before left (the reset value at the
    first block of a run). -/
theorem acc_first (t : Fin cfg0.N) (h0 : t.val % 8 = 0) :
    (accAt V c t.val t.isLt).1 = k0_pay4 (iblk V c 0 t) (iblk V c 1 t) (k0_pay1 (F := Ideal))
    ∧ (accAt V c t.val t.isLt).2 = k0_pay5 (iblk V c 0 t) (iblk V c 2 t) (k0_pay2 (F := Ideal)) :=
by
  rw [accAt_first V c t h0]
  dsimp only
  exact ⟨gFirst_eq (F := Ideal) c t ((isFirst_iff t).mpr h0) (notLast_of_first h0) (iblk V c 0 t) (iblk V c 1 t) (iblk V c 2 t),
    uFirst_eq (F := Ideal) c t ((isFirst_iff t).mpr h0) (notLast_of_first h0) (iblk V c 0 t) (iblk V c 1 t) (iblk V c 2 t)⟩

set_option maxHeartbeats 1600000 in
theorem acc_next (t : Fin cfg0.N) (h0 : ¬t.val % 8 = 0) :
    (accAt V c t.val t.isLt).1 = k0_pay4 (iblk V c 0 t) (iblk V c 1 t) (accAt V c (t.val - 1) (prevLt t)).1
    ∧ (accAt V c t.val t.isLt).2 = k0_pay5 (iblk V c 0 t) (iblk V c 2 t) (accAt V c (t.val - 1) (prevLt t)).2 := by
  by_cases h1 : t.val % 8 = 7
  · rw [accAt_last V c t h0 h1]
    dsimp only
    exact ⟨gLast_eq (F := Ideal) c t (fun h => h0 ((isFirst_iff t).mp h)) ((isLast_iff t).mpr h1) (iblk V c 0 t) (iblk V c 1 t) (iblk V c 2 t) (accAt V c (t.val - 1) (prevLt t)).1 (accAt V c (t.val - 1) (prevLt t)).2,
      uLast_eq (F := Ideal) c t (fun h => h0 ((isFirst_iff t).mp h)) ((isLast_iff t).mpr h1) (iblk V c 0 t) (iblk V c 1 t) (iblk V c 2 t) (accAt V c (t.val - 1) (prevLt t)).1 (accAt V c (t.val - 1) (prevLt t)).2⟩
  · rw [accAt_mid V c t h0 h1]
    dsimp only
    exact ⟨gMid_eq (F := Ideal) c t (fun h => h0 ((isFirst_iff t).mp h)) (fun h => h1 ((isLast_iff t).mp h)) (iblk V c 0 t) (iblk V c 1 t) (iblk V c 2 t) (accAt V c (t.val - 1) (prevLt t)).1 (accAt V c (t.val - 1) (prevLt t)).2,
      uMid_eq (F := Ideal) c t (fun h => h0 ((isFirst_iff t).mp h)) (fun h => h1 ((isLast_iff t).mp h)) (iblk V c 0 t) (iblk V c 1 t) (iblk V c 2 t) (accAt V c (t.val - 1) (prevLt t)).1 (accAt V c (t.val - 1) (prevLt t)).2⟩

/-- The invariant: after point `n` the accumulators hold the blocks `0 … n % 8` of the two inner products. -/
theorem acc_inv : ∀ (n : ℕ) (hn : n < cfg0.N) (e : Fin 8) (f fu : Fin 11264) (r : Fin 1024) (col : Fin 1408),
    e.val = n / 32 → f.val = 1408 * ((n / 8) % 4) + col.val → fu.val = 1408 * ((n / 8) % 4) + col.val + 5632 →
    (accAt V c n hn).1 (ix2 r col) = ∑ b ∈ Finset.range (n % 8 + 1), ∑ k : Fin 256, term V c e r f (b * 256 + k.val)
    ∧ (accAt V c n hn).2 (ix2 r col) = ∑ b ∈ Finset.range (n % 8 + 1), ∑ k : Fin 256, term V c e r fu (b * 256 + k.val) := by
  intro n
  induction n using Nat.strong_induction_on with
  | _ n ih =>
    intro hn e f fu r col he hf hfu
    by_cases h0 : n % 8 = 0
    · obtain ⟨hg, hu⟩ := acc_first V c ⟨n, hn⟩ h0
      have hg' := (congrFun hg (ix2 r col)).trans (step_gate V c ⟨n, hn⟩ e f r col he hf _)
      have hu' := (congrFun hu (ix2 r col)).trans (step_up V c ⟨n, hn⟩ e fu r col he hfu _)
      rw [pay1_apply, zero_add] at hg'
      rw [pay2_apply, zero_add] at hu'
      rw [h0]
      rw [Finset.sum_range_one, Finset.sum_range_one]
      have hz : (⟨n, hn⟩ : Fin cfg0.N).val % 8 = 0 := h0
      rw [hz] at hg' hu'
      exact ⟨hg', hu'⟩
    · obtain ⟨hg, hu⟩ := acc_next V c ⟨n, hn⟩ h0
      have hp : n - 1 < n := by omega
      obtain ⟨ig, iu⟩ := ih (n - 1) hp (prevLt ⟨n, hn⟩) e f fu r col (by omega) (by omega) (by omega)
      have hg' := (congrFun hg (ix2 r col)).trans (step_gate V c ⟨n, hn⟩ e f r col he hf _)
      have hu' := (congrFun hu (ix2 r col)).trans (step_up V c ⟨n, hn⟩ e fu r col he hfu _)
      have hk : (n - 1) % 8 + 1 = n % 8 := by omega
      rw [hk] at ig iu
      rw [Finset.sum_range_succ, Finset.sum_range_succ]
      refine ⟨hg'.trans ?_, hu'.trans ?_⟩
      · exact congrArg (fun s : EReal => s + ∑ k : Fin 256, term V c e r f (n % 8 * 256 + k.val)) ig
      · exact congrArg (fun s : EReal => s + ∑ k : Fin 256, term V c e r fu (n % 8 * 256 + k.val)) iu

/-- After the last block of a run the eight block sums are the specification's inner product. -/
theorem sum_term_eq_proj (e : Fin 8) (r : Fin 1024) (f : Fin 11264) :
    ∑ b ∈ Finset.range 8, ∑ k : Fin 256, term V c e r f (b * 256 + k.val)
      = Cert.Spec.proj (V c main_v0) (V c main_arg1) e r f := by
  rw [Cert.Sums.sum_blocks_2048 (term V c e r f)]
  unfold Cert.Spec.proj
  refine Finset.sum_congr rfl fun h _ => ?_
  unfold term
  rw [dif_pos h.isLt]

/-- At the last feature block of a run the stored block holds the specification's activations of the run's expert and
    column block. -/
theorem outAt_last (V : VT Ideal) (c : Dev nD) (t : Fin cfg0.N) (h1 : t.val % 8 = 7) (r : Fin 1024) (col : Fin 1408) :
    outAt V c t (ValueIdx.ix3 (0 : Fin 1) r col)
      = Cert.Spec.actAt (V c main_v0) (V c main_arg1) ⟨t.val / 32, by have := t.isLt; have : cfg0.N = 256 := N_0; omega⟩ r ⟨1408 * ((t.val / 8) % 4) + col.val, by omega⟩ := by
  have h0 : ¬t.val % 8 = 0 := by omega
  have hlt := lt256 t
  unfold outAt
  rw [dif_pos h1]
  refine (oLast_apply c t _ _ _ _ _ _ _ (0 : Fin 1) r col).trans ?_
  obtain ⟨hg, hu⟩ := acc_next V c t h0
  rw [← hg, ← hu]
  obtain ⟨ig, iu⟩ := acc_inv V c t.val t.isLt ⟨t.val / 32, by omega⟩ ⟨1408 * ((t.val / 8) % 4) + col.val, by omega⟩
    ⟨1408 * ((t.val / 8) % 4) + col.val + 5632, by omega⟩ r col rfl rfl rfl
  rw [ig, iu, h1]
  rw [sum_term_eq_proj, sum_term_eq_proj]
  rfl

end Cert.KernelIdeal.GateUp

end
-- ==== Proof.KI.GateUp.Final.lean ====
/-
  The activation array after the gate/up kernel is the specification's activations of the regrouped tokens and the
  projection array as the region finds them.
-/
import proofs.«104179_j6614249635977_2_alg».proof.Proof.KI.GateUp.ValueFinal
import proofs.«104179_j6614249635977_2_alg».proof.Proof.KI.GateUp.Value

noncomputable section

namespace Cert.KernelIdeal.GateUp

open Cert.KernelIdeal Cert.KernelIdeal.Gen
open Idealize.ShloMosaic Idealize.ShloMosaic.TcCoe

theorem final (V : VT Ideal) (c : Dev nD) :
    (dat (F := Ideal) V c).arrAt 3 cfg0.N = Cert.Spec.actArr (V c main_v0) (V c main_arg1) :=
  final_of V c fun t h1 r col => (congrFun (after3 V c t) _).trans (outAt_last V c t h1 r col)

end Cert.KernelIdeal.GateUp

end
-- ==== Proof.KI.Down.ValueFinal.lean ====
/-
  The result array after the down kernel: the points that write a block back are the last activation blocks of the runs,
  each writes the block of its expert and column half, those blocks tile the array, and what each writes is its block of
  the specification's result. So the array ends at the specification's result.
-/
import proofs.«104179_j6614249635977_2_alg».proof.Proof.KI.Down.Region
import proofs.«104179_j6614249635977_2_alg».proof.Proof.Spec
import Idealize.ShloMosaic.Lib.Pipeline.Value
import Idealize.ShloMosaic.Lib.ValueIdx

set_option maxRecDepth 16384

noncomputable section

namespace Cert.KernelIdeal.Down

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

variable (V : VT Ideal) (c : Dev nD)

/-- The output window's block index at point `t`, decided over the grid: the expert, the whole token axis, the column block. -/
theorem outIdx : ∀ t : Fin cfg1.N, win1_2.index t (0 : Fin 3) = t.val / 22 ∧ win1_2.index t (1 : Fin 3) = 0 ∧ win1_2.index t (2 : Fin 3) = (t.val / 11) % 2 :=
  (by decide +kernel : ∀ t : Fin grid1.N, win1_2.index t (0 : Fin 3) = t.val / 22 ∧ win1_2.index t (1 : Fin 3) = 0 ∧ win1_2.index t (2 : Fin 3) = (t.val / 11) % 2)

/-- An index of the array is in point `t`'s block iff each coordinate is in the block's range on its axis. -/
theorem mem_outBlk (t : Fin cfg1.N) (i : S8x1024x2048.Idx) :
    i ∈ ((cfg1.win 2).blk t).view.set ↔ ∀ a : Fin 3, win1_2.index t a * S1x1024x1024.size a ≤ (i a).val ∧ (i a).val < win1_2.index t a * S1x1024x1024.size a + S1x1024x1024.size a := by
  show i ∈ ((View.whole main_v2).slice (win1_2.rect t)).set ↔ _
  rw [View.set_slice_whole, Rect.mem_set_unit]
  exact Iff.rfl

/-- What a writing-back point writes back is its block of the specification's array, given the stored block element by element. -/
theorem flushed_eq_of
    (H : ∀ (t : Fin cfg1.N) (h1 : t.val % 11 = 10) (r : Fin 1024) (col : Fin 1024),
      (dat (F := Ideal) V c).after 2 t (ix3 (0 : Fin 1) r col) = Cert.Spec.outAt (V c main_v1) (V c main_arg2) ⟨t.val / 22, by have := t.isLt; have : cfg1.N = 176 := N_1; omega⟩ r ⟨1024 * ((t.val / 11) % 2) + col.val, by omega⟩)
    (t : Fin cfg1.N) (hf : (cfg1.win 2).flush t = true) :
    (dat (F := Ideal) V c).flushed 2 t = ((cfg1.win 2).blk t).view.read (Elt Ideal) (Cert.Spec.outArr (V c main_v1) (V c main_arg2)) := by
  have h1 : t.val % 11 = 10 := (flush1_2 t).mp hf
  show (cfg1.win 2).cut (grid1.coords t) ((dat (F := Ideal) V c).after 2 t) = _
  funext (j : S1x1024x1024.Idx)
  obtain ⟨a, r, col, rfl⟩ : ∃ (a : Fin 1) (r : Fin 1024) (col : Fin 1024), j = ix3 a r col := ⟨j 0, j 1, j 2, eq_ix3 j⟩
  obtain rfl : a = 0 := Subsingleton.elim _ _
  show (dat (F := Ideal) V c).after 2 t (ix3 (0 : Fin 1) r col) = Cert.Spec.outArr (V c main_v1) (V c main_arg2) (((cfg1.win 2).blk t).view.emb (ix3 (0 : Fin 1) r col))
  refine (H t h1 r col).trans ?_
  obtain ⟨e0, e1, e2⟩ := outIdx t
  unfold Cert.Spec.outArr
  refine congr (congr (congrArg (Cert.Spec.outAt _ _) (Fin.ext ?_)) (Fin.ext ?_)) (Fin.ext ?_)
  · show t.val / 22 = win1_2.index t (0 : Fin 3) * 1 + 1 * (0 : Fin 1).val
    rw [e0]; simp
  · show r.val = win1_2.index t (1 : Fin 3) * 1024 + 1 * r.val
    rw [e1]; omega
  · show 1024 * ((t.val / 11) % 2) + col.val = win1_2.index t (2 : Fin 3) * 1024 + 1 * col.val
    rw [e2]; omega

/-- Every index of the output array is in some writing-back point's block: the blocks tile it. -/
theorem cover (i : S8x1024x2048.Idx) : ∃ t : Fin cfg1.N, (cfg1.win 2).flush t = true ∧ i ∈ ((cfg1.win 2).blk t).view.set := by
  have h0 : (i 0).val < 8 := (i 0).isLt
  have h1 : (i 1).val < 1024 := (i 1).isLt
  have h2 : (i 2).val < 2048 := (i 2).isLt
  have hN : cfg1.N = 176 := N_1
  obtain ⟨n, hn⟩ : ∃ n, n = 22 * (i 0).val + 11 * ((i 2).val / 1024) + 10 := ⟨_, rfl⟩
  have hlt : n < cfg1.N := by omega
  obtain ⟨e0, e1, e2⟩ := outIdx ⟨n, hlt⟩
  have e0' : win1_2.index ⟨n, hlt⟩ (0 : Fin 3) = n / 22 := e0
  have e2' : win1_2.index ⟨n, hlt⟩ (2 : Fin 3) = (n / 11) % 2 := e2
  refine ⟨⟨n, hlt⟩, (flush1_2 _).mpr (by show n % 11 = 10; omega), ?_⟩
  rw [mem_outBlk]
  intro a
  match a with
  | ⟨0, _⟩ =>
    show win1_2.index ⟨n, hlt⟩ (0 : Fin 3) * 1 ≤ (i 0).val ∧ (i 0).val < win1_2.index ⟨n, hlt⟩ (0 : Fin 3) * 1 + 1
    rw [e0']; omega
  | ⟨1, _⟩ =>
    show win1_2.index ⟨n, hlt⟩ (1 : Fin 3) * 1024 ≤ (i 1).val ∧ (i 1).val < win1_2.index ⟨n, hlt⟩ (1 : Fin 3) * 1024 + 1024
    rw [e1]; omega
  | ⟨2, _⟩ =>
    show win1_2.index ⟨n, hlt⟩ (2 : Fin 3) * 1024 ≤ (i 2).val ∧ (i 2).val < win1_2.index ⟨n, hlt⟩ (2 : Fin 3) * 1024 + 1024
    rw [e2']; omega

/-- The output array after the region, given the stored block element by element. -/
theorem final_of
    (H : ∀ (t : Fin cfg1.N) (h1 : t.val % 11 = 10) (r : Fin 1024) (col : Fin 1024),
      (dat (F := Ideal) V c).after 2 t (ix3 (0 : Fin 1) r col) = Cert.Spec.outAt (V c main_v1) (V c main_arg2) ⟨t.val / 22, by have := t.isLt; have : cfg1.N = 176 := N_1; omega⟩ r ⟨1024 * ((t.val / 11) % 2) + col.val, by omega⟩) :
    (dat (F := Ideal) V c).arrAt 2 cfg1.N = Cert.Spec.outArr (V c main_v1) (V c main_arg2) :=
  (dat (F := Ideal) V c).arrAt_eq_of_cover 2 _ (fun t hf => flushed_eq_of V c H t hf) (cover)

end Cert.KernelIdeal.Down

end
-- ==== Proof.KI.Down.Pieces.lean ====
/-
  What the down kernel's three kinds of point leave, as values: the accumulator after a first block is the block's
  product added to the zero block, after a middle or last block the block's product added to what it held; the output
  block after a last block is the accumulator.
-/
import proofs.«104179_j6614249635977_2_alg».proof.Proof.KI.Down.Region
import Idealize.ShloMosaic.Lib.Pipeline.Value

set_option maxRecDepth 16384

noncomputable section

namespace Cert.KernelIdeal.Down

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- A middle block leaves in the accumulator the block's product added to what it held. -/
theorem sout_B_eq (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : ¬isLast i)
    (x0 : Vec F S1x1024x512 .bf16) (x1 : Vec F S1x512x1024 .f32) (xs : Vec F S1024x1024 .f32) :
    sout_B c i arg3 harg3 arg4 harg4 arg5 harg5 arg6 harg6 hcF hcL x0 x1 xs = k1_pay2 x0 x1 xs := by
  unfold sout_B
  rw [View.read_writes_eq_canon _ _ _ (scover_B c i arg3 harg3 arg4 harg4 arg5 harg5 arg6 harg6 hcF hcL x0 x1 xs)]
  unfold kernelRun_B
  dsimp only
  rw [View.canon_unit_zero hz2]
  simp only [View.readAt_eq_ld, harg3.read_unread, harg4.read_unread, harg6.read_unread, View.ld_unit_zero (S := S1x1024x512) hz3, View.ld_unit_zero (S := S1x512x1024) hz3, View.ld_unit_zero (S := S1024x1024) hz2]

/-- A last block leaves in the accumulator the same. -/
theorem sout_C_eq (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) :
    sout_C c i arg3 harg3 arg4 harg4 arg5 harg5 arg6 harg6 hcF hcL x0 x1 xs = k1_pay2 x0 x1 xs := by
  unfold sout_C
  rw [View.read_writes_eq_canon _ _ _ (scover_C c i arg3 harg3 arg4 harg4 arg5 harg5 arg6 harg6 hcF hcL x0 x1 xs)]
  unfold kernelRun_C
  dsimp only
  sl_unfold_words
  rw [View.canon_unit_zero hz2]
  simp only [View.readAt_eq_ld, harg3.read_unread, harg4.read_unread, harg6.read_unread, View.ld_unit_zero (S := S1x1024x512) hz3, View.ld_unit_zero (S := S1x512x1024) hz3, View.ld_unit_zero (S := S1024x1024) hz2]

/-- A first block stores the zero block, reads it back, and leaves the block's product added to it. -/
theorem sout_A_eq (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : isFirst i) (hcL : ¬isLast i)
    (x0 : Vec F S1x1024x512 .bf16) (x1 : Vec F S1x512x1024 .f32) :
    sout_A c i arg3 harg3 arg4 harg4 arg5 harg5 arg6 harg6 hcF hcL x0 x1 = k1_pay2 x0 x1 (k1_pay1 (F := F)) := by
  unfold sout_A
  rw [View.read_writes_eq_canon _ _ _ (scover_A c i arg3 harg3 arg4 harg4 arg5 harg5 arg6 harg6 hcF hcL x0 x1)]
  unfold kernelRun_A
  dsimp only
  sl_unfold_words
  rw [View.canon_cons_unit_zero (S := S1024x1024) hz2, View.readCov_unit_zero (S := S1024x1024) _ hz2]
  simp only [View.readAt_eq_ld, harg3.read_unread, harg4.read_unread, harg6.read_unread, View.ld_unit_zero (S := S1x1024x512) hz3, View.ld_unit_zero (S := S1x512x1024) hz3, View.ld_unit_zero (S := S1024x1024) hz2]

/-- A last block leaves in the output block the accumulator it has just updated. -/
theorem out_C_eq (c : Dev nD) (i : grid1.Coords) (arg3 : Memref sig .tc .vmem S1x1024x512 .bf16) (harg3 : arg3.IsWhole) (arg4 : Memref sig .tc .vmem S1x512x1024 .f32) (harg4 : arg4.IsWhole) (arg5 : Memref sig .tc .vmem S1x1024x1024 .f32) (harg5 : arg5.IsWhole) (arg6 : Memref sig .tc .vmem S1024x1024 .f32) (harg6 : arg6.IsWhole) (hcF : ¬isFirst i) (hcL : isLast i)
    (x0 : Vec F S1x1024x512 .bf16) (x1 : Vec F S1x512x1024 .f32) (xs : Vec F S1024x1024 .f32) :
    out_C c i arg3 harg3 arg4 harg4 arg5 harg5 arg6 harg6 hcF hcL x0 x1 xs = k1_pay3 (k1_pay2 x0 x1 xs) := by
  unfold out_C
  rw [View.read_writes_eq_canon _ _ _ (cover_C c i arg3 harg3 arg4 harg4 arg5 harg5 arg6 harg6 hcF hcL x0 x1 xs)]
  unfold kernelRun_C
  dsimp only
  sl_unfold_words
  rw [View.canon_unit_zero hz3, View.readCov_unit_zero (S := S1024x1024) _ hz2]
  simp only [View.readAt_eq_ld, harg3.read_unread, harg4.read_unread, harg6.read_unread, View.ld_unit_zero (S := S1x1024x512) hz3, View.ld_unit_zero (S := S1x512x1024) hz3, View.ld_unit_zero (S := S1024x1024) hz2]

end Cert.KernelIdeal.Down

end
-- ==== Proof.KI.Down.Pay.lean ====
/-
  The down kernel's three payloads at an index, over the extended reals: the reset stores zero; the accumulation adds, at
  row `p` and column `q`, the inner product of row `p` of the activation block with column `q` of the down-projection
  block (the change of format is the identity, the leading unit axes are dropped, the product is accumulated into the
  zero constant); the final store copies the accumulator under a leading unit axis.
-/
import proofs.«104179_j6614249635977_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Down

open Cert.KernelIdeal Cert.KernelIdeal.Gen
open Idealize.ShloMosaic Idealize.ShloMosaic.ValueIdx

/-! ## The matrix product's operand indices -/

theorem lhs_0 (j : S1024x1024.Idx) (κ : dot_S1024x512_S512x1024_S1024x1024_1_0_0_1_n_n.contr.Idx) : (dot_S1024x512_S512x1024_S1024x1024_1_0_0_1_n_n.lhsIdx j κ 0).val = (j 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem lhs_1 (j : S1024x1024.Idx) (κ : dot_S1024x512_S512x1024_S1024x1024_1_0_0_1_n_n.contr.Idx) : (dot_S1024x512_S512x1024_S1024x1024_1_0_0_1_n_n.lhsIdx j κ 1).val = (κ ⟨0, by decide⟩).val :=
  dot_S1024x512_S512x1024_S1024x1024_1_0_0_1_n_n.lhsIdx_val_of_single rfl j κ
theorem rhs_0 (j : S1024x1024.Idx) (κ : dot_S1024x512_S512x1024_S1024x1024_1_0_0_1_n_n.contr.Idx) : (dot_S1024x512_S512x1024_S1024x1024_1_0_0_1_n_n.rhsIdx j κ 0).val = (κ ⟨0, by decide⟩).val :=
  dot_S1024x512_S512x1024_S1024x1024_1_0_0_1_n_n.rhsIdx_val_of_single rfl j κ
theorem rhs_1 (j : S1024x1024.Idx) (κ : dot_S1024x512_S512x1024_S1024x1024_1_0_0_1_n_n.contr.Idx) : (dot_S1024x512_S512x1024_S1024x1024_1_0_0_1_n_n.rhsIdx j κ 1).val = (j 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-! ## The leading unit axes -/

/-- The activation block without its leading unit axis. -/
theorem dropUnit_act (x0 : Vec Ideal S1x1024x512 .bf16) (p : Fin 1024) (k : Fin 512) :
    shapeCast S1024x512 x0 shapeCasts_S1x1024x512_S1024x512 (ix2 p k) = x0 (ix3 0 p k) :=
  shapeCast_apply x0 _ (ix2 p k) (ix3 0 p k) (by
    rw [Shape.rowMajor_val_three, Shape.rowMajor_val_two]
    show (0 * 1024 + p.val) * 512 + k.val = p.val * 512 + k.val
    omega)

/-- The down-projection block without its leading unit axis. -/
theorem dropUnit_down (x1 : Vec Ideal S1x512x1024 .f32) (k : Fin 512) (q : Fin 1024) :
    shapeCast S512x1024 x1 shapeCasts_S1x512x1024_S512x1024 (ix2 k q) = x1 (ix3 0 k q) :=
  shapeCast_apply x1 _ (ix2 k q) (ix3 0 k q) (by
    rw [Shape.rowMajor_val_three, Shape.rowMajor_val_two]
    show (0 * 512 + k.val) * 1024 + q.val = k.val * 1024 + q.val
    omega)

/-! ## The payloads -/

/-- The reset stores zero. -/
theorem pay1_apply (p q : Fin 1024) : (k1_pay1 (F := Ideal)) (ix2 p q) = 0 := by
  show shapeCast S1024x1024 (broadcast S1024x1024 (Scalar.ofBits (F := Ideal) .f32 0x00000000#32)) shapeCasts_S1024x1024_S1024x1024 (ix2 p q) = 0
  rw [shapeCast_self]
  exact Ideal.ofBits_zero_f32

/-- The final store copies the accumulator. -/
theorem pay3_apply (v : Vec Ideal S1024x1024 .f32) (p q : Fin 1024) : k1_pay3 v (ix3 0 p q) = v (ix2 p q) :=
  shapeCast_apply v _ (ix3 0 p q) (ix2 p q) (by
    rw [Shape.rowMajor_val_three, Shape.rowMajor_val_two]
    show p.val * 1024 + q.val = (0 * 1024 + p.val) * 1024 + q.val
    omega)

/-- The accumulation adds the inner product over the block's 512 activations. -/
theorem pay2_apply (x0 : Vec Ideal S1x1024x512 .bf16) (x1 : Vec Ideal S1x512x1024 .f32) (xs : Vec Ideal S1024x1024 .f32)
    (p q : Fin 1024) :
    k1_pay2 x0 x1 xs (ix2 p q) = xs (ix2 p q) + ∑ k : Fin 512, x0 (ix3 0 p k) * x1 (ix3 0 k q) := by
  show shapeCast S1024x1024 (addf (F := Ideal) xs (matmul (F := Ideal) dot_S1024x512_S512x1024_S1024x1024_1_0_0_1_n_n none (shapeCast S1024x512 x0 shapeCasts_S1x1024x512_S1024x512)
      (truncf (F := Ideal) .bf16 (shapeCast S512x1024 x1 shapeCasts_S1x512x1024_S512x1024) bitsLt_bf16_f32) (constant (F := Ideal) S1024x1024 .f32 0x00000000#32)))
    shapeCasts_S1024x1024_S1024x1024 (ix2 p q) = _
  rw [shapeCast_self, addf_apply]
  refine congrArg (xs (ix2 p q) + ·) ?_
  refine (Ideal.matmul_constant_zero_apply dot_S1024x512_S512x1024_S1024x1024_1_0_0_1_n_n none _ _ (ix2 p q)).trans ?_
  rw [← Equiv.sum_comp (contrEquiv1 dot_S1024x512_S512x1024_S1024x1024_1_0_0_1_n_n 512 rfl rfl).symm]
  refine Finset.sum_congr rfl fun k _ => ?_
  have hk := contrEquiv1_symm_val dot_S1024x512_S512x1024_S1024x1024_1_0_0_1_n_n 512 rfl rfl k
  have el : dot_S1024x512_S512x1024_S1024x1024_1_0_0_1_n_n.lhsIdx (ix2 p q) ((contrEquiv1 dot_S1024x512_S512x1024_S1024x1024_1_0_0_1_n_n 512 rfl rfl).symm k) = ix2 p k := funext fun a => Fin.ext (by
    match a with
    | ⟨0, _⟩ => exact lhs_0 _ _
    | ⟨1, _⟩ => exact (lhs_1 _ _).trans hk)
  have er : dot_S1024x512_S512x1024_S1024x1024_1_0_0_1_n_n.rhsIdx (ix2 p q) ((contrEquiv1 dot_S1024x512_S512x1024_S1024x1024_1_0_0_1_n_n 512 rfl rfl).symm k) = ix2 k q := funext fun a => Fin.ext (by
    match a with
    | ⟨0, _⟩ => exact (rhs_0 _ _).trans hk
    | ⟨1, _⟩ => exact rhs_1 _ _)
  rw [el, er, truncf_apply, dropUnit_act, dropUnit_down]

end Cert.KernelIdeal.Down

end
-- ==== Proof.KI.Down.Value.lean ====
/-
  The down kernel's result array, over the extended reals.

  Grid point `n` is (expert, output half, activation block) = (n / 22, n / 11 % 2, n % 11). After it the accumulator
  holds, at row `p` and column `q`, the sum over the activation blocks `0 … n % 11` of the run of the block's 512
  products `act[e, p, f] · down[e, f, half · 1024 + q]`: the first block adds its products to the zero block
  (`0 + s = s`), every later block adds its own to what the block before left. At the last block the eleven blocks make
  up the whole contracted axis, the accumulator is stored into the output block, and the output blocks tile the array.
-/
import proofs.«104179_j6614249635977_2_alg».proof.Proof.KI.Down.Pieces
import proofs.«104179_j6614249635977_2_alg».proof.Proof.KI.Down.Pay
import proofs.«104179_j6614249635977_2_alg».proof.Proof.Spec
import proofs.«104179_j6614249635977_2_alg».proof.Proof.Ref.Sums
import Idealize.ShloMosaic.Lib.Pipeline.Value

set_option maxRecDepth 16384

noncomputable section

open scoped BigOperators

namespace Cert.KernelIdeal.Down

open Cert.KernelIdeal Cert.KernelIdeal.Gen
open Idealize.ShloMosaic Idealize.ShloMosaic.TcCoe Idealize.ShloMosaic.ValueIdx
open Idealize.SL.Sem
open Idealize.ShloMosaic.Pipeline (Dat)

/-! ## Sums over the blocks of a run, over natural-number coordinates -/

section Blocks
variable {M : Type} [AddCommMonoid M] (T : ℕ → ℕ → ℕ → ℕ → M)

/-- The sum of the products of the activation blocks `0 … n % 11` of point `n`'s run. -/
def runSum (n p q : ℕ) : M :=
  ∑ b ∈ Finset.range (n % 11 + 1), ∑ k : Fin 512, T (n / 22) p (n / 11 % 2 * 1024 + q) (b * 512 + k.val)

/-- Point `n`'s own block of products. -/
def blockSum (n p q : ℕ) : M :=
  ∑ k : Fin 512, T (n / 22) p (n / 11 % 2 * 1024 + q) (n % 11 * 512 + k.val)

/-- At the first block of a run the sum is the block's own. -/
theorem runSum_first (n p q : ℕ) (h0 : n % 11 = 0) : runSum T n p q = blockSum T n p q := by
  unfold runSum blockSum
  rw [h0, Finset.sum_range_one]

/-- At a later block it is the sum up to the block before plus the block's own: the point before is in the same run. -/
theorem runSum_step (n p q : ℕ) (h0 : ¬(n + 1) % 11 = 0) : runSum T (n + 1) p q = runSum T n p q + blockSum T (n + 1) p q := by
  have e1 : (n + 1) / 22 = n / 22 := by omega
  have e2 : (n + 1) / 11 % 2 = n / 11 % 2 := by omega
  have e3 : (n + 1) % 11 = n % 11 + 1 := by omega
  unfold runSum blockSum
  rw [e1, e2, e3, Finset.sum_range_succ]

/-- At the last block the eleven blocks are the whole contracted axis. -/
theorem runSum_last (n p q : ℕ) (h1 : n % 11 = 10) :
    runSum T n p q = ∑ f : Fin 5632, T (n / 22) p (n / 11 % 2 * 1024 + q) f.val := by
  unfold runSum
  rw [h1]
  exact Cert.Sums.sum_blocks_5632 (fun f => T (n / 22) p (n / 11 % 2 * 1024 + q) f)

end Blocks

/-! ## The products, and the input blocks' entries -/

/-- Activation `f` of token `p` of expert `e` times the down projection's entry at row `f`, column `h`, the coordinates
    natural numbers (zero outside the arrays, where nothing reads it). -/
def term (a : Spec.SA.Idx → EReal) (d : Spec.SD.Idx → EReal) (e p h f : ℕ) : EReal :=
  if hb : e < 8 ∧ p < 1024 ∧ h < 2048 ∧ f < 5632 then
    a (ix3 ⟨e, hb.1⟩ ⟨p, hb.2.1⟩ ⟨f, hb.2.2.2⟩) * d (ix3 ⟨e, hb.1⟩ ⟨f, hb.2.2.2⟩ ⟨h, hb.2.2.1⟩)
  else 0

/-- The printed index maps over the grid: point `t` is expert `t / 22`, output half `t / 11 % 2`, activation block `t % 11`. -/
theorem idx_facts : ∀ t : Fin cfg1.N,
    win1_0.index t (0 : Fin 3) = t.val / 22 ∧ win1_0.index t (1 : Fin 3) = 0 ∧ win1_0.index t (2 : Fin 3) = t.val % 11
    ∧ win1_1.index t (0 : Fin 3) = t.val / 22 ∧ win1_1.index t (1 : Fin 3) = t.val % 11 ∧ win1_1.index t (2 : Fin 3) = t.val / 11 % 2
    ∧ win1_2.index t (0 : Fin 3) = t.val / 22 ∧ win1_2.index t (1 : Fin 3) = 0 ∧ win1_2.index t (2 : Fin 3) = t.val / 11 % 2 :=
  (by decide +kernel : ∀ t : Fin grid1.N, _)

variable (V : VT Ideal) (c : Dev nD)

/-- The activations and the down projection as the region finds them. -/
abbrev actV : Spec.SA.Idx → EReal := V c main_v1
abbrev downV : Spec.SD.Idx → EReal := V c main_arg2

/-- An entry of point `t`'s activation block times an entry of its down-projection block is the product at the
    point's expert, output half and activation block. -/
theorem block_term (t : Fin cfg1.N) (p q : Fin 1024) (k : Fin 512)
    (x0 : Vec Ideal S1x1024x512 .bf16) (x1 : Vec Ideal S1x512x1024 .f32) (hx0 : x0 = iblk V c 0 t) (hx1 : x1 = iblk V c 1 t) :
    x0 (ix3 0 p k) * x1 (ix3 0 k q)
      = term (actV V c) (downV V c) (t.val / 22) p.val (t.val / 11 % 2 * 1024 + q.val) (t.val % 11 * 512 + k.val) := by
  obtain ⟨e00, e01, e02, e10, e11, e12, -, -, -⟩ := idx_facts t
  have hN : t.val < 176 := lt_of_lt_of_eq t.isLt (show cfg1.N = 176 from N_1)
  have hp := p.isLt; have hq := q.isLt; have hk := k.isLt
  subst hx0; subst hx1
  unfold term
  rw [dif_pos ⟨by omega, hp, by omega, by omega⟩]
  refine congrArg₂ (· * ·) ?_ ?_
  · show V c main_v1 (((cfg1.win 0).blk t).view.emb (ix3 0 p k)) = V c main_v1 _
    congr 1; funext a; apply Fin.ext
    match a with
    | ⟨0, _⟩ => show win1_0.index t (0 : Fin 3) * 1 + 1 * 0 = t.val / 22; omega
    | ⟨1, _⟩ => show win1_0.index t (1 : Fin 3) * 1024 + 1 * p.val = p.val; omega
    | ⟨2, _⟩ => show win1_0.index t (2 : Fin 3) * 512 + 1 * k.val = t.val % 11 * 512 + k.val; omega
  · show V c main_arg2 (((cfg1.win 1).blk t).view.emb (ix3 0 k q)) = V c main_arg2 _
    congr 1; funext a; apply Fin.ext
    match a with
    | ⟨0, _⟩ => show win1_1.index t (0 : Fin 3) * 1 + 1 * 0 = t.val / 22; omega
    | ⟨1, _⟩ => show win1_1.index t (1 : Fin 3) * 512 + 1 * k.val = t.val % 11 * 512 + k.val; omega
    | ⟨2, _⟩ => show win1_1.index t (2 : Fin 3) * 1024 + 1 * q.val = t.val / 11 % 2 * 1024 + q.val; omega

/-- So the point's 512 products of block entries are its block of products. -/
theorem blockSum_eq (t : Fin cfg1.N) (p q : Fin 1024)
    (x0 : Vec Ideal S1x1024x512 .bf16) (x1 : Vec Ideal S1x512x1024 .f32) (hx0 : x0 = iblk V c 0 t) (hx1 : x1 = iblk V c 1 t) :
    ∑ k : Fin 512, x0 (ix3 0 p k) * x1 (ix3 0 k q) = blockSum (term (actV V c) (downV V c)) t.val p.val q.val :=
  Finset.sum_congr rfl fun k _ => block_term V c t p q k x0 x1 hx0 hx1

/-! ## The accumulator after every point -/

/-- After point `n` the accumulator holds, at row `p` and column `q`, the sum of the products of the activation blocks
    `0 … n % 11` of the point's run: by induction on the point, a first block from zero, a later one from the point before. -/
theorem acc_eq : ∀ (n : ℕ) (hn : n < cfg1.N) (p q : Fin 1024),
    (outsAt V c n hn).2 (ix2 p q) = runSum (term (actV V c) (downV V c)) n p.val q.val
  | 0, hn, p, q => by
    rw [outsAt_A V c ⟨0, hn⟩ (Nat.zero_mod _)]
    dsimp only
    rw [sout_A_eq c (grid1.coords ⟨0, hn⟩) (ms0 ⟨0, hn⟩) (hs0 ⟨0, hn⟩) (ms1 ⟨0, hn⟩) (hs1 ⟨0, hn⟩) (ms2 ⟨0, hn⟩) (hs2 ⟨0, hn⟩) scM (Memref.isWhole_whole _) (first_of ⟨0, hn⟩ (Nat.zero_mod _)) (notLast_of_first ⟨0, hn⟩ (Nat.zero_mod _)) (iblk V c 0 ⟨0, hn⟩) (iblk V c 1 ⟨0, hn⟩)]
    rw [pay2_apply, pay1_apply, zero_add, runSum_first _ _ _ _ (Nat.zero_mod _)]
    exact blockSum_eq V c ⟨0, hn⟩ p q _ _ rfl rfl
  | n + 1, hn, p, q => by
    by_cases h0 : (n + 1) % 11 = 0
    · rw [outsAt_A V c ⟨n + 1, hn⟩ h0]
      dsimp only
      rw [sout_A_eq c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (first_of ⟨n + 1, hn⟩ h0) (notLast_of_first ⟨n + 1, hn⟩ h0) (iblk V c 0 ⟨n + 1, hn⟩) (iblk V c 1 ⟨n + 1, hn⟩)]
      rw [pay2_apply, pay1_apply, zero_add, runSum_first _ _ _ _ h0]
      exact blockSum_eq V c ⟨n + 1, hn⟩ p q _ _ rfl rfl
    · by_cases h1 : (n + 1) % 11 = 10
      · rw [outsAt_C V c ⟨n + 1, hn⟩ h0 h1]
        dsimp only
        rw [sout_C_eq c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (last_of ⟨n + 1, hn⟩ h1) (iblk V c 0 ⟨n + 1, hn⟩) (iblk V c 1 ⟨n + 1, hn⟩)]
        rw [pay2_apply, runSum_step _ _ _ _ h0]
        exact congrArg₂ (· + ·) (acc_eq n (Nat.lt_of_succ_lt hn) p q) (blockSum_eq V c ⟨n + 1, hn⟩ p q _ _ rfl rfl)
      · rw [outsAt_B V c ⟨n + 1, hn⟩ h0 h1]
        dsimp only
        rw [sout_B_eq c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) scM (Memref.isWhole_whole _) (notFirst_of ⟨n + 1, hn⟩ h0) (notLast_of ⟨n + 1, hn⟩ h1) (iblk V c 0 ⟨n + 1, hn⟩) (iblk V c 1 ⟨n + 1, hn⟩)]
        rw [pay2_apply, runSum_step _ _ _ _ h0]
        exact congrArg₂ (· + ·) (acc_eq n (Nat.lt_of_succ_lt hn) p q) (blockSum_eq V c ⟨n + 1, hn⟩ p q _ _ rfl rfl)

/-! ## The stored block -/

/-- At the last activation block of a run the body leaves in the output block, at row `r` and column `col`, the whole
    inner product over the 5632 activations. -/
theorem out_last (V : VT Ideal) (c : Dev nD) (t : Fin cfg1.N) (h1 : t.val % 11 = 10) (r : Fin 1024) (col : Fin 1024) :
    (dat (F := Ideal) V c).after 2 t (ValueIdx.ix3 (0 : Fin 1) r col)
      = Cert.Spec.outAt (V c main_v1) (V c main_arg2) ⟨t.val / 22, by have := t.isLt; have : cfg1.N = 176 := N_1; omega⟩ r ⟨1024 * ((t.val / 11) % 2) + col.val, by omega⟩ := by
  have h0 : ¬t.val % 11 = 0 := by omega
  have hN : t.val < 176 := lt_of_lt_of_eq t.isLt (show cfg1.N = 176 from N_1)
  have hacc := acc_eq V c t.val t.isLt r col
  rw [after2]
  rw [outsAt_C V c t h0 h1] at hacc ⊢
  dsimp only at hacc ⊢
  rw [sout_C_eq c (grid1.coords t) (ms0 t) (hs0 t) (ms1 t) (hs1 t) (ms2 t) (hs2 t) scM (Memref.isWhole_whole _) (notFirst_of t h0) (last_of t h1) (iblk V c 0 t) (iblk V c 1 t)] at hacc
  rw [out_C_eq c (grid1.coords t) (ms0 t) (hs0 t) (ms1 t) (hs1 t) (ms2 t) (hs2 t) scM (Memref.isWhole_whole _) (notFirst_of t h0) (last_of t h1) (iblk V c 0 t) (iblk V c 1 t)]
  refine (pay3_apply _ r col).trans (hacc.trans ?_)
  rw [runSum_last _ _ _ _ h1]
  unfold Cert.Spec.outAt
  refine Finset.sum_congr rfl fun f _ => ?_
  have hr := r.isLt; have hcol := col.isLt; have hf := f.isLt
  unfold term
  rw [dif_pos ⟨by omega, hr, by omega, hf⟩]
  refine congrArg₂ (· * ·) rfl (congrArg (V c main_arg2) (funext fun a => Fin.ext ?_))
  match a with
  | ⟨0, _⟩ => rfl
  | ⟨1, _⟩ => rfl
  | ⟨2, _⟩ => show t.val / 11 % 2 * 1024 + col.val = 1024 * (t.val / 11 % 2) + col.val; omega

end Cert.KernelIdeal.Down

end
-- ==== Proof.KI.Down.Final.lean ====
/-
  The result array after the down kernel is the specification's result of the activation array and the down projection
  as the region finds them.
-/
import proofs.«104179_j6614249635977_2_alg».proof.Proof.KI.Down.ValueFinal
import proofs.«104179_j6614249635977_2_alg».proof.Proof.KI.Down.Value

noncomputable section

namespace Cert.KernelIdeal.Down

open Cert.KernelIdeal Cert.KernelIdeal.Gen
open Idealize.ShloMosaic Idealize.ShloMosaic.TcCoe

theorem final (V : VT Ideal) (c : Dev nD) :
    (dat (F := Ideal) V c).arrAt 2 cfg1.N = Cert.Spec.outArr (V c main_v1) (V c main_arg2) :=
  final_of V c (out_last V c)

end Cert.KernelIdeal.Down

end
-- ==== Proof.KI.Result.lean ====
/-
  What the kernel's program leaves in its result, at the extended reals. The run of the whole program ends with every
  buffer at the last boundary's contents; the result buffer there is the down kernel's result array regrouped, the down
  kernel's result array is the inner products of the activations with the down projection, the activations are the gated
  activations of the regrouped tokens' two projections, and the regrouped tokens are the argument regrouped: the
  specification's function of the three argument arrays between the same two regroupings the reference applies.
-/
import proofs.«104179_j6614249635977_2_alg».proof.Proof.KI.Whole
import proofs.«104179_j6614249635977_2_alg».proof.Proof.KI.GateUp.Final
import proofs.«104179_j6614249635977_2_alg».proof.Proof.KI.Down.Final
import proofs.«104179_j6614249635977_2_alg».proof.Proof.Spec

set_option maxRecDepth 16384

noncomputable section

namespace Cert.KernelIdeal.Whole

open Cert.KernelIdeal Cert.KernelIdeal.Gen
open Idealize.ShloMosaic Idealize.ShloMosaic.TcCoe
open Idealize.SL Idealize.SL.Sem

variable (m : (ℓ : Loc nD τ sig) → Buf (Elt Ideal) ℓ) (ρ : Dev nD → PrngReg)

/-- The regrouped tokens are the argument regrouped. -/
theorem W1_v0 (c : Dev nD) :
    W1 m c main_v0 = shapeCast _ (m ((c : Thread nD τ).loc main_arg0)) shapeCasts_S8192x2048_S8x1024x2048 := by
  show StableHlo.after hostOps0 (fun b => m (c, b)) (Proc.devRef .tc main_v0) = _
  after_results; rfl

/-- The result is the down kernel's result array regrouped. -/
theorem W4_v3 (c : Dev nD) :
    W4 m c main_v3 = shapeCast _ (W3 m c main_v2) shapeCasts_S8x1024x2048_S8192x2048 := by
  show StableHlo.after hostOps2 (W3 m c) (Proc.devRef .tc main_v3) = _
  after_results; rfl

/-- The result buffer at the last boundary, as the specification's function of the argument arrays. -/
theorem W4_v3_spec (c : Dev nD) :
    W4 m c main_v3 = shapeCast _ (Cert.Spec.outArr (Cert.Spec.actArr (shapeCast _ (m ((c : Thread nD τ).loc main_arg0)) shapeCasts_S8192x2048_S8x1024x2048)
      (m ((c : Thread nD τ).loc main_arg1))) (m ((c : Thread nD τ).loc main_arg2))) shapeCasts_S8x1024x2048_S8192x2048 := by
  have e1 : V2 m c main_v1 = act m c := W2_v1 m c
  have e2 : V2 m c main_arg2 = m ((c : Thread nD τ).loc main_arg2) :=
    (W2_of_ne m c main_arg2 (by decide)).trans (StableHlo.after_of_writes_sub hostOps0 _ hostOps0_writes (by decide))
  have e3 : V1 m c main_v0 = shapeCast _ (m ((c : Thread nD τ).loc main_arg0)) shapeCasts_S8192x2048_S8x1024x2048 := W1_v0 m c
  have e4 : V1 m c main_arg1 = m ((c : Thread nD τ).loc main_arg1) :=
    StableHlo.after_of_writes_sub hostOps0 _ hostOps0_writes (by decide)
  rw [W4_v3, W3_v2]
  unfold res
  rw [Down.final (V2 m) c, e1, e2]
  unfold act
  rw [GateUp.final (V1 m) c, e3, e4]

/-- Every weakly fair execution of the idealized kernel's program terminates with its result at the specification's
    function of the argument arrays, the arguments unchanged. -/
theorem result : θ_run (defs (F := Ideal)) (onTc (τ := τ) (main (F := Ideal))) ⟨m, fun _ => 0, ρ⟩ (fun r => ∀ c : Dev nD,
      r.2.mem ((c.tc : Thread nD τ).loc main_v3) = shapeCast _ (Cert.Spec.outArr (Cert.Spec.actArr (shapeCast _ (m ((c.tc : Thread nD τ).loc main_arg0)) shapeCasts_S8192x2048_S8x1024x2048)
        (m ((c.tc : Thread nD τ).loc main_arg1))) (m ((c.tc : Thread nD τ).loc main_arg2))) shapeCasts_S8x1024x2048_S8192x2048
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (W4_v3_spec m c),
     (h c _ (mem_uc main_arg0 (by decide))).trans (W4_arg m c main_arg0 (by decide) (by decide) (by decide) (by decide)),
     (h c _ (mem_uc main_arg1 (by decide))).trans (W4_arg m c main_arg1 (by decide) (by decide) (by decide) (by decide)),
     (h c _ (mem_uc main_arg2 (by decide))).trans (W4_arg m c main_arg2 (by decide) (by decide) (by decide) (by decide))⟩)
    (run_all m ρ)

end Cert.KernelIdeal.Whole

end
-- ==== Proof.Ref.Core.lean ====
/-
  The reference's composed term, read element by element, is the shared specification.

  Between its two reshapes the reference contracts the tokens' 2048 features with the 11264 projection columns, cuts the
  result into the gate half (columns 0 … 5631) and the up half (columns 5632 … 11263), forms
  `up · (gate · (1 / (1 + exp (−gate))))` and contracts the 5632 activations with the down projection. On the extended
  reals `1 / (1 + exp (−g))` is the logistic function by definition, a contraction read at an index is the sum of the
  products along the contracted axis, and the constant `1.0` is the real number one; so element `(e, t, h)` of the term is
  `Cert.Spec.outAt (Cert.Spec.actArr x w) d e t h`.
-/
import proofs.«104179_j6614249635977_2_alg».proof.Proof.Spec
import proofs.«104179_j6614249635977_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reference's term between its two reshapes, as a function of the grouped tokens and the two projections. -/
def refCore (x : FVec Ideal S8x1024x2048 .f32) (w : FVec Ideal S8x2048x11264 .f32) (d : FVec Ideal S8x5632x2048 .f32) :
    FVec Ideal S8x1024x2048 .f32 :=
  Host.dotGeneral (F := Ideal) dot_S8x1024x5632_S8x5632x2048_S8x1024x2048_2_1_1_2_0_0 none
    (mulf (extractStridedSlice S8x1024x5632 ![0, 0, 5632] (Host.dotGeneral (F := Ideal) dot_S8x1024x2048_S8x2048x11264_S8x1024x11264_2_1_1_2_0_0 none x w) slices_S8x1024x11264_S8x1024x5632_0_0_5632)
      (mulf (extractStridedSlice S8x1024x5632 ![0, 0, 0] (Host.dotGeneral (F := Ideal) dot_S8x1024x2048_S8x2048x11264_S8x1024x11264_2_1_1_2_0_0 none x w) slices_S8x1024x11264_S8x1024x5632_0_0_0)
        (Host.divf (F := Ideal) (broadcastInDim S8x1024x5632 ![] bcast_S_S8x1024x5632 (constant (F := Ideal) S_ .f32 0x3F800000#32))
          (addf (broadcastInDim S8x1024x5632 ![] bcast_S_S8x1024x5632 (constant (F := Ideal) S_ .f32 0x3F800000#32))
            (Host.exp (F := Ideal) (Host.negf (F := Ideal) (extractStridedSlice S8x1024x5632 ![0, 0, 0] (Host.dotGeneral (F := Ideal) dot_S8x1024x2048_S8x2048x11264_S8x1024x11264_2_1_1_2_0_0 none x w) slices_S8x1024x11264_S8x1024x5632_0_0_0)))))))
    d

/-- The first contraction at an index: the sum over the 2048 features. -/
theorem proj_apply (y : FVec Ideal S8x1024x2048 .f32) (z : FVec Ideal S8x2048x11264 .f32) (i : S8x1024x11264.Idx) :
    Host.dotGeneral (F := Ideal) dot_S8x1024x2048_S8x2048x11264_S8x1024x11264_2_1_1_2_0_0 none y z i
      = ∑ k : Fin 2048, y (lidx_main_v1 i k) * z (ridx_main_v1 i k) := by
  simp only [Host.dotGeneral]
  refine (Ideal.dotGeneral_apply dot_S8x1024x2048_S8x2048x11264_S8x1024x11264_2_1_1_2_0_0 none _ y z i).trans ?_
  rw [← Equiv.sum_comp (ValueIdx.contrEquiv1 dot_S8x1024x2048_S8x2048x11264_S8x1024x11264_2_1_1_2_0_0 2048 rfl rfl).symm]
  refine Finset.sum_congr rfl fun k _ => ?_
  have hk := ValueIdx.contrEquiv1_symm_val dot_S8x1024x2048_S8x2048x11264_S8x1024x11264_2_1_1_2_0_0 2048 rfl rfl k
  have el : dot_S8x1024x2048_S8x2048x11264_S8x1024x11264_2_1_1_2_0_0.lhsIdx i ((ValueIdx.contrEquiv1 dot_S8x1024x2048_S8x2048x11264_S8x1024x11264_2_1_1_2_0_0 2048 rfl rfl).symm k) = lidx_main_v1 i k := funext fun a => Fin.ext (by
    match a with
    | ⟨0, _⟩ => exact lhs_main_v1_0 _ _
    | ⟨1, _⟩ => exact lhs_main_v1_1 _ _
    | ⟨2, _⟩ => exact (lhs_main_v1_2 _ _).trans hk)
  have er : dot_S8x1024x2048_S8x2048x11264_S8x1024x11264_2_1_1_2_0_0.rhsIdx i ((ValueIdx.contrEquiv1 dot_S8x1024x2048_S8x2048x11264_S8x1024x11264_2_1_1_2_0_0 2048 rfl rfl).symm k) = ridx_main_v1 i k := funext fun a => Fin.ext (by
    match a with
    | ⟨0, _⟩ => exact rhs_main_v1_0 _ _
    | ⟨1, _⟩ => exact (rhs_main_v1_1 _ _).trans hk
    | ⟨2, _⟩ => exact rhs_main_v1_2 _ _)
  rw [el, er]

/-- The second contraction at an index: the sum over the 5632 activations. -/
theorem down_apply (y : FVec Ideal S8x1024x5632 .f32) (z : FVec Ideal S8x5632x2048 .f32) (i : S8x1024x2048.Idx) :
    Host.dotGeneral (F := Ideal) dot_S8x1024x5632_S8x5632x2048_S8x1024x2048_2_1_1_2_0_0 none y z i
      = ∑ k : Fin 5632, y (lidx_main_v6 i k) * z (ridx_main_v6 i k) := by
  simp only [Host.dotGeneral]
  refine (Ideal.dotGeneral_apply dot_S8x1024x5632_S8x5632x2048_S8x1024x2048_2_1_1_2_0_0 none _ y z i).trans ?_
  rw [← Equiv.sum_comp (ValueIdx.contrEquiv1 dot_S8x1024x5632_S8x5632x2048_S8x1024x2048_2_1_1_2_0_0 5632 rfl rfl).symm]
  refine Finset.sum_congr rfl fun k _ => ?_
  have hk := ValueIdx.contrEquiv1_symm_val dot_S8x1024x5632_S8x5632x2048_S8x1024x2048_2_1_1_2_0_0 5632 rfl rfl k
  have el : dot_S8x1024x5632_S8x5632x2048_S8x1024x2048_2_1_1_2_0_0.lhsIdx i ((ValueIdx.contrEquiv1 dot_S8x1024x5632_S8x5632x2048_S8x1024x2048_2_1_1_2_0_0 5632 rfl rfl).symm k) = lidx_main_v6 i k := funext fun a => Fin.ext (by
    match a with
    | ⟨0, _⟩ => exact lhs_main_v6_0 _ _
    | ⟨1, _⟩ => exact lhs_main_v6_1 _ _
    | ⟨2, _⟩ => exact (lhs_main_v6_2 _ _).trans hk)
  have er : dot_S8x1024x5632_S8x5632x2048_S8x1024x2048_2_1_1_2_0_0.rhsIdx i ((ValueIdx.contrEquiv1 dot_S8x1024x5632_S8x5632x2048_S8x1024x2048_2_1_1_2_0_0 5632 rfl rfl).symm k) = ridx_main_v6 i k := funext fun a => Fin.ext (by
    match a with
    | ⟨0, _⟩ => exact rhs_main_v6_0 _ _
    | ⟨1, _⟩ => exact (rhs_main_v6_1 _ _).trans hk
    | ⟨2, _⟩ => exact rhs_main_v6_2 _ _)
  rw [el, er]

/-- The constant `1.0` is the real number one. -/
theorem ofBits_one : Ideal.ofBits .f32 0x3F800000#32 = (1 : EReal) := by
  simp [Ideal.ofBits, Ideal.ieee, -EReal.coe_mul]; norm_num

/-- The broadcast constant reads one everywhere. -/
theorem one_apply (i : S8x1024x5632.Idx) : (broadcastInDim S8x1024x5632 ![] bcast_S_S8x1024x5632 (constant (F := Ideal) S_ .f32 0x3F800000#32)) i = (1 : EReal) := by
  refine (broadcastInDim_apply _ bcast_S_S8x1024x5632 (constant (F := Ideal) S_ .f32 0x3F800000#32) i (fun a => a.elim0)
    (fun a => a.elim0)).trans ?_
  exact ofBits_one

/-- The gate half of the projection at `(e, t, f)` is column `f`. -/
theorem gate_apply (x : FVec Ideal S8x1024x2048 .f32) (w : FVec Ideal S8x2048x11264 .f32) (e : Fin 8) (t : Fin 1024) (f : Fin 5632) :
    (extractStridedSlice S8x1024x5632 ![0, 0, 0] (Host.dotGeneral (F := Ideal) dot_S8x1024x2048_S8x2048x11264_S8x1024x11264_2_1_1_2_0_0 none x w) slices_S8x1024x11264_S8x1024x5632_0_0_0) (ix3 e t f) = Cert.Spec.proj x w e t ⟨f.val, by omega⟩ := by
  refine (extractStridedSlice_apply ![0, 0, 0] _ slices_S8x1024x11264_S8x1024x5632_0_0_0 (ix3 e t f)
    (ix3 e t (⟨f.val, by omega⟩ : Fin 11264)) (fun a => match a with
      | ⟨0, _⟩ => by show e.val = 0 + e.val; omega
      | ⟨1, _⟩ => by show t.val = 0 + t.val; omega
      | ⟨2, _⟩ => by show f.val = 0 + f.val; omega)).trans ?_
  refine (proj_apply x w _).trans ?_
  unfold Cert.Spec.proj
  refine Finset.sum_congr rfl fun k _ => ?_
  congr 1
  · exact congrArg x (funext fun a => match a with | ⟨0, _⟩ => rfl | ⟨1, _⟩ => rfl | ⟨2, _⟩ => rfl)
  · exact congrArg w (funext fun a => match a with | ⟨0, _⟩ => rfl | ⟨1, _⟩ => rfl | ⟨2, _⟩ => rfl)

/-- The up half of the projection at `(e, t, f)` is column `f + 5632`. -/
theorem up_apply (x : FVec Ideal S8x1024x2048 .f32) (w : FVec Ideal S8x2048x11264 .f32) (e : Fin 8) (t : Fin 1024) (f : Fin 5632) :
    (extractStridedSlice S8x1024x5632 ![0, 0, 5632] (Host.dotGeneral (F := Ideal) dot_S8x1024x2048_S8x2048x11264_S8x1024x11264_2_1_1_2_0_0 none x w) slices_S8x1024x11264_S8x1024x5632_0_0_5632) (ix3 e t f) = Cert.Spec.proj x w e t ⟨f.val + 5632, by omega⟩ := by
  refine (extractStridedSlice_apply ![0, 0, 5632] _ slices_S8x1024x11264_S8x1024x5632_0_0_5632 (ix3 e t f)
    (ix3 e t (⟨f.val + 5632, by omega⟩ : Fin 11264)) (fun a => match a with
      | ⟨0, _⟩ => by show e.val = 0 + e.val; omega
      | ⟨1, _⟩ => by show t.val = 0 + t.val; omega
      | ⟨2, _⟩ => by show f.val + 5632 = 5632 + f.val; omega)).trans ?_
  refine (proj_apply x w _).trans ?_
  unfold Cert.Spec.proj
  refine Finset.sum_congr rfl fun k _ => ?_
  congr 1
  · exact congrArg x (funext fun a => match a with | ⟨0, _⟩ => rfl | ⟨1, _⟩ => rfl | ⟨2, _⟩ => rfl)
  · exact congrArg w (funext fun a => match a with | ⟨0, _⟩ => rfl | ⟨1, _⟩ => rfl | ⟨2, _⟩ => rfl)

/-- The activation the reference forms at `(e, t, f)` is the specification's. -/
theorem act_apply (x : FVec Ideal S8x1024x2048 .f32) (w : FVec Ideal S8x2048x11264 .f32) (e : Fin 8) (t : Fin 1024) (f : Fin 5632) :
    (mulf (extractStridedSlice S8x1024x5632 ![0, 0, 5632] (Host.dotGeneral (F := Ideal) dot_S8x1024x2048_S8x2048x11264_S8x1024x11264_2_1_1_2_0_0 none x w) slices_S8x1024x11264_S8x1024x5632_0_0_5632)
      (mulf (extractStridedSlice S8x1024x5632 ![0, 0, 0] (Host.dotGeneral (F := Ideal) dot_S8x1024x2048_S8x2048x11264_S8x1024x11264_2_1_1_2_0_0 none x w) slices_S8x1024x11264_S8x1024x5632_0_0_0)
        (Host.divf (F := Ideal) (broadcastInDim S8x1024x5632 ![] bcast_S_S8x1024x5632 (constant (F := Ideal) S_ .f32 0x3F800000#32))
          (addf (broadcastInDim S8x1024x5632 ![] bcast_S_S8x1024x5632 (constant (F := Ideal) S_ .f32 0x3F800000#32))
            (Host.exp (F := Ideal) (Host.negf (F := Ideal) (extractStridedSlice S8x1024x5632 ![0, 0, 0] (Host.dotGeneral (F := Ideal) dot_S8x1024x2048_S8x2048x11264_S8x1024x11264_2_1_1_2_0_0 none x w) slices_S8x1024x11264_S8x1024x5632_0_0_0))))))) (ix3 e t f)
      = Cert.Spec.actAt x w e t f := by
  show (extractStridedSlice S8x1024x5632 ![0, 0, 5632] (Host.dotGeneral (F := Ideal) dot_S8x1024x2048_S8x2048x11264_S8x1024x11264_2_1_1_2_0_0 none x w) slices_S8x1024x11264_S8x1024x5632_0_0_5632) (ix3 e t f) * ((extractStridedSlice S8x1024x5632 ![0, 0, 0] (Host.dotGeneral (F := Ideal) dot_S8x1024x2048_S8x2048x11264_S8x1024x11264_2_1_1_2_0_0 none x w) slices_S8x1024x11264_S8x1024x5632_0_0_0) (ix3 e t f) *
      Ideal.div ((broadcastInDim S8x1024x5632 ![] bcast_S_S8x1024x5632 (constant (F := Ideal) S_ .f32 0x3F800000#32)) (ix3 e t f)) ((broadcastInDim S8x1024x5632 ![] bcast_S_S8x1024x5632 (constant (F := Ideal) S_ .f32 0x3F800000#32)) (ix3 e t f) + Ideal.exp (-((extractStridedSlice S8x1024x5632 ![0, 0, 0] (Host.dotGeneral (F := Ideal) dot_S8x1024x2048_S8x2048x11264_S8x1024x11264_2_1_1_2_0_0 none x w) slices_S8x1024x11264_S8x1024x5632_0_0_0) (ix3 e t f))))) = _
  rw [one_apply, gate_apply, up_apply]
  rfl

/-- Element `(e, t, h)` of the reference's term. -/
theorem refCore_at (x : FVec Ideal S8x1024x2048 .f32) (w : FVec Ideal S8x2048x11264 .f32) (d : FVec Ideal S8x5632x2048 .f32)
    (e : Fin 8) (t : Fin 1024) (h : Fin 2048) :
    refCore x w d (ix3 e t h) = Cert.Spec.outAt (Cert.Spec.actArr x w) d e t h := by
  unfold refCore
  refine (down_apply _ d (ix3 e t h)).trans ?_
  unfold Cert.Spec.outAt
  refine Finset.sum_congr rfl fun f _ => ?_
  have hl : lidx_main_v6 (ix3 e t h) f = ix3 e t f :=
    funext fun a => match a with | ⟨0, _⟩ => rfl | ⟨1, _⟩ => rfl | ⟨2, _⟩ => rfl
  have hr : ridx_main_v6 (ix3 e t h) f = ix3 e f h :=
    funext fun a => match a with | ⟨0, _⟩ => rfl | ⟨1, _⟩ => rfl | ⟨2, _⟩ => rfl
  rw [hl, hr]
  congr 1
  exact act_apply x w e t f

/-- The reference's term between its two reshapes is the specification's result array. -/
theorem refCore_eq (x : FVec Ideal S8x1024x2048 .f32) (w : FVec Ideal S8x2048x11264 .f32) (d : FVec Ideal S8x5632x2048 .f32) :
    refCore x w d = Cert.Spec.outArr (Cert.Spec.actArr x w) d := by
  funext j
  rw [eq_ix3 j]
  exact refCore_at x w d (j 0) (j 1) (j 2)

end Cert.ReferenceIdeal.RefValue

end
-- ==== Proof.Ref.Run.lean ====
/-
  The reference program's run, stated through the shared specification.

  Every weakly fair execution of the reference terminates with its result buffer at the reshape of the specification's
  result array, computed from the reshaped tokens and the two projections as they were at the launch, and with the three
  arguments unchanged. The two reshapes are kept as they are printed: the kernel's program applies the same two.
-/
import proofs.«104179_j6614249635977_2_alg».proof.Defs
import proofs.«104179_j6614249635977_2_alg».proof.Proof.Gen.ReferenceIdeal.Run
import proofs.«104179_j6614249635977_2_alg».proof.Proof.Gen.Pre_finite_inputs
import proofs.«104179_j6614249635977_2_alg».proof.Proof.Ref.Core

noncomputable section

namespace Cert.ReferenceIdeal.RefValue

open Cert.ReferenceIdeal Cert.ReferenceIdeal.Gen Idealize.ShloMosaic Idealize.ShloMosaic.TcCoe Idealize.SL.Sem
  Idealize.ShloMosaic.StableHlo

/-- The reference's run: the result buffer holds the reshaped specification, the arguments are unchanged. -/
theorem run_spec (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v7)
        = shapeCast _ (Cert.Spec.outArr
            (Cert.Spec.actArr (shapeCast _ (m' ((c.tc : Thread nD τ).loc main_arg0)) shapeCasts_S8192x2048_S8x1024x2048)
              (m' ((c.tc : Thread nD τ).loc main_arg1)))
            (m' ((c.tc : Thread nD τ).loc main_arg2))) shapeCasts_S8x1024x2048_S8192x2048
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2) :=
  (θ_run defs _ _).mono (fun _ h c =>
      ⟨(h c).1.trans (congrArg (fun v => shapeCast _ v shapeCasts_S8x1024x2048_S8192x2048)
          (refCore_eq (shapeCast _ (m' ((c.tc : Thread nD τ).loc main_arg0)) shapeCasts_S8192x2048_S8x1024x2048)
            (m' ((c.tc : Thread nD τ).loc main_arg1)) (m' ((c.tc : Thread nD τ).loc main_arg2)))),
        (h c).2⟩)
    (Cert.ReferenceIdeal.Value.run (F := Ideal) m' ρ')

/-- The reference leaves its arguments as they were. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  A mixture-of-experts feed-forward layer: the tokens, grouped by expert, are projected by each expert's gate and up
  matrices, gated (`up · gate · σ(gate)`, σ the logistic function) and projected down. The kernel's program does it in two
  pipelined kernels that accumulate each matrix product block by block along the contracted axis in scratch accumulators
  carried from grid point to grid point; the reference contracts each axis at once.

  The three frames. Each kernel is run symbolically at its three kinds of grid point (first, middle and last block of an
  accumulation); its proof data name what the accumulators and the output block hold after every point; the two regions
  are chained with the host's two regroupings, every buffer named between them. The same argument, read at the machine
  words and at the extended reals, gives the frames of the kernel's program and of its idealization; the reference's frame
  is its run with the result dropped.

  The idealization rewrote nothing, so that conjunct is `True`.

  The value. At the extended reals a change of float format is the identity, a matrix product into a zero accumulator is
  the plain sum over the contracted positions, addition is commutative and associative, and `0 + s = s`; so the
  accumulators after the last block hold the whole inner products, and both programs compute the same function of the
  arguments, between the same two regroupings. No finiteness of the inputs is used.
-/
import proofs.«104179_j6614249635977_2_alg».proof.Defs
import proofs.«104179_j6614249635977_2_alg».proof.Proof.Gen.Kernel
import proofs.«104179_j6614249635977_2_alg».proof.Proof.Gen.KernelIdeal
import proofs.«104179_j6614249635977_2_alg».proof.Proof.Gen.ReferenceIdeal
import proofs.«104179_j6614249635977_2_alg».proof.Proof.Gen.Pre_finite_inputs
import proofs.«104179_j6614249635977_2_alg».proof.Proof.K.Whole
import proofs.«104179_j6614249635977_2_alg».proof.Proof.KI.Result
import proofs.«104179_j6614249635977_2_alg».proof.Proof.Ref.Run

noncomputable section

namespace Cert.Proof

open Idealize.ShloMosaic Idealize.SL.Sem

theorem frame_k : Cert.frame_Kernel := fun m ρ _ => Cert.Kernel.Whole.frame (F := Bits) m ρ
theorem frame_ki : Cert.frame_KernelIdeal := fun m ρ _ => Cert.KernelIdeal.Whole.frame (F := Ideal) m ρ

/-- Both idealized programs end with their results at the specification's function of arguments that agree. -/
theorem algebraic : Cert.algebraic_KernelIdeal_ReferenceIdeal := by
  intro m ρ m' ρ' _ hagree
  refine ⟨_, Cert.KernelIdeal.Whole.result m ρ, ?_⟩
  refine (θ_run Cert.ReferenceIdeal.defs _ _).mono (fun _ h c => ⟨(h c).1.trans ?_, (h c).2⟩)
    (Cert.ReferenceIdeal.RefValue.run_spec m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
